-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38_2)) (v1 : (c : Dev Cert.KernelIdeal.nD) → Buf (Elt Ideal) ((c.tc : Thread Cert.KernelIdeal.nD Cert.KernelIdeal.τ).loc Cert.KernelIdeal.main_v38_0)) (v2 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_2) = v0 c
          ∧ r.2.mem ((c.tc : Thread Cert.KernelIdeal.nD Cert.KernelIdeal.τ).loc Cert.KernelIdeal.main_v38_0) = v1 c
          ∧ r.2.mem ((c.tc : Thread Cert.KernelIdeal.nD Cert.KernelIdeal.τ).loc Cert.KernelIdeal.main_v38_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S16x64 : Shape := ⟨2, ![16, 64]⟩
abbrev S64x256 : Shape := ⟨2, ![64, 256]⟩
abbrev S256 : Shape := ⟨1, ![256]⟩
abbrev S100000x16 : Shape := ⟨2, ![100000, 16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S16x64 : S_.BroadcastsInDim S16x64 (![] : Fin 0 → Fin S16x64.rank)
  reducesTo_S16x64_S_d0_1 : S16x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S100000x16 : S_.BroadcastsInDim S100000x16 (![] : Fin 0 → Fin S100000x16.rank)
  reducesTo_S100000x16_S_d0_1 : S100000x16.ReducesTo [0, 1] S_

variable [Facts]

def fn_part2 {F : FTy → Type} [FloatOps F] (main_arg8 : FVec F S64x256 .f32) (main_arg9 : FVec F S256 .f32) (main_arg10 : FVec F S100000x16 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S100000x16 .f32 := Host.absf main_arg10
  let main_cst_16 : FVec F S_ .f32 := constant S_ .f32 0x7F800000#32
  let main_v45 : FVec F S100000x16 .f32 := broadcastInDim S100000x16 ![] bcast_S_S100000x16 main_cst_16
  let main_v46 : IVec S100000x16 1 := cmpf .olt main_v44 main_v45
  let main_c_17 : IVec S_ 1 := constantI S_ 1 1#1
  let main_v47 : IVec S_ 1 := (fun x v => Host.reduce IntOp.andi x v reducesTo_S100000x16_S_d0_1 h_S_) main_v46 main_c_17
  let main_v48 : IVec S_ 1 := andi main_v43 main_v47
  main_v48

def fn_part1 {F : FTy → Type} [FloatOps F] (main_arg5 : FVec F S32 .f32) (main_arg6 : FVec F S16x64 .f32) (main_arg7 : FVec F S64 .f32) (main_arg8 : FVec F S64x256 .f32) (main_arg9 : FVec F S256 .f32) (main_arg10 : FVec F S100000x16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16x64 .f32 := Host.absf main_arg6
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x3200000 32) (main_arg2 : FVec F S256x64 .f32) (main_arg3 : FVec F S64 .f32) (main_arg4 : FVec F S64x32 .f32) (main_arg5 : FVec F S32 .f32) (main_arg6 : FVec F S16x64 .f32) (main_arg7 : FVec F S64 .f32) (main_arg8 : FVec F S64x256 .f32) (main_arg9 : FVec F S256 .f32) (main_arg10 : FVec F S100000x16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S16x64 : Shape := ⟨2, ![16, 64]⟩
abbrev S64x256 : Shape := ⟨2, ![64, 256]⟩
abbrev S256 : Shape := ⟨1, ![256]⟩
abbrev S100000x16 : Shape := ⟨2, ![100000, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S3200000x64 : Shape := ⟨2, ![3200000, 64]⟩
abbrev S1x64 : Shape := ⟨2, ![1, 64]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩
abbrev S1x256 : Shape := ⟨2, ![1, 256]⟩
abbrev S2000x32 : Shape := ⟨2, ![2000, 32]⟩
abbrev S2000x1 : Shape := ⟨2, ![2000, 1]⟩
abbrev S2000x16 : Shape := ⟨2, ![2000, 16]⟩
abbrev S2000x256 : Shape := ⟨2, ![2000, 256]⟩
abbrev S2000x64 : Shape := ⟨2, ![2000, 64]⟩

abbrev nBuf : Space → Nat
  | .hbm => 63
  | .vmem => 40
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S16x64, .f32⟩
  | .hbm, ⟨7, _⟩ => ⟨S64, .f32⟩
  | .hbm, ⟨8, _⟩ => ⟨S64x256, .f32⟩
  | .hbm, ⟨9, _⟩ => ⟨S256, .f32⟩
  | .hbm, ⟨10, _⟩ => ⟨S100000x16, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x64, .f32⟩
  | .hbm, ⟨37, _⟩ => ⟨S_, .f32⟩
  | .hbm, ⟨38, _⟩ => ⟨S100000x64, .f32⟩
  | .hbm, ⟨39, _⟩ => ⟨S3200000x1, .i32⟩
  | .hbm, ⟨40, _⟩ => ⟨S100000x64, .f32⟩
  | .hbm, ⟨41, _⟩ => ⟨S1x64, .f32⟩
  | .hbm, ⟨42, _⟩ => ⟨S100000x32, .f32⟩
  | .hbm, ⟨43, _⟩ => ⟨S100000x32, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x32, .f32⟩
  | .hbm, ⟨53, _⟩ => ⟨S_, .f32⟩
  | .hbm, ⟨54, _⟩ => ⟨S100000x32, .f32⟩
  | .hbm, ⟨55, _⟩ => ⟨S3200000x1, .i32⟩
  | .hbm, ⟨56, _⟩ => ⟨S100000x32, .f32⟩
  | .hbm, ⟨57, _⟩ => ⟨S1x32, .f32⟩
  | .hbm, ⟨58, _⟩ => ⟨S1x64, .f32⟩
  | .hbm, ⟨59, _⟩ => ⟨S1x256, .f32⟩
  | .hbm, ⟨60, _⟩ => ⟨S100000x16, .f32⟩
  | .hbm, ⟨61, _⟩ => ⟨S100000x16, .f32⟩
  | .hbm, ⟨62, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S64x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x1, .f32⟩
  | .local _ .vmem, ⟨26, _⟩ => ⟨S2000x1, .f32⟩
  | .local _ .vmem, ⟨27, _⟩ => ⟨S1x32, .f32⟩
  | .local _ .vmem, ⟨28, _⟩ => ⟨S2000x16, .f32⟩
  | .local _ .vmem, ⟨29, _⟩ => ⟨S2000x16, .f32⟩
  | .local _ .vmem, ⟨30, _⟩ => ⟨S16x64, .f32⟩
  | .local _ .vmem, ⟨31, _⟩ => ⟨S1x64, .f32⟩
  | .local _ .vmem, ⟨32, _⟩ => ⟨S64x256, .f32⟩
  | .local _ .vmem, ⟨33, _⟩ => ⟨S1x256, .f32⟩
  | .local _ .vmem, ⟨34, _⟩ => ⟨S2000x16, .f32⟩
  | .local _ .vmem, ⟨35, _⟩ => ⟨S2000x16, .f32⟩
  | .local _ .vmem, ⟨36, _⟩ => ⟨S2000x16, .f32⟩
  | .local _ .vmem, ⟨37, _⟩ => ⟨S2000x16, .f32⟩
  | .local _ .vmem, ⟨38, _⟩ => ⟨S2000x256, .f32⟩
  | .local _ .vmem, ⟨39, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v38_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc2_sem10_0 : DmaSem sig := 36
abbrev cc2_sem10_1 : DmaSem sig := 37
abbrev cc2_sem11_0 : DmaSem sig := 38
abbrev cc2_sem11_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S16x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x16 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x16 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2000x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  slices_S2000x32_o0_0_S2000x16 : S2000x32.Slices ![0, 0] S2000x16
  slices_S2000x32_o0_16_S2000x16 : S2000x32.Slices ![0, 16] S2000x16
  inb_S2000x16_S2000x16_0_0 : ∀ a, (![0, 0] : Fin 2 → Nat) a + S2000x16.size a ≤ S2000x16.size a
  h_S2000x16 : 0 < S2000x16.numel
  inb_S16x64_S16x64_0_0 : ∀ a, (![0, 0] : Fin 2 → Nat) a + S16x64.size a ≤ S16x64.size a
  h_S16x64 : 0 < S16x64.numel
  broadcasts_S1x64_S2000x64 : S1x64.Broadcasts S2000x64
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S100000_S3200000x1_S3200000_n_0_0_1_wf : ScatterDims.WF S100000 S3200000x1 S3200000 [] [0] [0] 1
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x16_S16x64_S2000x64_1_0_0_1_n_n_wf : DotDims.WF S2000x16 S16x64 S2000x64 [1] [0] [0] [1] [] []
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x16.size a ≤ S100000x16.size a
  hwx2_4 : ∀ i : grid2.Coords, EltTy.bits .f32 = 32 ∨ (Rect.block (s := S100000x16) S2000x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x64.size a ≤ S16x64.size a
  hwx2_5 : ∀ i : grid2.Coords, EltTy.bits .f32 = 32 ∨ (Rect.block (s := S16x64) S16x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x256.size a ≤ S64x256.size a
  hwx2_7 : ∀ i : grid2.Coords, EltTy.bits .f32 = 32 ∨ (Rect.block (s := S64x256) S64x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x16.size a ≤ S100000x16.size a
  hwx2_9 : ∀ i : grid2.Coords, EltTy.bits .f32 = 32 ∨ (Rect.block (s := S100000x16) S2000x16.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x16.size a ≤ S100000x16.size a
  hwx2_10 : ∀ i : grid2.Coords, EltTy.bits .f32 = 32 ∨ (Rect.block (s := S100000x16) S2000x16.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x256.size a ≤ S100000x256.size a
  hwx2_11 : ∀ i : grid2.Coords, EltTy.bits .f32 = 32 ∨ (Rect.block (s := S100000x256) S2000x256.size (cc2_transform_11 i) (hinb2_11 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S5000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24_1) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S2000x16.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S16x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S64x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v37) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v38_0) S2000x16.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v38_1) S2000x16.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v38_2) S2000x256.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S16x64 : Shape := ⟨2, ![16, 64]⟩
abbrev S64x256 : Shape := ⟨2, ![64, 256]⟩
abbrev S256 : Shape := ⟨1, ![256]⟩
abbrev S100000x16 : Shape := ⟨2, ![100000, 16]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S1x256 : Shape := ⟨2, ![1, 256]⟩

abbrev nBuf : Space → Nat
  | .hbm => 153
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64x32, .f32⟩
  | 5 => ⟨S32, .f32⟩
  | 6 => ⟨S16x64, .f32⟩
  | 7 => ⟨S64, .f32⟩
  | 8 => ⟨S64x256, .f32⟩
  | 9 => ⟨S256, .f32⟩
  | 10 => ⟨S100000x16, .f32⟩
  | 11 => ⟨S1x3200000, .i32⟩
  | 12 => ⟨S3200000, .i32⟩
  | 13 => ⟨S1x3200000, .i32⟩
  | 14 => ⟨S3200000, .i32⟩
  | 15 => ⟨S100000x64, .f32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S3200000, .i32⟩
  | 28 => ⟨S3200000, .i1⟩
  | 29 => ⟨S_, .i32⟩
  | 30 => ⟨S3200000, .i32⟩
  | 31 => ⟨S3200000, .i32⟩
  | 32 => ⟨S3200000, .i32⟩
  | 33 => ⟨S3200000x1, .i32⟩
  | 34 => ⟨S3200000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000x64, .f32⟩
  | 54 => ⟨S3200000x1, .f32⟩
  | 55 => ⟨S3200000x64, .f32⟩
  | 56 => ⟨S3200000x64, .f32⟩
  | 57 => ⟨S_, .f32⟩
  | 58 => ⟨S100000x64, .f32⟩
  | 59 => ⟨S3200000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x32, .f32⟩
  | 73 => ⟨S_, .f32⟩
  | 74 => ⟨S3200000, .f32⟩
  | 75 => ⟨S_, .f32⟩
  | 76 => ⟨S100000, .f32⟩
  | 77 => ⟨S3200000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000, .f32⟩
  | 101 => ⟨S3200000, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x32, .f32⟩
  | 111 => ⟨S3200000x1, .f32⟩
  | 112 => ⟨S3200000x32, .f32⟩
  | 113 => ⟨S3200000x32, .f32⟩
  | 114 => ⟨S_, .f32⟩
  | 115 => ⟨S100000x32, .f32⟩
  | 116 => ⟨S3200000x1, .i32⟩
  | 117 => ⟨S100000x32, .f32⟩
  | 118 => ⟨S100000, .f32⟩
  | 119 => ⟨S100000x1, .f32⟩
  | 120 => ⟨S100000x32, .f32⟩
  | 121 => ⟨S100000x32, .f32⟩
  | 122 => ⟨S100000x32, .f32⟩
  | 123 => ⟨S1x32, .f32⟩
  | 124 => ⟨S100000x32, .f32⟩
  | 125 => ⟨S100000x32, .f32⟩
  | 126 => ⟨S100000x16, .f32⟩
  | 127 => ⟨S100000x16, .f32⟩
  | _ => ⟨S100000x256, .f32⟩

abbrev hbmTy0_1 (i : Nat) : BufTy := match i % 128 with
  | 0 => ⟨S_, .f32⟩
  | 1 => ⟨S100000x16, .f32⟩
  | 2 => ⟨S100000x16, .f32⟩
  | 3 => ⟨S100000x16, .f32⟩
  | 4 => ⟨S100000x16, .f32⟩
  | 5 => ⟨S100000x16, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S100000x256, .f32⟩
  | 14 => ⟨S1x256, .f32⟩
  | 15 => ⟨S100000x256, .f32⟩
  | 16 => ⟨S100000x256, .f32⟩
  | 17 => ⟨S100000x256, .f32⟩
  | 18 => ⟨S100000x256, .f32⟩
  | 19 => ⟨S_, .f32⟩
  | 20 => ⟨S100000x256, .f32⟩
  | 21 => ⟨S100000x256, .f32⟩
  | 22 => ⟨S_, .f32⟩
  | 23 => ⟨S100000x256, .f32⟩
  | 24 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_18 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_call1_cst : Ref sig .tc := ⟨.hbm, 138, rfl⟩
abbrev main_call1_v0 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_v111 : Ref sig .tc := ⟨.hbm, 148, rfl⟩
abbrev main_v112 : Ref sig .tc := ⟨.hbm, 149, rfl⟩
abbrev main_cst_20 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S100000x32_S100000x16_0_0 : S100000x32.Slices ![0, 0] S100000x16
  slices_S100000x32_S100000x16_0_16 : S100000x32.Slices ![0, 16] S100000x16
  bcast_S_S100000x16 : S_.BroadcastsInDim S100000x16 (![] : Fin 0 → Fin S100000x16.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  dot_S100000x256_S256x64_S100000x64_1_0_0_1_n_n_wf : DotDims.WF S100000x256 S256x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x16_S16x64_S100000x64_1_0_0_1_n_n_wf : DotDims.WF S100000x16 S16x64 S100000x64 [1] [0] [0] [1] [] []
  dot_S100000x64_S64x256_S100000x256_1_0_0_1_n_n_wf : DotDims.WF S100000x64 S64x256 S100000x256 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf

class Facts : Prop extends Facts₀ where

variable [Facts]
-- ==== Proof.KernelRun.lean ====
/-
  The idealized kernel's run, read at its last boundary.

  The program is three kernel regions among stretches of host operations.  Every weakly fair execution from the
  launch memory terminates without a fault, and in the final memory every buffer that outlives the regions holds
  what the fold through the program leaves there: the host stretches applied to the contents before them, and each
  region's arrays at what its write-backs leave.  Everything else about the kernel's values is read off that fold.
-/
import proofs.«145747_j12695923327676_2_alg».proof.Proof.Gen.KernelIdeal.Frame

set_option maxRecDepth 16384

noncomputable section

namespace Cert.KernelIdeal.AtBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that outlives the regions ends at the
    last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.AtBoundary

end
-- ==== Proof.Spec.lean ====
/-
  The forward pass of a two-layer graph-convolution encoder with a reparametrized latent and a two-layer
  decoder, as functions of the argument arrays, entry by entry, on the extended reals.

  A graph-convolution layer sends node features `h` to
      out(n, c) = Σ over edges e that land on n of  h(src e, c) · (dinv(src e) · dinv(dst e))
                  + h(n, c) · dinv(n)² + b(c),
  with `dinv(n) = 1 / √(1 + number of edges landing on n)`.  It can be arranged in two ways: with the factor
  `dinv(dst e)` taken on every edge (`convEdge`), or with the rows scaled by `dinv` before the edge sum and the
  sum scaled by `dinv(n)` after it (`convPost`).  The network below takes the arrangement as a parameter.

  An edge's endpoints are 32-bit words.  A source is read as a row number by first adding the node count to a
  negative word and then clamping into the table (`srcRow`); an edge lands on node `n` when its destination
  word, read signed, is exactly `n` (`lands`), so an edge whose destination is outside the table lands nowhere.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.Vgae

/-- The edge list: row 0 the sources, row 1 the destinations. -/
abbrev EdgeWords := (⟨2, ![2, 3200000]⟩ : Shape).Idx → BitVec 32
abbrev Mat (a b : Nat) := (⟨2, ![a, b]⟩ : Shape).Idx → EReal
abbrev Vect (a : Nat) := (⟨1, ![a]⟩ : Shape).Idx → EReal

/-- The float words 1.0 and 0.5. -/
abbrev one : EReal := Ideal.ofBits .f32 0x3F800000#32
abbrev half : EReal := Ideal.ofBits .f32 0x3F000000#32

/-- A rank-2 array given by its entries. -/
def ofCoords {a b : Nat} (g : Fin a → Fin b → EReal) : Mat a b := fun i => g (i 0) (i 1)

@[simp] theorem ofCoords_ix2 {a b : Nat} (g : Fin a → Fin b → EReal) (p : Fin a) (q : Fin b) :
    ofCoords g (ix2 p q) = g p q := rfl

/-- A negative word is moved up by the node count. -/
def wrapWord (w : BitVec 32) : BitVec 32 := Scalar.select (IntOp.cmpi .slt w 0#32) (IntOp.addi w 100000#32) w

/-- A word read signed and clamped into the table's rows. -/
def rowOf (w : BitVec 32) : Fin 100000 := ⟨min w.toInt.toNat (100000 - 1), by omega⟩

section Graph
variable (ei : EdgeWords)

def srcRow (e : Fin 3200000) : Fin 100000 := rowOf (wrapWord (ei (ix2 (0 : Fin 2) e)))
def dstRow (e : Fin 3200000) : Fin 100000 := rowOf (wrapWord (ei (ix2 (1 : Fin 2) e)))

/-- Edge `e` lands on node `n`. -/
abbrev lands (e : Fin 3200000) (n : Fin 100000) : Prop := (ei (ix2 (1 : Fin 2) e)).toInt = (n.val : Int)

/-- One plus the number of edges landing on `n`. -/
def degree (n : Fin 100000) : EReal := (0 + ∑ e : Fin 3200000, if lands ei e n then one else 0) + one

def dinv (n : Fin 100000) : EReal := Ideal.rsqrt (degree ei n)

/-- Rows scaled before the edge sum, the sum scaled after it. -/
def convPost (C : Nat) (h : Fin 100000 → Fin C → EReal) (b : Vect C) (n : Fin 100000) (c : Fin C) : EReal :=
  dinv ei n * (0 + ∑ e : Fin 3200000, if lands ei e n then h (srcRow ei e) c * dinv ei (srcRow ei e) else 0)
    + h n c * dinv ei n * dinv ei n + b (ix1 c)

/-- Both factors taken on every edge. -/
def convEdge (C : Nat) (h : Fin 100000 → Fin C → EReal) (b : Vect C) (n : Fin 100000) (c : Fin C) : EReal :=
  (0 + ∑ e : Fin 3200000, if lands ei e n then h (srcRow ei e) c * (dinv ei (srcRow ei e) * dinv ei (dstRow ei e)) else 0)
    + h n c * (dinv ei n * dinv ei n) + b (ix1 c)

end Graph

/-- Rows times columns. -/
def lin {K C : Nat} (a : Fin 100000 → Fin K → EReal) (w : Mat K C) (n : Fin 100000) (c : Fin C) : EReal :=
  ∑ k : Fin K, a n k * w (ix2 k c)

def relu (v : EReal) : EReal := max v 0

section Net
-- `conv` is the arrangement of a graph-convolution layer, for any width
variable (conv : (C : Nat) → (Fin 100000 → Fin C → EReal) → Vect C → Fin 100000 → Fin C → EReal)
variable (x : Mat 100000 256) (W1 : Mat 256 64) (b1 : Vect 64) (W2 : Mat 64 32) (b2 : Vect 32)
  (Wd1 : Mat 16 64) (bd1 : Vect 64) (Wd2 : Mat 64 256) (bd2 : Vect 256) (eps : Mat 100000 16)

/-- The first layer, after its rectifier. -/
def hidden (n : Fin 100000) (c : Fin 64) : EReal := relu (conv 64 (lin (fun n k => x (ix2 n k)) W1) b1 n c)

/-- The second layer: means in columns 0–15, log-variances in columns 16–31. -/
def enc (n : Fin 100000) (c : Fin 32) : EReal := conv 32 (lin (hidden conv x W1 b1) W2) b2 n c

def mu (n : Fin 100000) (c : Fin 16) : EReal := enc conv x W1 b1 W2 b2 n ⟨0 + c.val, by omega⟩
def logvar (n : Fin 100000) (c : Fin 16) : EReal := enc conv x W1 b1 W2 b2 n ⟨16 + c.val, by omega⟩

/-- The sampled latent. -/
def latent (n : Fin 100000) (c : Fin 16) : EReal :=
  mu conv x W1 b1 W2 b2 n c + eps (ix2 n c) * Ideal.exp (half * logvar conv x W1 b1 W2 b2 n c)

def decHidden (n : Fin 100000) (c : Fin 64) : EReal :=
  relu (lin (latent conv x W1 b1 W2 b2 eps) Wd1 n c + bd1 (ix1 c))

def decoded (n : Fin 100000) (c : Fin 256) : EReal :=
  Ideal.logistic (lin (decHidden conv x W1 b1 W2 b2 Wd1 bd1 eps) Wd2 n c + bd2 (ix1 c))

end Net

end Cert.Vgae

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibScatterVec.lean ====
/-
  A float scatter-add of single entries into a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- A vector's index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: operand `[N]`, scatter indices `[E, 1]` (one
    position per update entry), updates `[E]`; the operand's one axis inserted, so the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update entry `e` starts at the position of update entry `e`, read signed. -/
theorem vecScatter_start :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem vecScatter_window : (vecScatter N E wf).window (ix1 e) 0 = 0 := by
  unfold ScatterDims.window
  rw [dif_neg (show ¬ ((0 : Fin 1) ∈ (vecScatter N E wf).sKept) from
    (show ¬ ((0 : Fin 1) ∈ (List.finRange 1).filter (fun a => a ∉ ([0] : List (Fin 1)))) from by decide))]

end Coordinates

/-- Update entry `e` lands at operand entry `n` exactly when the position of update entry `e`, read signed and not
    clamped, is `n`. -/
theorem vecScatter_resultIdx_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  have hs := vecScatter_start wf idx e
  have hw := vecScatter_window wf e
  have hn := n.isLt
  unfold ScatterDims.resultIdx?
  constructor
  · intro h
    split at h
    · rename_i hin
      have h' := Option.some.inj h
      have e0 : ((vecScatter N E wf).start (ix1 e) idx 0 + ((vecScatter N E wf).window (ix1 e) 0 : Nat)).toNat = n.val :=
        congrArg (fun f => (f 0).val) h'
      have p0 := (hin 0).1
      rw [hs, hw] at e0 p0
      omega
    · exact absurd h (by simp)
  · intro h1
    have hin : ∀ a, 0 ≤ (vecScatter N E wf).start (ix1 e) idx a + ((vecScatter N E wf).window (ix1 e) a : Nat)
        ∧ (vecScatter N E wf).start (ix1 e) idx a + ((vecScatter N E wf).window (ix1 e) a : Nat)
          < ((⟨1, ![N]⟩ : Shape).size a : Nat) := by
      intro a
      obtain rfl : a = 0 := Subsingleton.elim _ _
      show 0 ≤ (vecScatter N E wf).start (ix1 e) idx 0 + ((vecScatter N E wf).window (ix1 e) 0 : Nat)
        ∧ (vecScatter N E wf).start (ix1 e) idx 0 + ((vecScatter N E wf).window (ix1 e) 0 : Nat) < (N : Int)
      rw [hs, hw, h1]; omega
    rw [dif_pos hin]
    congr 1
    funext a
    obtain rfl : a = 0 := Subsingleton.elim _ _
    refine Fin.ext ?_
    show ((vecScatter N E wf).start (ix1 e) idx 0 + ((vecScatter N E wf).window (ix1 e) 0 : Nat)).toNat = n.val
    rw [hs, hw, h1]; omega

/-- At the ideal instance the scatter-add of single entries read at `n` is the operand's entry plus the sum, over the
    update entries whose position (read signed, not clamped) is `n`, of the update's entry; an update entry whose
    position is outside `[0, N)` lands nowhere. -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  change x (ix1 n) + _ = _
  congr 1
  rw [Finset.sum_filter, sum_idx1]
  refine Finset.sum_congr rfl fun e _ => ?_
  simp only [vecScatter_resultIdx_eq_some_iff]

end Cert.LibVec

end
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.HostForms.lean ====
/-
  The host computations around the kernel regions, read at an entry, for any arrays.

  * The degree: scatter-adding a one for every edge into a zero vector at the edge's destination, adding one and
    taking the reciprocal square root gives, at node `n`,
    `1 / √(1 + number of edges whose destination word, read signed, is n)`.
  * The aggregate: gathering the rows of a table at the edges' sources (a negative source word first moved up by the
    node count, the result clamped into the table) and scatter-adding them into a zero table at the edges'
    destinations gives, at `(n, c)`, the sum over the edges landing on `n` of the table at the edge's source row.
  * A bias vector kept as a one-row matrix, a scalar broadcast, the edge words kept as a column.
  The arrays are arbitrary, with their entries given by hypotheses.
-/
import proofs.«145747_j12695923327676_2_alg».proof.Proof.Spec
import proofs.«145747_j12695923327676_2_alg».proof.Proof.LibKeepdims
import proofs.«145747_j12695923327676_2_alg».proof.Proof.LibScatterVec
import proofs.«145747_j12695923327676_2_alg».proof.Proof.LibScatterRows
import proofs.«145747_j12695923327676_2_alg».proof.Proof.LibGatherRows
import Idealize.ShloMosaic.Lib.Pipeline.Value
import Idealize.ShloMosaic.Lib.ValueIdx
import Idealize.ShloMosaic.Lib.ValueLayout
import Idealize.ShloMosaic.PureOps.Ideal.Laws

noncomputable section

namespace Cert.Vgae.HostForms

open Idealize.ShloMosaic Idealize.ShloMosaic.ValueIdx Cert.Vgae
open scoped BigOperators

variable {α : Type}

/-- A scalar broadcast to any shape holds the scalar everywhere. -/
theorem scalar_everywhere {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- The zero word broadcast to any shape is zero everywhere. -/
theorem zeros_everywhere {t : Shape} (h : (⟨0, ![]⟩ : Shape).BroadcastsInDim t (![] : Fin 0 → Fin t.rank)) (j : t.Idx) :
    broadcastInDim t ![] h (constant (F := Ideal) ⟨0, ![]⟩ .f32 0x00000000#32) j = (0 : EReal) :=
  (scalar_everywhere h _ j).trans Ideal.ofBits_zero_f32

/-- The word of 1.0 broadcast to any shape is `one` everywhere. -/
theorem ones_everywhere {t : Shape} (h : (⟨0, ![]⟩ : Shape).BroadcastsInDim t (![] : Fin 0 → Fin t.rank)) (j : t.Idx) :
    broadcastInDim t ![] h (constant (F := Ideal) ⟨0, ![]⟩ .f32 0x3F800000#32) j = one :=
  scalar_everywhere h _ j

/-- The edge words kept as a column: entry `(e, 0)` is word `e`. -/
theorem wordColumn_apply (h : (⟨1, ![3200000]⟩ : Shape).BroadcastsInDim ⟨2, ![3200000, 1]⟩ (![0] : Fin 1 → Fin 2))
    (v : (⟨1, ![3200000]⟩ : Shape).Idx → α) (e : Fin 3200000) (u : Fin 1) :
    broadcastInDim ⟨2, ![3200000, 1]⟩ ![0] h v (ix2 e u) = v (ix1 e) :=
  broadcastInDim_apply _ h v _ (ix1 e) (fun a => match a with
    | ⟨0, _⟩ => by show e.val = if (3200000 : Nat) = 1 then 0 else e.val; rw [if_neg (by decide)])

/-- A source word moved up when negative, entry by entry. -/
theorem wrapped_apply (hE : (⟨0, ![]⟩ : Shape).BroadcastsInDim ⟨1, ![3200000]⟩ (![] : Fin 0 → Fin 1))
    (src : (⟨1, ![3200000]⟩ : Shape).Idx → BitVec 32) (j : (⟨1, ![3200000]⟩ : Shape).Idx) :
    select (cmpi .slt src (broadcastInDim ⟨1, ![3200000]⟩ ![] hE (constantI ⟨0, ![]⟩ 32 0#32)))
        (addi src (broadcastInDim ⟨1, ![3200000]⟩ ![] hE (constantI ⟨0, ![]⟩ 32 100000#32))) src j
      = wrapWord (src j) := by
  show Scalar.select (IntOp.cmpi .slt (src j) (broadcastInDim ⟨1, ![3200000]⟩ ![] hE (constantI ⟨0, ![]⟩ 32 0#32) j))
      (IntOp.addi (src j) (broadcastInDim ⟨1, ![3200000]⟩ ![] hE (constantI ⟨0, ![]⟩ 32 100000#32) j)) (src j) = _
  rw [scalar_everywhere, scalar_everywhere]
  rfl

theorem hostRsqrt_apply {s : Shape} {φ : FTy} (v : FVec Ideal s φ) (i : s.Idx) : Host.rsqrt v i = Ideal.rsqrt (v i) := rfl

/-- The reciprocal square root of the degree at node `n`: `X` the zero vector, `U` the ones, `I` the destination
    words as a column, `B` the ones. -/
theorem degreeRsqrt_apply
    (wfS : ScatterDims.WF ⟨1, ![100000]⟩ ⟨2, ![3200000, 1]⟩ ⟨1, ![3200000]⟩ [] [0] [0] 1)
    (X B : FVec Ideal ⟨1, ![100000]⟩ .f32) (I : IVec ⟨2, ![3200000, 1]⟩ 32) (U : FVec Ideal ⟨1, ![3200000]⟩ .f32)
    (dst : Fin 3200000 → BitVec 32)
    (hX : ∀ i, X i = 0) (hB : ∀ i, B i = one) (hU : ∀ i, U i = one) (hI : ∀ e : Fin 3200000, I (ix2 e (0 : Fin 1)) = dst e)
    (n : Fin 100000) :
    Host.rsqrt (F := Ideal) (φ := .f32) (addf (Host.scatterAdd (Cert.LibVec.vecScatter 100000 3200000 wfS) X I U) B) (ix1 n)
      = Ideal.rsqrt ((0 + ∑ e : Fin 3200000, if (dst e).toInt = (n.val : Int) then one else 0) + one) := by
  rw [hostRsqrt_apply, addf_apply, Cert.LibVec.scatterAdd_vec_apply, hX, hB]
  simp only [hI, hU]

/-- The aggregate at `(n, c)`: `X` the zero table, `I` the destination words as a column, `J` the wrapped source
    words as a column. -/
theorem aggregate_apply {C : Nat}
    (wfG : GatherDims.WF ⟨2, ![100000, C]⟩ ⟨2, ![3200000, 1]⟩ ⟨2, ![3200000, C]⟩ [1] [0] [] [0] [] 1 ![1, C])
    (wfS : ScatterDims.WF ⟨2, ![100000, C]⟩ ⟨2, ![3200000, 1]⟩ ⟨2, ![3200000, C]⟩ [1] [0] [0] 1)
    (X tbl : FVec Ideal ⟨2, ![100000, C]⟩ .f32) (I J : IVec ⟨2, ![3200000, 1]⟩ 32)
    (src dst : Fin 3200000 → BitVec 32)
    (hX : ∀ i, X i = 0) (hI : ∀ e : Fin 3200000, I (ix2 e (0 : Fin 1)) = dst e)
    (hJ : ∀ e : Fin 3200000, J (ix2 e (0 : Fin 1)) = wrapWord (src e))
    (n : Fin 100000) (c : Fin C) :
    Host.scatterAdd (F := Ideal) (φ := .f32) (Cert.LibRows.rowsScatter 100000 C 3200000 wfS) X I
        (Host.gather (Cert.LibRows.rowsGather 100000 C 3200000 wfG) tbl J) (ix2 n c)
      = 0 + ∑ e : Fin 3200000, if (dst e).toInt = (n.val : Int) then tbl (ix2 (rowOf (wrapWord (src e))) c) else 0 := by
  rw [Cert.LibRows.scatterAdd_rows_apply, hX]
  refine congrArg (0 + ·) (Finset.sum_congr rfl fun e _ => ?_)
  rw [hI e, Cert.LibRows.gather_rows_apply (by decide : 0 < 100000) wfG tbl J e c]
  show (if (dst e).toInt = (n.val : Int) then tbl (ix2 (rowOf (J (ix2 e (0 : Fin 1)))) c) else 0) = _
  rw [hJ e]

/-- A bias vector kept as a one-row matrix: entry `(0, k)` is entry `k`. -/
theorem biasRow_apply {C : Nat} (h : (⟨1, ![C]⟩ : Shape).ShapeCasts ⟨2, ![1, C]⟩) (b : (⟨1, ![C]⟩ : Shape).Idx → α)
    (u : Fin 1) (k : Fin C) : shapeCast ⟨2, ![1, C]⟩ b h (ix2 u k) = b (ix1 k) :=
  shapeCast_apply b h _ _ (by
    have hu : u.val = 0 := by omega
    rw [Shape.rowMajor_val_two, Shape.rowMajor_val_one]
    show k.val = u.val * C + k.val
    rw [hu, Nat.zero_mul, Nat.zero_add])

end Cert.Vgae.HostForms

end
-- ==== Proof.Stretches.lean ====
/-
  The three stretches of host operations of the idealized kernel, read at the buffers the regions and the later
  stretches use, over ANY contents `W` of the buffers before the stretch.

  * Before the first region: the edge list's two rows as vectors of words (`s0_src`, `s0_dst`), and the column of
    `dinv` (`s0_dinv`): a one scatter-added per edge at its destination, plus one, reciprocal square root, kept as a column.
  * Before the second and before the third region: the previous region's scaled rows gathered at the edges' sources and
    scatter-added at their destinations (`s1_agg`, `s2_agg`), and the bias vectors kept as one-row matrices.
  * A buffer no operation of a stretch writes holds after it what it held before (`sK_keep_…`).
-/
import proofs.«145747_j12695923327676_2_alg».proof.Proof.Gen.KernelIdeal.Frame
import proofs.«145747_j12695923327676_2_alg».proof.Proof.Spec
import proofs.«145747_j12695923327676_2_alg».proof.Proof.HostForms
import proofs.«145747_j12695923327676_2_alg».proof.Proof.LibKeepdims
import Idealize.ShloMosaic.Lib.StableHlo.Run
import Idealize.ShloMosaic.Lib.Pipeline.Value
import Idealize.ShloMosaic.Lib.ValueLayout

set_option maxRecDepth 16384

noncomputable section

namespace Cert.KernelIdeal.Stretch

open Cert.KernelIdeal Cert.KernelIdeal.Gen Cert.Vgae Cert.Vgae.HostForms
open Idealize.ShloMosaic Idealize.ShloMosaic.TcCoe Idealize.ShloMosaic.ValueIdx Idealize.SL.Sem Idealize.ShloMosaic.StableHlo
open scoped BigOperators

/-- `dinv` with its degree written out. -/
theorem dinv_eq (ei : EdgeWords) (n : Fin 100000) :
    dinv ei n = Ideal.rsqrt ((0 + ∑ e : Fin 3200000, if (ei (ix2 (1 : Fin 2) e)).toInt = (n.val : Int) then one else 0) + one) := rfl

variable (W : Valuation τ sig (Elt Ideal))

/-! ## Before the first region -/

/-- The sources: row 0 of the edge list. -/
theorem s0_src (ei : EdgeWords) (h : W (Proc.devRef .tc main_arg1) = ei) (e : Fin 3200000) :
    (StableHlo.after (hostOps0 (F := Ideal)) W (Proc.devRef .tc main_v1) : S3200000.Idx → BitVec 32) (ix1 e) = ei (ix2 (0 : Fin 2) e) := by
  subst h
  after_results
  show shapeCast S3200000 (extractStridedSlice S1x3200000 ![0, 0] (W (Proc.devRef .tc main_arg1)) _) _ (ix1 e) = _
  refine (shapeCast_1a_a_apply _ _ e).trans ?_
  exact slice2_axis0_apply 0 _ _ (0 : Fin 1) e (0 : Fin 2) rfl

/-- The destinations: row 1 of the edge list. -/
theorem s0_dst (ei : EdgeWords) (h : W (Proc.devRef .tc main_arg1) = ei) (e : Fin 3200000) :
    (StableHlo.after (hostOps0 (F := Ideal)) W (Proc.devRef .tc main_v3) : S3200000.Idx → BitVec 32) (ix1 e) = ei (ix2 (1 : Fin 2) e) := by
  subst h
  after_results
  show shapeCast S3200000 (extractStridedSlice S1x3200000 ![1, 0] (W (Proc.devRef .tc main_arg1)) _) _ (ix1 e) = _
  refine (shapeCast_1a_a_apply _ _ e).trans ?_
  exact slice2_axis0_apply 1 _ _ (0 : Fin 1) e (1 : Fin 2) rfl

/-- The column of `dinv`. -/
theorem s0_dinv (ei : EdgeWords) (h : W (Proc.devRef .tc main_arg1) = ei) (n : Fin 100000) (u : Fin 1) :
    (StableHlo.after (hostOps0 (F := Ideal)) W (Proc.devRef .tc main_v11) : S100000x1.Idx → EReal) (ix2 n u) = dinv ei n := by
  subst h
  after_results
  show shapeCast S100000x1 (Host.rsqrt (F := Ideal) (φ := .f32)
    (addf (Host.scatterAdd scatter_S100000_S3200000x1_S3200000_n_0_0_1 _ _ _) _)) _ (ix2 n u) = _
  refine (Cert.Keepdims.shapeCast_a_a1_apply _ _ n u).trans ?_
  rw [dinv_eq]
  exact degreeRsqrt_apply _ _ _ _ _ (fun e => (W (Proc.devRef .tc main_arg1) : S2x3200000.Idx → BitVec 32) (ix2 (1 : Fin 2) e))
    (fun i => zeros_everywhere _ i) (fun i => ones_everywhere _ i) (fun i => ones_everywhere _ i)
    (fun e => (wordColumn_apply _ _ e (0 : Fin 1)).trans
      ((shapeCast_1a_a_apply _ _ e).trans (slice2_axis0_apply 1 _ _ (0 : Fin 1) e (1 : Fin 2) rfl))) n

theorem s0_keep_arg0 : StableHlo.after (hostOps0 (F := Ideal)) W (Proc.devRef .tc main_arg0) = W (Proc.devRef .tc main_arg0) := by
  after_results <;> rfl
theorem s0_keep_arg2 : StableHlo.after (hostOps0 (F := Ideal)) W (Proc.devRef .tc main_arg2) = W (Proc.devRef .tc main_arg2) := by
  after_results <;> rfl
theorem s0_keep_arg3 : StableHlo.after (hostOps0 (F := Ideal)) W (Proc.devRef .tc main_arg3) = W (Proc.devRef .tc main_arg3) := by
  after_results <;> rfl
theorem s0_keep_arg4 : StableHlo.after (hostOps0 (F := Ideal)) W (Proc.devRef .tc main_arg4) = W (Proc.devRef .tc main_arg4) := by
  after_results <;> rfl
theorem s0_keep_arg5 : StableHlo.after (hostOps0 (F := Ideal)) W (Proc.devRef .tc main_arg5) = W (Proc.devRef .tc main_arg5) := by
  after_results <;> rfl
theorem s0_keep_arg6 : StableHlo.after (hostOps0 (F := Ideal)) W (Proc.devRef .tc main_arg6) = W (Proc.devRef .tc main_arg6) := by
  after_results <;> rfl
theorem s0_keep_arg7 : StableHlo.after (hostOps0 (F := Ideal)) W (Proc.devRef .tc main_arg7) = W (Proc.devRef .tc main_arg7) := by
  after_results <;> rfl
theorem s0_keep_arg8 : StableHlo.after (hostOps0 (F := Ideal)) W (Proc.devRef .tc main_arg8) = W (Proc.devRef .tc main_arg8) := by
  after_results <;> rfl
theorem s0_keep_arg9 : StableHlo.after (hostOps0 (F := Ideal)) W (Proc.devRef .tc main_arg9) = W (Proc.devRef .tc main_arg9) := by
  after_results <;> rfl
theorem s0_keep_arg10 : StableHlo.after (hostOps0 (F := Ideal)) W (Proc.devRef .tc main_arg10) = W (Proc.devRef .tc main_arg10) := by
  after_results <;> rfl

/-! ## Before the second region -/

/-- The rows of the table summed over the edges landing on each node. -/
theorem s1_agg (tbl : S100000x64.Idx → EReal) (src dst : Fin 3200000 → BitVec 32)
    (htbl : W (Proc.devRef .tc main_v12_0) = tbl)
    (hsrc : ∀ e : Fin 3200000, (W (Proc.devRef .tc main_v1) : S3200000.Idx → BitVec 32) (ix1 e) = src e)
    (hdst : ∀ e : Fin 3200000, (W (Proc.devRef .tc main_v3) : S3200000.Idx → BitVec 32) (ix1 e) = dst e)
    (n : Fin 100000) (k : Fin 64) :
    (StableHlo.after (hostOps1 (F := Ideal)) W (Proc.devRef .tc main_v22) : S100000x64.Idx → EReal) (ix2 n k)
      = 0 + ∑ e : Fin 3200000, if (dst e).toInt = (n.val : Int) then tbl (ix2 (rowOf (wrapWord (src e))) k) else 0 := by
  subst htbl
  after_results
  exact aggregate_apply _ _ _ _ _ _ src dst
    (fun i => zeros_everywhere _ i) (fun e => (wordColumn_apply _ _ e (0 : Fin 1)).trans (hdst e))
    (fun e => (wordColumn_apply _ _ e (0 : Fin 1)).trans ((wrapped_apply _ _ (ix1 e)).trans (congrArg wrapWord (hsrc e)))) n k

/-- The bias vector of length 64 kept as a one-row matrix. -/
theorem s1_bias (b : S64.Idx → EReal) (hb : W (Proc.devRef .tc main_arg3) = b) (u : Fin 1) (j : Fin 64) :
    (StableHlo.after (hostOps1 (F := Ideal)) W (Proc.devRef .tc main_v23) : S1x64.Idx → EReal) (ix2 u j) = b (ix1 j) := by
  subst hb
  after_results
  show shapeCast S1x64 _ _ (ix2 u j) = _
  exact biasRow_apply _ _ u j

theorem s1_keep_v12_1 : StableHlo.after (hostOps1 (F := Ideal)) W (Proc.devRef .tc main_v12_1) = W (Proc.devRef .tc main_v12_1) := by
  after_results <;> rfl
theorem s1_keep_v11 : StableHlo.after (hostOps1 (F := Ideal)) W (Proc.devRef .tc main_v11) = W (Proc.devRef .tc main_v11) := by
  after_results <;> rfl
theorem s1_keep_v1 : StableHlo.after (hostOps1 (F := Ideal)) W (Proc.devRef .tc main_v1) = W (Proc.devRef .tc main_v1) := by
  after_results <;> rfl
theorem s1_keep_v3 : StableHlo.after (hostOps1 (F := Ideal)) W (Proc.devRef .tc main_v3) = W (Proc.devRef .tc main_v3) := by
  after_results <;> rfl
theorem s1_keep_arg4 : StableHlo.after (hostOps1 (F := Ideal)) W (Proc.devRef .tc main_arg4) = W (Proc.devRef .tc main_arg4) := by
  after_results <;> rfl
theorem s1_keep_arg5 : StableHlo.after (hostOps1 (F := Ideal)) W (Proc.devRef .tc main_arg5) = W (Proc.devRef .tc main_arg5) := by
  after_results <;> rfl
theorem s1_keep_arg6 : StableHlo.after (hostOps1 (F := Ideal)) W (Proc.devRef .tc main_arg6) = W (Proc.devRef .tc main_arg6) := by
  after_results <;> rfl
theorem s1_keep_arg7 : StableHlo.after (hostOps1 (F := Ideal)) W (Proc.devRef .tc main_arg7) = W (Proc.devRef .tc main_arg7) := by
  after_results <;> rfl
theorem s1_keep_arg8 : StableHlo.after (hostOps1 (F := Ideal)) W (Proc.devRef .tc main_arg8) = W (Proc.devRef .tc main_arg8) := by
  after_results <;> rfl
theorem s1_keep_arg9 : StableHlo.after (hostOps1 (F := Ideal)) W (Proc.devRef .tc main_arg9) = W (Proc.devRef .tc main_arg9) := by
  after_results <;> rfl
theorem s1_keep_arg10 : StableHlo.after (hostOps1 (F := Ideal)) W (Proc.devRef .tc main_arg10) = W (Proc.devRef .tc main_arg10) := by
  after_results <;> rfl

/-! ## Before the third region -/

/-- The rows of the table summed over the edges landing on each node. -/
theorem s2_agg (tbl : S100000x32.Idx → EReal) (src dst : Fin 3200000 → BitVec 32)
    (htbl : W (Proc.devRef .tc main_v24_0) = tbl)
    (hsrc : ∀ e : Fin 3200000, (W (Proc.devRef .tc main_v1) : S3200000.Idx → BitVec 32) (ix1 e) = src e)
    (hdst : ∀ e : Fin 3200000, (W (Proc.devRef .tc main_v3) : S3200000.Idx → BitVec 32) (ix1 e) = dst e)
    (n : Fin 100000) (k : Fin 32) :
    (StableHlo.after (hostOps2 (F := Ideal)) W (Proc.devRef .tc main_v34) : S100000x32.Idx → EReal) (ix2 n k)
      = 0 + ∑ e : Fin 3200000, if (dst e).toInt = (n.val : Int) then tbl (ix2 (rowOf (wrapWord (src e))) k) else 0 := by
  subst htbl
  after_results
  exact aggregate_apply _ _ _ _ _ _ src dst
    (fun i => zeros_everywhere _ i) (fun e => (wordColumn_apply _ _ e (0 : Fin 1)).trans (hdst e))
    (fun e => (wordColumn_apply _ _ e (0 : Fin 1)).trans ((wrapped_apply _ _ (ix1 e)).trans (congrArg wrapWord (hsrc e)))) n k

/-- The bias vector of length 32 kept as a one-row matrix. -/
theorem s2_bias32 (b : S32.Idx → EReal) (hb : W (Proc.devRef .tc main_arg5) = b) (u : Fin 1) (j : Fin 32) :
    (StableHlo.after (hostOps2 (F := Ideal)) W (Proc.devRef .tc main_v35) : S1x32.Idx → EReal) (ix2 u j) = b (ix1 j) := by
  subst hb
  after_results
  show shapeCast S1x32 _ _ (ix2 u j) = _
  exact biasRow_apply _ _ u j

/-- The bias vector of length 64 kept as a one-row matrix. -/
theorem s2_bias64 (b : S64.Idx → EReal) (hb : W (Proc.devRef .tc main_arg7) = b) (u : Fin 1) (j : Fin 64) :
    (StableHlo.after (hostOps2 (F := Ideal)) W (Proc.devRef .tc main_v36) : S1x64.Idx → EReal) (ix2 u j) = b (ix1 j) := by
  subst hb
  after_results
  show shapeCast S1x64 _ _ (ix2 u j) = _
  exact biasRow_apply _ _ u j

/-- The bias vector of length 256 kept as a one-row matrix. -/
theorem s2_bias256 (b : S256.Idx → EReal) (hb : W (Proc.devRef .tc main_arg9) = b) (u : Fin 1) (j : Fin 256) :
    (StableHlo.after (hostOps2 (F := Ideal)) W (Proc.devRef .tc main_v37) : S1x256.Idx → EReal) (ix2 u j) = b (ix1 j) := by
  subst hb
  after_results
  show shapeCast S1x256 _ _ (ix2 u j) = _
  exact biasRow_apply _ _ u j

theorem s2_keep_v24_1 : StableHlo.after (hostOps2 (F := Ideal)) W (Proc.devRef .tc main_v24_1) = W (Proc.devRef .tc main_v24_1) := by
  after_results <;> rfl
theorem s2_keep_v11 : StableHlo.after (hostOps2 (F := Ideal)) W (Proc.devRef .tc main_v11) = W (Proc.devRef .tc main_v11) := by
  after_results <;> rfl
theorem s2_keep_arg10 : StableHlo.after (hostOps2 (F := Ideal)) W (Proc.devRef .tc main_arg10) = W (Proc.devRef .tc main_arg10) := by
  after_results <;> rfl
theorem s2_keep_arg6 : StableHlo.after (hostOps2 (F := Ideal)) W (Proc.devRef .tc main_arg6) = W (Proc.devRef .tc main_arg6) := by
  after_results <;> rfl
theorem s2_keep_arg8 : StableHlo.after (hostOps2 (F := Ideal)) W (Proc.devRef .tc main_arg8) = W (Proc.devRef .tc main_arg8) := by
  after_results <;> rfl

end Cert.KernelIdeal.Stretch

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Region0.lean ====
/-
  The first kernel region: the input projection with its two row scalings.

  At each grid point the body takes a block of 5000 rows of the node features `x`, the whole weight matrix `W` and the
  matching 5000 entries of the column `d`, and stores  (x · W)(p, q) · d(p)  in one output block and
  (x · W)(p, q) · d(p) · d(p)  in the other.  The twenty blocks tile the 100000 rows, so each output array ends as
  that function of the three arrays, entry by entry.
-/
import proofs.«145747_j12695923327676_2_alg».proof.Proof.Gen.KernelIdeal.Frame
import proofs.«145747_j12695923327676_2_alg».proof.Proof.Spec
import proofs.«145747_j12695923327676_2_alg».proof.Proof.LibMatmul
import proofs.«145747_j12695923327676_2_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen Cert.Vgae
open Idealize.ShloMosaic Idealize.ShloMosaic.TcCoe Idealize.ShloMosaic.ValueIdx Idealize.SL.Sem
open Idealize.ShloMosaic.Pipeline (Dat)
open scoped BigOperators

theorem origin : (![0, 0] : Fin 2 → Nat) = fun _ => 0 := funext fun a => by fin_cases a <;> rfl

/-! ## The body's two stored values at an entry of the block -/

/-- The matrix product of the two loaded blocks at an entry (a change of float format is the identity on exact values). -/
theorem product_at (v0 : Vec Ideal S5000x256 .f32) (v2 : Vec Ideal S256x64 .f32) (p : Fin 5000) (q : Fin 64) :
    k0_pay1 (F := Ideal) v0 v2 (ix2 p q) = ∑ k : Fin 256, v0 (ix2 p k) * v2 (ix2 k q) := by
  unfold k0_pay1
  exact Cert.MatmulAt.matmul_zero_plain_apply (M := 5000) (K := 256) (N := 64)
    dot_S5000x256_S256x64_S5000x64_1_0_0_1_n_n.wf none v0 v2 p q

/-- The loaded column broadcast along the rows, at an entry. -/
theorem column_at (v5 : Vec Ideal S5000x1 .f32) (p : Fin 5000) (q : Fin 64) :
    broadcastTo S5000x64 (k0_pay2 (F := Ideal) v5) broadcasts_S5000x1_S5000x64 (ix2 p q) = v5 (ix2 p (0 : Fin 1)) := by
  unfold k0_pay2
  rw [shapeCast_self]
  exact Cert.Keepdims.broadcastTo_a1_ab_apply v5 _ p q

theorem scaledOnce_at (v0 : Vec Ideal S5000x256 .f32) (v2 : Vec Ideal S256x64 .f32) (v5 : Vec Ideal S5000x1 .f32)
    (p : Fin 5000) (q : Fin 64) :
    k0_pay3 (F := Ideal) v0 v2 v5 (ix2 p q) = (∑ k : Fin 256, v0 (ix2 p k) * v2 (ix2 k q)) * v5 (ix2 p (0 : Fin 1)) := by
  unfold k0_pay3
  show k0_pay1 (F := Ideal) v0 v2 (ix2 p q) * broadcastTo S5000x64 (k0_pay2 (F := Ideal) v5) broadcasts_S5000x1_S5000x64 (ix2 p q) = _
  rw [product_at, column_at]

theorem scaledTwice_at (v0 : Vec Ideal S5000x256 .f32) (v2 : Vec Ideal S256x64 .f32) (v5 : Vec Ideal S5000x1 .f32)
    (p : Fin 5000) (q : Fin 64) :
    k0_pay4 (F := Ideal) v0 v2 v5 (ix2 p q)
      = (∑ k : Fin 256, v0 (ix2 p k) * v2 (ix2 k q)) * v5 (ix2 p (0 : Fin 1)) * v5 (ix2 p (0 : Fin 1)) := by
  unfold k0_pay4
  show k0_pay1 (F := Ideal) v0 v2 (ix2 p q) * broadcastTo S5000x64 (k0_pay2 (F := Ideal) v5) broadcasts_S5000x1_S5000x64 (ix2 p q)
      * broadcastTo S5000x64 (k0_pay2 (F := Ideal) v5) broadcasts_S5000x1_S5000x64 (ix2 p q) = _
  rw [product_at, column_at]

/-! ## The two output arrays as functions of the region's three input arrays -/

/-- `(x · W)(n, c) · d(n)`. -/
def scaledOnce (x : S100000x256.Idx → EReal) (w : S256x64.Idx → EReal) (d : S100000x1.Idx → EReal) : S100000x64.Idx → EReal :=
  ofCoords fun n c => lin (fun n k => x (ix2 n k)) w n c * d (ix2 n (0 : Fin 1))

/-- `(x · W)(n, c) · d(n) · d(n)`. -/
def scaledTwice (x : S100000x256.Idx → EReal) (w : S256x64.Idx → EReal) (d : S100000x1.Idx → EReal) : S100000x64.Idx → EReal :=
  ofCoords fun n c => lin (fun n k => x (ix2 n k)) w n c * d (ix2 n (0 : Fin 1)) * d (ix2 n (0 : Fin 1))

variable (V : (c : Dev nD) → (b : Ref sig .tc) → Buf (Elt Ideal) ((c : Thread nD τ).loc b))

/-- The block index maps over the grid: row blocks follow the point, the weight block stays. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The three input blocks read where the output entry's row and column say. -/
theorem blocks_at (c : Dev nD) (t : Fin cfg0.N) (p : Fin 5000) (q : Fin 64) (i : S100000x64.Idx)
    (hi0 : (i 0).val = t.val * 5000 + p.val) (hi1 : (i 1).val = q.val) :
    (∀ k : Fin 256, iblk0 V c 0 t (ix2 p k) = V c main_arg0 (ix2 (i 0) k))
    ∧ (∀ k : Fin 256, iblk0 V c 1 t (ix2 k q) = V c main_arg2 (ix2 k (i 1)))
    ∧ iblk0 V c 2 t (ix2 p (0 : Fin 1)) = V c main_v11 (ix2 (i 0) (0 : Fin 1)) := by
  obtain ⟨e00, e01, e10, e11, e20, e21, -⟩ := index_maps t
  refine ⟨fun k => ?_, fun k => ?_, ?_⟩
  · show V c main_arg0 (((cfg0.win 0).blk t).view.emb (ix2 p k)) = V c main_arg0 (ix2 (i 0) k)
    refine congrArg _ (funext fun a => Fin.ext ?_)
    match a with
    | ⟨0, _⟩ => show win0_0.index t (0 : Fin 2) * 5000 + 1 * p.val = (i 0).val; rw [e00, hi0]; omega
    | ⟨1, _⟩ => show win0_0.index t (1 : Fin 2) * 256 + 1 * k.val = k.val; rw [e01]; omega
  · show V c main_arg2 (((cfg0.win 1).blk t).view.emb (ix2 k q)) = V c main_arg2 (ix2 k (i 1))
    refine congrArg _ (funext fun a => Fin.ext ?_)
    match a with
    | ⟨0, _⟩ => show win0_1.index t (0 : Fin 2) * 256 + 1 * k.val = k.val; rw [e10]; omega
    | ⟨1, _⟩ => show win0_1.index t (1 : Fin 2) * 64 + 1 * q.val = (i 1).val; rw [e11, hi1]; omega
  · show V c main_v11 (((cfg0.win 2).blk t).view.emb (ix2 p (0 : Fin 1))) = V c main_v11 (ix2 (i 0) (0 : Fin 1))
    refine congrArg _ (funext fun a => Fin.ext ?_)
    match a with
    | ⟨0, _⟩ => show win0_2.index t (0 : Fin 2) * 5000 + 1 * p.val = (i 0).val; rw [e20, hi0]; omega
    | ⟨1, _⟩ => show win0_2.index t (1 : Fin 2) * 1 + 1 * 0 = 0; rw [e21]

/-- What point `t` writes back to the first output is block `t` of `scaledOnce` of the arrays the region finds. -/
theorem flushed3_eq (c : Dev nD) (t : Fin cfg0.N) :
    (dat0 V c).flushed 3 t
      = ((cfg0.win 3).blk t).view.read (Elt Ideal) (scaledOnce (V c main_arg0) (V c main_arg2) (V c main_v11)) := by
  show (cfg0.win 3).cut (grid0.coords t) ((dat0 V c).after 3 t) = _
  rw [after0_3]
  unfold out0_3
  rw [View.canon_unit_zero origin]
  simp only [View.ld_unit_zero (S := S5000x256) origin, View.ld_unit_zero (S := S256x64) origin,
    View.ld_unit_zero (S := S5000x1) origin]
  obtain ⟨-, -, -, -, -, -, e30, e31, -⟩ := index_maps t
  funext j
  obtain ⟨p, q, rfl⟩ : ∃ (p : Fin 5000) (q : Fin 64), j = ix2 p q := ⟨j 0, j 1, eq_ix2 j⟩
  have hi0 : ((((cfg0.win 3).blk t).view.emb (ix2 p q)) 0).val = t.val * 5000 + p.val := by
    show win0_3.index t (0 : Fin 2) * 5000 + 1 * p.val = _; rw [e30]; omega
  have hi1 : ((((cfg0.win 3).blk t).view.emb (ix2 p q)) 1).val = q.val := by
    show win0_3.index t (1 : Fin 2) * 64 + 1 * q.val = _; rw [e31]; omega
  obtain ⟨h0, h1, h2⟩ := blocks_at V c t p q _ hi0 hi1
  refine (scaledOnce_at (iblk0 V c 0 t) (iblk0 V c 1 t) (iblk0 V c 2 t) p q).trans ?_
  simp only [h0, h1, h2]
  rfl

theorem flushed4_eq (c : Dev nD) (t : Fin cfg0.N) :
    (dat0 V c).flushed 4 t
      = ((cfg0.win 4).blk t).view.read (Elt Ideal) (scaledTwice (V c main_arg0) (V c main_arg2) (V c main_v11)) := by
  show (cfg0.win 4).cut (grid0.coords t) ((dat0 V c).after 4 t) = _
  rw [after0_4]
  unfold out0_4
  rw [View.canon_unit_zero origin]
  simp only [View.ld_unit_zero (S := S5000x256) origin, View.ld_unit_zero (S := S256x64) origin,
    View.ld_unit_zero (S := S5000x1) origin]
  obtain ⟨-, -, -, -, -, -, -, -, e40, e41⟩ := index_maps t
  funext j
  obtain ⟨p, q, rfl⟩ : ∃ (p : Fin 5000) (q : Fin 64), j = ix2 p q := ⟨j 0, j 1, eq_ix2 j⟩
  have hi0 : ((((cfg0.win 4).blk t).view.emb (ix2 p q)) 0).val = t.val * 5000 + p.val := by
    show win0_4.index t (0 : Fin 2) * 5000 + 1 * p.val = _; rw [e40]; omega
  have hi1 : ((((cfg0.win 4).blk t).view.emb (ix2 p q)) 1).val = q.val := by
    show win0_4.index t (1 : Fin 2) * 64 + 1 * q.val = _; rw [e41]; omega
  obtain ⟨h0, h1, h2⟩ := blocks_at V c t p q _ hi0 hi1
  refine (scaledTwice_at (iblk0 V c 0 t) (iblk0 V c 1 t) (iblk0 V c 2 t) p q).trans ?_
  simp only [h0, h1, h2]
  rfl

/-! ## The blocks tile the rows -/

theorem mem_block3 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v12_0).slice (win0_3.rect t)).set ↔ _
  rw [View.set_slice_whole, Rect.mem_set_unit]
  exact Iff.rfl

theorem mem_block4 (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v12_1).slice (win0_4.rect t)).set ↔ _
  rw [View.set_slice_whole, Rect.mem_set_unit]
  exact Iff.rfl

/-- Row `r` lies in the block of point `r / 5000`. -/
theorem cover3 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by show (i 0).val / 5000 < grid0.N; rw [N_0]; omega
  obtain ⟨-, -, -, -, -, -, e30, e31, -⟩ := index_maps ⟨(i 0).val / 5000, ht⟩
  refine ⟨⟨(i 0).val / 5000, ht⟩, flush0_3 _, ?_⟩
  rw [mem_block3]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e31]; omega

theorem cover4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have ht : (i 0).val / 5000 < cfg0.N := by show (i 0).val / 5000 < grid0.N; rw [N_0]; omega
  obtain ⟨-, -, -, -, -, -, -, -, e40, e41⟩ := index_maps ⟨(i 0).val / 5000, ht⟩
  refine ⟨⟨(i 0).val / 5000, ht⟩, flush0_4 _, ?_⟩
  rw [mem_block4]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, ht⟩ (1 : Fin 2) * 64 ≤ (i 1).val
      ∧ (i 1).val < win0_4.index ⟨(i 0).val / 5000, ht⟩ (1 : Fin 2) * 64 + 64
    rw [e41]; omega

/-! ## The arrays after the region -/

theorem final3 (c : Dev nD) :
    (dat0 V c).arrAt 3 cfg0.N = scaledOnce (V c main_arg0) (V c main_arg2) (V c main_v11) :=
  (dat0 V c).arrAt_eq_of_cover 3 _ (fun t _ => flushed3_eq V c t) cover3

theorem final4 (c : Dev nD) :
    (dat0 V c).arrAt 4 cfg0.N = scaledTwice (V c main_arg0) (V c main_arg2) (V c main_v11) :=
  (dat0 V c).arrAt_eq_of_cover 4 _ (fun t _ => flushed4_eq V c t) cover4

end Cert.KernelIdeal.Region0

end
-- ==== Proof.Region1.lean ====
/-
  The second kernel region: the first layer's combination and rectifier, fused with the second layer's projection.

  At each grid point the body takes 5000 rows of the edge aggregate `a`, of the self term `s` and of the column `d`,
  the bias row `b` and the whole weight matrix `W`.  It forms  h(p, k) = max(d(p) · a(p, k) + s(p, k) + b(k), 0),
  multiplies by `W`, and stores  (h · W)(p, q) · d(p)  in one output block and  (h · W)(p, q) · d(p) · d(p)  in the other.
  The twenty blocks tile the 100000 rows.
-/
import proofs.«145747_j12695923327676_2_alg».proof.Proof.Gen.KernelIdeal.Frame
import proofs.«145747_j12695923327676_2_alg».proof.Proof.Spec
import proofs.«145747_j12695923327676_2_alg».proof.Proof.LibMatmul
import proofs.«145747_j12695923327676_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.Vgae
open Idealize.ShloMosaic Idealize.ShloMosaic.TcCoe Idealize.ShloMosaic.ValueIdx Idealize.SL.Sem
open Idealize.ShloMosaic.Pipeline (Dat)
open scoped BigOperators

theorem origin : (![0, 0] : Fin 2 → Nat) = fun _ => 0 := funext fun a => by fin_cases a <;> rfl

/-! ## The body's values at an entry of the block -/

/-- The loaded column broadcast along 64 columns, at an entry. -/
theorem column64_at (v0 : Vec Ideal S5000x1 .f32) (p : Fin 5000) (k : Fin 64) :
    broadcastTo S5000x64 (k1_pay1 (F := Ideal) v0) broadcasts_S5000x1_S5000x64 (ix2 p k) = v0 (ix2 p (0 : Fin 1)) := by
  unfold k1_pay1
  rw [shapeCast_self]
  exact Cert.Keepdims.broadcastTo_a1_ab_apply v0 _ p k

/-- The loaded column broadcast along 32 columns, at an entry. -/
theorem column32_at (v0 : Vec Ideal S5000x1 .f32) (p : Fin 5000) (q : Fin 32) :
    broadcastTo S5000x32 (k1_pay1 (F := Ideal) v0) broadcasts_S5000x1_S5000x32 (ix2 p q) = v0 (ix2 p (0 : Fin 1)) := by
  unfold k1_pay1
  rw [shapeCast_self]
  exact Cert.Keepdims.broadcastTo_a1_ab_apply v0 _ p q

/-- The bias row broadcast down the rows, at an entry. -/
theorem biasRow_at (v9 : Vec Ideal S1x64 .f32) (p : Fin 5000) (k : Fin 64) :
    broadcastTo S5000x64 (shapeCast S1x64 v9 shapeCasts_S1x64_S1x64) broadcasts_S1x64_S5000x64 (ix2 p k)
      = v9 (ix2 (0 : Fin 1) k) := by
  rw [shapeCast_self]
  exact broadcastTo_1b_ab_apply v9 _ p k

/-- The rectified combination times the weights, at an entry. -/
theorem projected_at (v0 : Vec Ideal S5000x1 .f32) (v2 v6 : Vec Ideal S5000x64 .f32) (v9 : Vec Ideal S1x64 .f32)
    (v16 : Vec Ideal S64x32 .f32) (p : Fin 5000) (q : Fin 32) :
    k1_pay2 (F := Ideal) v0 v2 v6 v9 v16 (ix2 p q)
      = ∑ k : Fin 64, relu (v0 (ix2 p (0 : Fin 1)) * v2 (ix2 p k) + v6 (ix2 p k) + v9 (ix2 (0 : Fin 1) k)) * v16 (ix2 k q) := by
  unfold k1_pay2
  refine (Cert.MatmulAt.matmul_zero_plain_apply (M := 5000) (K := 64) (N := 32)
    dot_S5000x64_S64x32_S5000x32_1_0_0_1_n_n.wf none _ _ p q).trans ?_
  refine Finset.sum_congr rfl fun k _ => ?_
  show max (broadcastTo S5000x64 (k1_pay1 (F := Ideal) v0) broadcasts_S5000x1_S5000x64 (ix2 p k)
        * shapeCast S5000x64 v2 shapeCasts_S5000x64_S5000x64 (ix2 p k)
        + shapeCast S5000x64 v6 shapeCasts_S5000x64_S5000x64 (ix2 p k)
        + broadcastTo S5000x64 (shapeCast S1x64 v9 shapeCasts_S1x64_S1x64) broadcasts_S1x64_S5000x64 (ix2 p k))
      (Ideal.ofBits .f32 0x00000000#32) * v16 (ix2 k q) = _
  rw [column64_at, biasRow_at, shapeCast_self, shapeCast_self, Ideal.ofBits_zero_f32]
  rfl

theorem scaledOnce_at (v0 : Vec Ideal S5000x1 .f32) (v2 v6 : Vec Ideal S5000x64 .f32) (v9 : Vec Ideal S1x64 .f32)
    (v16 : Vec Ideal S64x32 .f32) (p : Fin 5000) (q : Fin 32) :
    k1_pay3 (F := Ideal) v0 v2 v6 v9 v16 (ix2 p q)
      = (∑ k : Fin 64, relu (v0 (ix2 p (0 : Fin 1)) * v2 (ix2 p k) + v6 (ix2 p k) + v9 (ix2 (0 : Fin 1) k)) * v16 (ix2 k q))
        * v0 (ix2 p (0 : Fin 1)) := by
  unfold k1_pay3
  show k1_pay2 (F := Ideal) v0 v2 v6 v9 v16 (ix2 p q)
      * broadcastTo S5000x32 (k1_pay1 (F := Ideal) v0) broadcasts_S5000x1_S5000x32 (ix2 p q) = _
  rw [projected_at, column32_at]

theorem scaledTwice_at (v0 : Vec Ideal S5000x1 .f32) (v2 v6 : Vec Ideal S5000x64 .f32) (v9 : Vec Ideal S1x64 .f32)
    (v16 : Vec Ideal S64x32 .f32) (p : Fin 5000) (q : Fin 32) :
    k1_pay4 (F := Ideal) v0 v2 v6 v9 v16 (ix2 p q)
      = (∑ k : Fin 64, relu (v0 (ix2 p (0 : Fin 1)) * v2 (ix2 p k) + v6 (ix2 p k) + v9 (ix2 (0 : Fin 1) k)) * v16 (ix2 k q))
        * v0 (ix2 p (0 : Fin 1)) * v0 (ix2 p (0 : Fin 1)) := by
  unfold k1_pay4
  show k1_pay2 (F := Ideal) v0 v2 v6 v9 v16 (ix2 p q)
      * broadcastTo S5000x32 (k1_pay1 (F := Ideal) v0) broadcasts_S5000x1_S5000x32 (ix2 p q)
      * broadcastTo S5000x32 (k1_pay1 (F := Ideal) v0) broadcasts_S5000x1_S5000x32 (ix2 p q) = _
  rw [projected_at, column32_at]

/-! ## The two output arrays as functions of the region's five input arrays -/

/-- The first layer after its rectifier: `max(d(n) · a(n, k) + s(n, k) + b(k), 0)`. -/
def actAt (a s : S100000x64.Idx → EReal) (d : S100000x1.Idx → EReal) (b : S1x64.Idx → EReal)
    (n : Fin 100000) (k : Fin 64) : EReal :=
  relu (d (ix2 n (0 : Fin 1)) * a (ix2 n k) + s (ix2 n k) + b (ix2 (0 : Fin 1) k))

def scaledOnce (a s : S100000x64.Idx → EReal) (d : S100000x1.Idx → EReal) (b : S1x64.Idx → EReal)
    (w : S64x32.Idx → EReal) : S100000x32.Idx → EReal :=
  ofCoords fun n c => lin (actAt a s d b) w n c * d (ix2 n (0 : Fin 1))

def scaledTwice (a s : S100000x64.Idx → EReal) (d : S100000x1.Idx → EReal) (b : S1x64.Idx → EReal)
    (w : S64x32.Idx → EReal) : S100000x32.Idx → EReal :=
  ofCoords fun n c => lin (actAt a s d b) w n c * d (ix2 n (0 : Fin 1)) * d (ix2 n (0 : Fin 1))

variable (V : (c : Dev nD) → (b : Ref sig .tc) → Buf (Elt Ideal) ((c : Thread nD τ).loc b))

/-- The block index maps over the grid: row blocks follow the point, the bias and weight blocks stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The five input blocks read where the output entry's row and column say. -/
theorem blocks_at (c : Dev nD) (t : Fin cfg1.N) (p : Fin 5000) (q : Fin 32) (i : S100000x32.Idx)
    (hi0 : (i 0).val = t.val * 5000 + p.val) (hi1 : (i 1).val = q.val) :
    (∀ k : Fin 64, iblk1 V c 0 t (ix2 p k) = V c main_v22 (ix2 (i 0) k))
    ∧ (∀ k : Fin 64, iblk1 V c 1 t (ix2 p k) = V c main_v12_1 (ix2 (i 0) k))
    ∧ iblk1 V c 2 t (ix2 p (0 : Fin 1)) = V c main_v11 (ix2 (i 0) (0 : Fin 1))
    ∧ (∀ k : Fin 64, iblk1 V c 3 t (ix2 (0 : Fin 1) k) = V c main_v23 (ix2 (0 : Fin 1) k))
    ∧ (∀ k : Fin 64, iblk1 V c 4 t (ix2 k q) = V c main_arg4 (ix2 k (i 1))) := by
  obtain ⟨e00, e01, e10, e11, e20, e21, e30, e31, e40, e41, -⟩ := index_maps t
  refine ⟨fun k => ?_, fun k => ?_, ?_, fun k => ?_, fun k => ?_⟩
  · show V c main_v22 (((cfg1.win 0).blk t).view.emb (ix2 p k)) = V c main_v22 (ix2 (i 0) k)
    refine congrArg _ (funext fun a => Fin.ext ?_)
    match a with
    | ⟨0, _⟩ => show win1_0.index t (0 : Fin 2) * 5000 + 1 * p.val = (i 0).val; rw [e00, hi0]; omega
    | ⟨1, _⟩ => show win1_0.index t (1 : Fin 2) * 64 + 1 * k.val = k.val; rw [e01]; omega
  · show V c main_v12_1 (((cfg1.win 1).blk t).view.emb (ix2 p k)) = V c main_v12_1 (ix2 (i 0) k)
    refine congrArg _ (funext fun a => Fin.ext ?_)
    match a with
    | ⟨0, _⟩ => show win1_1.index t (0 : Fin 2) * 5000 + 1 * p.val = (i 0).val; rw [e10, hi0]; omega
    | ⟨1, _⟩ => show win1_1.index t (1 : Fin 2) * 64 + 1 * k.val = k.val; rw [e11]; omega
  · show V c main_v11 (((cfg1.win 2).blk t).view.emb (ix2 p (0 : Fin 1))) = V c main_v11 (ix2 (i 0) (0 : Fin 1))
    refine congrArg _ (funext fun a => Fin.ext ?_)
    match a with
    | ⟨0, _⟩ => show win1_2.index t (0 : Fin 2) * 5000 + 1 * p.val = (i 0).val; rw [e20, hi0]; omega
    | ⟨1, _⟩ => show win1_2.index t (1 : Fin 2) * 1 + 1 * 0 = 0; rw [e21]
  · show V c main_v23 (((cfg1.win 3).blk t).view.emb (ix2 (0 : Fin 1) k)) = V c main_v23 (ix2 (0 : Fin 1) k)
    refine congrArg _ (funext fun a => Fin.ext ?_)
    match a with
    | ⟨0, _⟩ => show win1_3.index t (0 : Fin 2) * 1 + 1 * 0 = 0; rw [e30]
    | ⟨1, _⟩ => show win1_3.index t (1 : Fin 2) * 64 + 1 * k.val = k.val; rw [e31]; omega
  · show V c main_arg4 (((cfg1.win 4).blk t).view.emb (ix2 k q)) = V c main_arg4 (ix2 k (i 1))
    refine congrArg _ (funext fun a => Fin.ext ?_)
    match a with
    | ⟨0, _⟩ => show win1_4.index t (0 : Fin 2) * 64 + 1 * k.val = k.val; rw [e40]; omega
    | ⟨1, _⟩ => show win1_4.index t (1 : Fin 2) * 32 + 1 * q.val = (i 1).val; rw [e41, hi1]; omega

/-- What point `t` writes back to the first output is block `t` of `scaledOnce` of the arrays the region finds. -/
theorem flushed5_eq (c : Dev nD) (t : Fin cfg1.N) :
    (dat1 V c).flushed 5 t = ((cfg1.win 5).blk t).view.read (Elt Ideal)
      (scaledOnce (V c main_v22) (V c main_v12_1) (V c main_v11) (V c main_v23) (V c main_arg4)) := by
  show (cfg1.win 5).cut (grid1.coords t) ((dat1 V c).after 5 t) = _
  rw [after1_5]
  unfold out1_5
  rw [View.canon_unit_zero origin]
  simp only [View.ld_unit_zero (S := S5000x64) origin, View.ld_unit_zero (S := S5000x1) origin,
    View.ld_unit_zero (S := S1x64) origin, View.ld_unit_zero (S := S64x32) origin]
  obtain ⟨-, -, -, -, -, -, -, -, -, -, e50, e51, -⟩ := index_maps t
  funext j
  obtain ⟨p, q, rfl⟩ : ∃ (p : Fin 5000) (q : Fin 32), j = ix2 p q := ⟨j 0, j 1, eq_ix2 j⟩
  have hi0 : ((((cfg1.win 5).blk t).view.emb (ix2 p q)) 0).val = t.val * 5000 + p.val := by
    show win1_5.index t (0 : Fin 2) * 5000 + 1 * p.val = _; rw [e50]; omega
  have hi1 : ((((cfg1.win 5).blk t).view.emb (ix2 p q)) 1).val = q.val := by
    show win1_5.index t (1 : Fin 2) * 32 + 1 * q.val = _; rw [e51]; omega
  obtain ⟨h0, h1, h2, h3, h4⟩ := blocks_at V c t p q _ hi0 hi1
  refine (scaledOnce_at (iblk1 V c 2 t) (iblk1 V c 0 t) (iblk1 V c 1 t) (iblk1 V c 3 t) (iblk1 V c 4 t) p q).trans ?_
  simp only [h0, h1, h2, h3, h4]
  rfl

theorem flushed6_eq (c : Dev nD) (t : Fin cfg1.N) :
    (dat1 V c).flushed 6 t = ((cfg1.win 6).blk t).view.read (Elt Ideal)
      (scaledTwice (V c main_v22) (V c main_v12_1) (V c main_v11) (V c main_v23) (V c main_arg4)) := by
  show (cfg1.win 6).cut (grid1.coords t) ((dat1 V c).after 6 t) = _
  rw [after1_6]
  unfold out1_6
  rw [View.canon_unit_zero origin]
  simp only [View.ld_unit_zero (S := S5000x64) origin, View.ld_unit_zero (S := S5000x1) origin,
    View.ld_unit_zero (S := S1x64) origin, View.ld_unit_zero (S := S64x32) origin]
  obtain ⟨-, -, -, -, -, -, -, -, -, -, -, -, e60, e61⟩ := index_maps t
  funext j
  obtain ⟨p, q, rfl⟩ : ∃ (p : Fin 5000) (q : Fin 32), j = ix2 p q := ⟨j 0, j 1, eq_ix2 j⟩
  have hi0 : ((((cfg1.win 6).blk t).view.emb (ix2 p q)) 0).val = t.val * 5000 + p.val := by
    show win1_6.index t (0 : Fin 2) * 5000 + 1 * p.val = _; rw [e60]; omega
  have hi1 : ((((cfg1.win 6).blk t).view.emb (ix2 p q)) 1).val = q.val := by
    show win1_6.index t (1 : Fin 2) * 32 + 1 * q.val = _; rw [e61]; omega
  obtain ⟨h0, h1, h2, h3, h4⟩ := blocks_at V c t p q _ hi0 hi1
  refine (scaledTwice_at (iblk1 V c 2 t) (iblk1 V c 0 t) (iblk1 V c 1 t) (iblk1 V c 3 t) (iblk1 V c 4 t) p q).trans ?_
  simp only [h0, h1, h2, h3, h4]
  rfl

/-! ## The blocks tile the rows -/

theorem mem_block5 (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v24_0).slice (win1_5.rect t)).set ↔ _
  rw [View.set_slice_whole, Rect.mem_set_unit]
  exact Iff.rfl

theorem mem_block6 (t : Fin cfg1.N) (i : S100000x32.Idx) :
    i ∈ ((cfg1.win 6).blk t).view.set ↔ ∀ a : Fin 2, win1_6.index t a * S5000x32.size a ≤ (i a).val
      ∧ (i a).val < win1_6.index t a * S5000x32.size a + S5000x32.size a := by
  show i ∈ ((View.whole main_v24_1).slice (win1_6.rect t)).set ↔ _
  rw [View.set_slice_whole, Rect.mem_set_unit]
  exact Iff.rfl

/-- Row `r` lies in the block of point `r / 5000`. -/
theorem cover5 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have ht : (i 0).val / 5000 < cfg1.N := by show (i 0).val / 5000 < grid1.N; rw [N_1]; omega
  obtain ⟨-, -, -, -, -, -, -, -, -, -, e50, e51, -⟩ := index_maps ⟨(i 0).val / 5000, ht⟩
  refine ⟨⟨(i 0).val / 5000, ht⟩, flush1_5 _, ?_⟩
  rw [mem_block5]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 32 ≤ (i 1).val
      ∧ (i 1).val < win1_5.index ⟨(i 0).val / 5000, ht⟩ (1 : Fin 2) * 32 + 32
    rw [e51]; omega

theorem cover6 (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have ht : (i 0).val / 5000 < cfg1.N := by show (i 0).val / 5000 < grid1.N; rw [N_1]; omega
  obtain ⟨-, -, -, -, -, -, -, -, -, -, -, -, e60, e61⟩ := index_maps ⟨(i 0).val / 5000, ht⟩
  refine ⟨⟨(i 0).val / 5000, ht⟩, flush1_6 _, ?_⟩
  rw [mem_block6]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ (1 : Fin 2) * 32 ≤ (i 1).val
      ∧ (i 1).val < win1_6.index ⟨(i 0).val / 5000, ht⟩ (1 : Fin 2) * 32 + 32
    rw [e61]; omega

/-! ## The arrays after the region -/

theorem final5 (c : Dev nD) : (dat1 V c).arrAt 5 cfg1.N
    = scaledOnce (V c main_v22) (V c main_v12_1) (V c main_v11) (V c main_v23) (V c main_arg4) :=
  (dat1 V c).arrAt_eq_of_cover 5 _ (fun t _ => flushed5_eq V c t) cover5

theorem final6 (c : Dev nD) : (dat1 V c).arrAt 6 cfg1.N
    = scaledTwice (V c main_v22) (V c main_v12_1) (V c main_v11) (V c main_v23) (V c main_arg4) :=
  (dat1 V c).arrAt_eq_of_cover 6 _ (fun t _ => flushed6_eq V c t) cover6

end Cert.KernelIdeal.Region1

end
-- ==== Proof.Region2.lean ====
/-
  The third kernel region: the second layer's combination, the sampled latent and the decoder.

  At each grid point the body takes a block of 2000 rows of the aggregate, of the self term, of the column d and of the
  noise, and the whole bias rows and decoder weights.  It forms  enc(p, q) = d(p) · agg(p, q) + self(p, q) + bias(q),
  stores its first sixteen columns (the means) in one output block and its last sixteen (the log-variances) in another,
  and stores  logistic(max(z · Wd1 + bd1, 0) · Wd2 + bd2)  with  z = mean + noise · exp(½ · log-variance)  in the third.
  The fifty blocks tile the 100000 rows, so each output array ends as that function of the region's arrays, entry by entry.
-/
import proofs.«145747_j12695923327676_2_alg».proof.Proof.Gen.KernelIdeal.Frame
import proofs.«145747_j12695923327676_2_alg».proof.Proof.Spec
import proofs.«145747_j12695923327676_2_alg».proof.Proof.LibMatmul
import proofs.«145747_j12695923327676_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Vgae
open Idealize.ShloMosaic Idealize.ShloMosaic.TcCoe Idealize.ShloMosaic.ValueIdx Idealize.SL.Sem
open Idealize.ShloMosaic.Pipeline (Dat)
open scoped BigOperators

theorem origin : (![0, 0] : Fin 2 → Nat) = fun _ => 0 := funext fun a => by fin_cases a <;> rfl

/-! ## The three output arrays as functions of the region's nine input arrays, entry by entry -/

/-- The layer's combination: the aggregate scaled by d, plus the self term, plus the bias. -/
def encAt (a s : S100000x32.Idx → EReal) (d : S100000x1.Idx → EReal) (b : S1x32.Idx → EReal)
    (n : Fin 100000) (c : Fin 32) : EReal :=
  d (ix2 n (0 : Fin 1)) * a (ix2 n c) + s (ix2 n c) + b (ix2 (0 : Fin 1) c)

/-- The means: columns 0–15. -/
def muAt (a s : S100000x32.Idx → EReal) (d : S100000x1.Idx → EReal) (b : S1x32.Idx → EReal)
    (n : Fin 100000) (c : Fin 16) : EReal :=
  encAt a s d b n ⟨0 + c.val, by omega⟩

/-- The log-variances: columns 16–31. -/
def logvarAt (a s : S100000x32.Idx → EReal) (d : S100000x1.Idx → EReal) (b : S1x32.Idx → EReal)
    (n : Fin 100000) (c : Fin 16) : EReal :=
  encAt a s d b n ⟨16 + c.val, by omega⟩

/-- The sampled latent. -/
def latentAt (a s : S100000x32.Idx → EReal) (d : S100000x1.Idx → EReal) (b : S1x32.Idx → EReal)
    (eps : S100000x16.Idx → EReal) (n : Fin 100000) (c : Fin 16) : EReal :=
  muAt a s d b n c + eps (ix2 n c) * Ideal.exp (half * logvarAt a s d b n c)

/-- The decoder's hidden layer, after its rectifier. -/
def decHiddenAt (a s : S100000x32.Idx → EReal) (d : S100000x1.Idx → EReal) (b : S1x32.Idx → EReal)
    (eps : S100000x16.Idx → EReal) (wd1 : S16x64.Idx → EReal) (bd1 : S1x64.Idx → EReal)
    (n : Fin 100000) (k : Fin 64) : EReal :=
  relu (lin (latentAt a s d b eps) wd1 n k + bd1 (ix2 (0 : Fin 1) k))

/-- The decoder's output. -/
def decodedAt (a s : S100000x32.Idx → EReal) (d : S100000x1.Idx → EReal) (b : S1x32.Idx → EReal)
    (eps : S100000x16.Idx → EReal) (wd1 : S16x64.Idx → EReal) (bd1 : S1x64.Idx → EReal)
    (wd2 : S64x256.Idx → EReal) (bd2 : S1x256.Idx → EReal) (n : Fin 100000) (c : Fin 256) : EReal :=
  Ideal.logistic (lin (decHiddenAt a s d b eps wd1 bd1) wd2 n c + bd2 (ix2 (0 : Fin 1) c))

/-! ## The body's values at an entry of the block, over the loaded blocks -/

section Payloads
variable (v0 : Vec Ideal S2000x1 .f32) (v2 v6 : Vec Ideal S2000x32 .f32) (v9 : Vec Ideal S1x32 .f32)
  (v17 : Vec Ideal S2000x16 .f32) (v24 : Vec Ideal S16x64 .f32) (v27 : Vec Ideal S1x64 .f32)

/-- The combination at an entry: the column broadcast along the rows, the bias row down the columns. -/
theorem enc_at (p : Fin 2000) (q : Fin 32) :
    k2_pay2 (F := Ideal) v0 v2 v6 v9 (ix2 p q)
      = v0 (ix2 p (0 : Fin 1)) * v2 (ix2 p q) + v6 (ix2 p q) + v9 (ix2 (0 : Fin 1) q) := by
  unfold k2_pay2
  show broadcastTo S2000x32 (shapeCast S2000x1 v0 shapeCasts_S2000x1_S2000x1) broadcasts_S2000x1_S2000x32 (ix2 p q)
        * shapeCast S2000x32 v2 shapeCasts_S2000x32_S2000x32 (ix2 p q)
      + shapeCast S2000x32 v6 shapeCasts_S2000x32_S2000x32 (ix2 p q)
      + broadcastTo S2000x32 (shapeCast S1x32 v9 shapeCasts_S1x32_S1x32) broadcasts_S1x32_S2000x32 (ix2 p q) = _
  rw [shapeCast_self, shapeCast_self, shapeCast_self, shapeCast_self,
    Cert.Keepdims.broadcastTo_a1_ab_apply v0 _ p q, broadcastTo_1b_ab_apply v9 _ p q]

/-- The first sixteen columns of the combination. -/
theorem mu_at (p : Fin 2000) (j : Fin 16) :
    k2_pay3 (F := Ideal) v0 v2 v6 v9 (ix2 p j)
      = k2_pay2 (F := Ideal) v0 v2 v6 v9 (ix2 p (⟨0 + j.val, by omega⟩ : Fin 32)) := by
  unfold k2_pay3
  exact slice2_axis1_apply 0 (k2_pay2 (F := Ideal) v0 v2 v6 v9) slices_S2000x32_o0_0_S2000x16 p j ⟨0 + j.val, by omega⟩ rfl

/-- The last sixteen columns of the combination. -/
theorem logvar_at (p : Fin 2000) (j : Fin 16) :
    k2_pay4 (F := Ideal) v0 v2 v6 v9 (ix2 p j)
      = k2_pay2 (F := Ideal) v0 v2 v6 v9 (ix2 p (⟨16 + j.val, by omega⟩ : Fin 32)) := by
  unfold k2_pay4
  exact slice2_axis1_apply 16 (k2_pay2 (F := Ideal) v0 v2 v6 v9) slices_S2000x32_o0_16_S2000x16 p j ⟨16 + j.val, by omega⟩ rfl

/-- The decoder's hidden layer at an entry: the latent times the first decoder weights, plus the bias row, rectified
    (a change of float format is the identity on exact values, and the zero word is the real zero). -/
theorem decHidden_at (p : Fin 2000) (k : Fin 64) :
    k2_pay5 (F := Ideal) v0 v2 v6 v9 v17 v24 v27 (ix2 p k)
      = max ((∑ j : Fin 16, (k2_pay3 (F := Ideal) v0 v2 v6 v9 (ix2 p j)
                + v17 (ix2 p j) * Ideal.exp (half * k2_pay4 (F := Ideal) v0 v2 v6 v9 (ix2 p j))) * v24 (ix2 j k))
              + v27 (ix2 (0 : Fin 1) k)) 0 := by
  unfold k2_pay5
  show max (matmul dot_S2000x16_S16x64_S2000x64_1_0_0_1_n_n none _ _ (constant (F := Ideal) S2000x64 .f32 0x00000000#32) (ix2 p k)
        + broadcastTo S2000x64 (shapeCast S1x64 v27 shapeCasts_S1x64_S1x64) broadcasts_S1x64_S2000x64 (ix2 p k))
      (Ideal.ofBits .f32 0x00000000#32) = _
  rw [Ideal.ofBits_zero_f32, shapeCast_self, broadcastTo_1b_ab_apply v27 _ p k]
  refine congrArg (fun z => max (z + v27 (ix2 (0 : Fin 1) k)) 0) ?_
  exact Cert.MatmulAt.matmul_zero_plain_apply (M := 2000) (K := 16) (N := 64)
    dot_S2000x16_S16x64_S2000x64_1_0_0_1_n_n.wf none _ _ p k

/-- The decoder's output at an entry, over the hidden block. -/
theorem decoded_at (v33 : FVec Ideal S2000x64 .bf16) (v34 : Vec Ideal S64x256 .f32) (v37 : Vec Ideal S1x256 .f32)
    (p : Fin 2000) (c : Fin 256) :
    k2_pay1 (F := Ideal) v33 v34 v37 (ix2 p c)
      = Ideal.logistic ((∑ k : Fin 64, v33 (ix2 p k) * v34 (ix2 k c)) + v37 (ix2 (0 : Fin 1) c)) := by
  unfold k2_pay1
  show Ideal.logistic (matmul dot_S2000x64_S64x256_S2000x256_1_0_0_1_n_n none v33 _ (constant (F := Ideal) S2000x256 .f32 0x00000000#32) (ix2 p c)
        + broadcastTo S2000x256 (shapeCast S1x256 v37 shapeCasts_S1x256_S1x256) broadcasts_S1x256_S2000x256 (ix2 p c)) = _
  rw [shapeCast_self, broadcastTo_1b_ab_apply v37 _ p c]
  refine congrArg (fun z => Ideal.logistic (z + v37 (ix2 (0 : Fin 1) c))) ?_
  exact Cert.MatmulAt.matmul_zero_plain_apply (M := 2000) (K := 64) (N := 256)
    dot_S2000x64_S64x256_S2000x256_1_0_0_1_n_n.wf none v33 _ p c

/-! ## The same values, when the loaded blocks are rows of whole arrays -/

variable (a s : S100000x32.Idx → EReal) (d : S100000x1.Idx → EReal) (b : S1x32.Idx → EReal)
  (eps : S100000x16.Idx → EReal) (wd1 : S16x64.Idx → EReal) (bd1 : S1x64.Idx → EReal)
variable (p : Fin 2000) (n : Fin 100000)

theorem enc_closed (q : Fin 32)
    (h0 : ∀ q : Fin 32, v2 (ix2 p q) = a (ix2 n q)) (h1 : ∀ q : Fin 32, v6 (ix2 p q) = s (ix2 n q))
    (h2 : v0 (ix2 p (0 : Fin 1)) = d (ix2 n (0 : Fin 1))) (h3 : ∀ q : Fin 32, v9 (ix2 (0 : Fin 1) q) = b (ix2 (0 : Fin 1) q)) :
    k2_pay2 (F := Ideal) v0 v2 v6 v9 (ix2 p q) = encAt a s d b n q := by
  rw [enc_at, h0, h1, h2, h3]
  rfl

theorem mu_closed (j : Fin 16)
    (h0 : ∀ q : Fin 32, v2 (ix2 p q) = a (ix2 n q)) (h1 : ∀ q : Fin 32, v6 (ix2 p q) = s (ix2 n q))
    (h2 : v0 (ix2 p (0 : Fin 1)) = d (ix2 n (0 : Fin 1))) (h3 : ∀ q : Fin 32, v9 (ix2 (0 : Fin 1) q) = b (ix2 (0 : Fin 1) q)) :
    k2_pay3 (F := Ideal) v0 v2 v6 v9 (ix2 p j) = muAt a s d b n j :=
  (mu_at v0 v2 v6 v9 p j).trans (enc_closed v0 v2 v6 v9 a s d b p n _ h0 h1 h2 h3)

theorem logvar_closed (j : Fin 16)
    (h0 : ∀ q : Fin 32, v2 (ix2 p q) = a (ix2 n q)) (h1 : ∀ q : Fin 32, v6 (ix2 p q) = s (ix2 n q))
    (h2 : v0 (ix2 p (0 : Fin 1)) = d (ix2 n (0 : Fin 1))) (h3 : ∀ q : Fin 32, v9 (ix2 (0 : Fin 1) q) = b (ix2 (0 : Fin 1) q)) :
    k2_pay4 (F := Ideal) v0 v2 v6 v9 (ix2 p j) = logvarAt a s d b n j :=
  (logvar_at v0 v2 v6 v9 p j).trans (enc_closed v0 v2 v6 v9 a s d b p n _ h0 h1 h2 h3)

theorem decHidden_closed (k : Fin 64)
    (h0 : ∀ q : Fin 32, v2 (ix2 p q) = a (ix2 n q)) (h1 : ∀ q : Fin 32, v6 (ix2 p q) = s (ix2 n q))
    (h2 : v0 (ix2 p (0 : Fin 1)) = d (ix2 n (0 : Fin 1))) (h3 : ∀ q : Fin 32, v9 (ix2 (0 : Fin 1) q) = b (ix2 (0 : Fin 1) q))
    (h4 : ∀ j : Fin 16, v17 (ix2 p j) = eps (ix2 n j)) (h5 : ∀ (j : Fin 16) (k : Fin 64), v24 (ix2 j k) = wd1 (ix2 j k))
    (h6 : ∀ k : Fin 64, v27 (ix2 (0 : Fin 1) k) = bd1 (ix2 (0 : Fin 1) k)) :
    k2_pay5 (F := Ideal) v0 v2 v6 v9 v17 v24 v27 (ix2 p k) = decHiddenAt a s d b eps wd1 bd1 n k := by
  rw [decHidden_at, h6]
  refine congrArg (fun z => max (z + bd1 (ix2 (0 : Fin 1) k)) 0) (Finset.sum_congr rfl fun j _ => ?_)
  rw [mu_closed v0 v2 v6 v9 a s d b p n j h0 h1 h2 h3, logvar_closed v0 v2 v6 v9 a s d b p n j h0 h1 h2 h3, h4, h5]
  rfl

theorem decoded_closed (v34 : Vec Ideal S64x256 .f32) (v37 : Vec Ideal S1x256 .f32)
    (wd2 : S64x256.Idx → EReal) (bd2 : S1x256.Idx → EReal) (c : Fin 256)
    (h0 : ∀ q : Fin 32, v2 (ix2 p q) = a (ix2 n q)) (h1 : ∀ q : Fin 32, v6 (ix2 p q) = s (ix2 n q))
    (h2 : v0 (ix2 p (0 : Fin 1)) = d (ix2 n (0 : Fin 1))) (h3 : ∀ q : Fin 32, v9 (ix2 (0 : Fin 1) q) = b (ix2 (0 : Fin 1) q))
    (h4 : ∀ j : Fin 16, v17 (ix2 p j) = eps (ix2 n j)) (h5 : ∀ (j : Fin 16) (k : Fin 64), v24 (ix2 j k) = wd1 (ix2 j k))
    (h6 : ∀ k : Fin 64, v27 (ix2 (0 : Fin 1) k) = bd1 (ix2 (0 : Fin 1) k))
    (h7 : ∀ (k : Fin 64) (c : Fin 256), v34 (ix2 k c) = wd2 (ix2 k c))
    (h8 : ∀ c : Fin 256, v37 (ix2 (0 : Fin 1) c) = bd2 (ix2 (0 : Fin 1) c)) :
    k2_pay1 (F := Ideal) (k2_pay5 (F := Ideal) v0 v2 v6 v9 v17 v24 v27) v34 v37 (ix2 p c)
      = decodedAt a s d b eps wd1 bd1 wd2 bd2 n c := by
  rw [decoded_at, h8]
  refine congrArg (fun z => Ideal.logistic (z + bd2 (ix2 (0 : Fin 1) c))) (Finset.sum_congr rfl fun k _ => ?_)
  rw [decHidden_closed v0 v2 v6 v9 v17 v24 v27 a s d b eps wd1 bd1 p n k h0 h1 h2 h3 h4 h5 h6, h7]

end Payloads

variable (V : (c : Dev nD) → (b : Ref sig .tc) → Buf (Elt Ideal) ((c : Thread nD τ).loc b))

/-! ## The block index maps over the grid -/

/-- Row blocks follow the point. -/
theorem index_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_4.index t (0 : Fin 2) = t.val ∧ win2_4.index t (1 : Fin 2) = 0 :=
  (by decide +kernel : ∀ t : Fin grid2.N, _)

/-- The bias rows and the decoder weights stay whole. -/
theorem index_whole : ∀ t : Fin cfg2.N,
    win2_3.index t (0 : Fin 2) = 0 ∧ win2_3.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The output row blocks follow the point. -/
theorem index_out : ∀ t : Fin cfg2.N,
    (win2_9.index t (0 : Fin 2) = t.val ∧ win2_9.index t (1 : Fin 2) = 0)
    ∧ (win2_10.index t (0 : Fin 2) = t.val ∧ win2_10.index t (1 : Fin 2) = 0)
    ∧ (win2_11.index t (0 : Fin 2) = t.val ∧ win2_11.index t (1 : Fin 2) = 0) :=
  (by decide +kernel : ∀ t : Fin grid2.N, _)

/-- The nine input blocks at point t, read along block row p, are the arrays read along row t · 2000 + p. -/
theorem blocks_at (c : Dev nD) (t : Fin cfg2.N) (p : Fin 2000) (n : Fin 100000) (hn : n.val = t.val * 2000 + p.val) :
    (∀ q : Fin 32, iblk2 V c 0 t (ix2 p q) = V c main_v34 (ix2 n q))
    ∧ (∀ q : Fin 32, iblk2 V c 1 t (ix2 p q) = V c main_v24_1 (ix2 n q))
    ∧ iblk2 V c 2 t (ix2 p (0 : Fin 1)) = V c main_v11 (ix2 n (0 : Fin 1))
    ∧ (∀ q : Fin 32, iblk2 V c 3 t (ix2 (0 : Fin 1) q) = V c main_v35 (ix2 (0 : Fin 1) q))
    ∧ (∀ j : Fin 16, iblk2 V c 4 t (ix2 p j) = V c main_arg10 (ix2 n j))
    ∧ (∀ (j : Fin 16) (k : Fin 64), iblk2 V c 5 t (ix2 j k) = V c main_arg6 (ix2 j k))
    ∧ (∀ k : Fin 64, iblk2 V c 6 t (ix2 (0 : Fin 1) k) = V c main_v36 (ix2 (0 : Fin 1) k))
    ∧ (∀ (k : Fin 64) (q : Fin 256), iblk2 V c 7 t (ix2 k q) = V c main_arg8 (ix2 k q))
    ∧ (∀ q : Fin 256, iblk2 V c 8 t (ix2 (0 : Fin 1) q) = V c main_v37 (ix2 (0 : Fin 1) q)) := by
  obtain ⟨e00, e01, e10, e11, e20, e21, e40, e41⟩ := index_rows t
  obtain ⟨e30, e31, e50, e51, e60, e61, e70, e71, e80, e81⟩ := index_whole t
  refine ⟨fun q => ?_, fun q => ?_, ?_, fun q => ?_, fun j => ?_, fun j k => ?_, fun k => ?_, fun k q => ?_, fun q => ?_⟩
  · show V c main_v34 (((cfg2.win 0).blk t).view.emb (ix2 p q)) = V c main_v34 (ix2 n q)
    refine congrArg _ (funext fun a => Fin.ext ?_)
    match a with
    | ⟨0, _⟩ => show win2_0.index t (0 : Fin 2) * 2000 + 1 * p.val = n.val; rw [e00, hn]; omega
    | ⟨1, _⟩ => show win2_0.index t (1 : Fin 2) * 32 + 1 * q.val = q.val; rw [e01]; omega
  · show V c main_v24_1 (((cfg2.win 1).blk t).view.emb (ix2 p q)) = V c main_v24_1 (ix2 n q)
    refine congrArg _ (funext fun a => Fin.ext ?_)
    match a with
    | ⟨0, _⟩ => show win2_1.index t (0 : Fin 2) * 2000 + 1 * p.val = n.val; rw [e10, hn]; omega
    | ⟨1, _⟩ => show win2_1.index t (1 : Fin 2) * 32 + 1 * q.val = q.val; rw [e11]; omega
  · show V c main_v11 (((cfg2.win 2).blk t).view.emb (ix2 p (0 : Fin 1))) = V c main_v11 (ix2 n (0 : Fin 1))
    refine congrArg _ (funext fun a => Fin.ext ?_)
    match a with
    | ⟨0, _⟩ => show win2_2.index t (0 : Fin 2) * 2000 + 1 * p.val = n.val; rw [e20, hn]; omega
    | ⟨1, _⟩ => show win2_2.index t (1 : Fin 2) * 1 + 1 * 0 = 0; rw [e21]
  · show V c main_v35 (((cfg2.win 3).blk t).view.emb (ix2 (0 : Fin 1) q)) = V c main_v35 (ix2 (0 : Fin 1) q)
    refine congrArg _ (funext fun a => Fin.ext ?_)
    match a with
    | ⟨0, _⟩ => show win2_3.index t (0 : Fin 2) * 1 + 1 * 0 = 0; rw [e30]
    | ⟨1, _⟩ => show win2_3.index t (1 : Fin 2) * 32 + 1 * q.val = q.val; rw [e31]; omega
  · show V c main_arg10 (((cfg2.win 4).blk t).view.emb (ix2 p j)) = V c main_arg10 (ix2 n j)
    refine congrArg _ (funext fun a => Fin.ext ?_)
    match a with
    | ⟨0, _⟩ => show win2_4.index t (0 : Fin 2) * 2000 + 1 * p.val = n.val; rw [e40, hn]; omega
    | ⟨1, _⟩ => show win2_4.index t (1 : Fin 2) * 16 + 1 * j.val = j.val; rw [e41]; omega
  · show V c main_arg6 (((cfg2.win 5).blk t).view.emb (ix2 j k)) = V c main_arg6 (ix2 j k)
    refine congrArg _ (funext fun a => Fin.ext ?_)
    match a with
    | ⟨0, _⟩ => show win2_5.index t (0 : Fin 2) * 16 + 1 * j.val = j.val; rw [e50]; omega
    | ⟨1, _⟩ => show win2_5.index t (1 : Fin 2) * 64 + 1 * k.val = k.val; rw [e51]; omega
  · show V c main_v36 (((cfg2.win 6).blk t).view.emb (ix2 (0 : Fin 1) k)) = V c main_v36 (ix2 (0 : Fin 1) k)
    refine congrArg _ (funext fun a => Fin.ext ?_)
    match a with
    | ⟨0, _⟩ => show win2_6.index t (0 : Fin 2) * 1 + 1 * 0 = 0; rw [e60]
    | ⟨1, _⟩ => show win2_6.index t (1 : Fin 2) * 64 + 1 * k.val = k.val; rw [e61]; omega
  · show V c main_arg8 (((cfg2.win 7).blk t).view.emb (ix2 k q)) = V c main_arg8 (ix2 k q)
    refine congrArg _ (funext fun a => Fin.ext ?_)
    match a with
    | ⟨0, _⟩ => show win2_7.index t (0 : Fin 2) * 64 + 1 * k.val = k.val; rw [e70]; omega
    | ⟨1, _⟩ => show win2_7.index t (1 : Fin 2) * 256 + 1 * q.val = q.val; rw [e71]; omega
  · show V c main_v37 (((cfg2.win 8).blk t).view.emb (ix2 (0 : Fin 1) q)) = V c main_v37 (ix2 (0 : Fin 1) q)
    refine congrArg _ (funext fun a => Fin.ext ?_)
    match a with
    | ⟨0, _⟩ => show win2_8.index t (0 : Fin 2) * 1 + 1 * 0 = 0; rw [e80]
    | ⟨1, _⟩ => show win2_8.index t (1 : Fin 2) * 256 + 1 * q.val = q.val; rw [e81]; omega

/-! ## What each point writes back -/

/-- What point `t` writes back to output 0 is block `t` of the means of the arrays the region finds. -/
theorem flushed9_eq (c : Dev nD) (t : Fin cfg2.N) :
    (dat2 V c).flushed 9 t
      = ((cfg2.win 9).blk t).view.read (Elt Ideal) (ofCoords (muAt (V c main_v34) (V c main_v24_1) (V c main_v11) (V c main_v35))) := by
  show (cfg2.win 9).cut (grid2.coords t) ((dat2 V c).after 9 t) = _
  rw [after2_9]
  unfold out2_9
  rw [View.canon_unit_zero origin]
  simp only [View.ld_unit_zero (S := S2000x1) origin, View.ld_unit_zero (S := S2000x32) origin,
    View.ld_unit_zero (S := S1x32) origin]
  obtain ⟨⟨e0, e1⟩, -, -⟩ := index_out t
  funext j
  obtain ⟨p, q, rfl⟩ : ∃ (p : Fin 2000) (q : Fin 16), j = ix2 p q := ⟨j 0, j 1, eq_ix2 j⟩
  have ht : t.val < 50 := lt_of_lt_of_eq t.isLt N_2
  obtain ⟨n, hn⟩ : ∃ n : Fin 100000, n.val = t.val * 2000 + p.val :=
    ⟨⟨t.val * 2000 + p.val, by have := p.isLt; omega⟩, rfl⟩
  have hemb : ((cfg2.win 9).blk t).view.emb (ix2 p q) = ix2 n q := funext fun a => Fin.ext (by
    match a with
    | ⟨0, _⟩ => show win2_9.index t (0 : Fin 2) * 2000 + 1 * p.val = n.val; rw [e0, hn]; omega
    | ⟨1, _⟩ => show win2_9.index t (1 : Fin 2) * 16 + 1 * q.val = q.val; rw [e1]; omega)
  obtain ⟨h0, h1, h2, h3, -⟩ := blocks_at V c t p n hn
  refine (mu_closed (iblk2 V c 2 t) (iblk2 V c 0 t) (iblk2 V c 1 t) (iblk2 V c 3 t) (V c main_v34) (V c main_v24_1) (V c main_v11) (V c main_v35) p n q h0 h1 h2 h3).trans ?_
  exact (congrArg (ofCoords (muAt (V c main_v34) (V c main_v24_1) (V c main_v11) (V c main_v35))) hemb).symm

/-- What point `t` writes back to output 1 is block `t` of the log-variances of the arrays the region finds. -/
theorem flushed10_eq (c : Dev nD) (t : Fin cfg2.N) :
    (dat2 V c).flushed 10 t
      = ((cfg2.win 10).blk t).view.read (Elt Ideal) (ofCoords (logvarAt (V c main_v34) (V c main_v24_1) (V c main_v11) (V c main_v35))) := by
  show (cfg2.win 10).cut (grid2.coords t) ((dat2 V c).after 10 t) = _
  rw [after2_10]
  unfold out2_10
  rw [View.canon_unit_zero origin]
  simp only [View.ld_unit_zero (S := S2000x1) origin, View.ld_unit_zero (S := S2000x32) origin,
    View.ld_unit_zero (S := S1x32) origin]
  obtain ⟨-, ⟨e0, e1⟩, -⟩ := index_out t
  funext j
  obtain ⟨p, q, rfl⟩ : ∃ (p : Fin 2000) (q : Fin 16), j = ix2 p q := ⟨j 0, j 1, eq_ix2 j⟩
  have ht : t.val < 50 := lt_of_lt_of_eq t.isLt N_2
  obtain ⟨n, hn⟩ : ∃ n : Fin 100000, n.val = t.val * 2000 + p.val :=
    ⟨⟨t.val * 2000 + p.val, by have := p.isLt; omega⟩, rfl⟩
  have hemb : ((cfg2.win 10).blk t).view.emb (ix2 p q) = ix2 n q := funext fun a => Fin.ext (by
    match a with
    | ⟨0, _⟩ => show win2_10.index t (0 : Fin 2) * 2000 + 1 * p.val = n.val; rw [e0, hn]; omega
    | ⟨1, _⟩ => show win2_10.index t (1 : Fin 2) * 16 + 1 * q.val = q.val; rw [e1]; omega)
  obtain ⟨h0, h1, h2, h3, -⟩ := blocks_at V c t p n hn
  refine (logvar_closed (iblk2 V c 2 t) (iblk2 V c 0 t) (iblk2 V c 1 t) (iblk2 V c 3 t) (V c main_v34) (V c main_v24_1) (V c main_v11) (V c main_v35) p n q h0 h1 h2 h3).trans ?_
  exact (congrArg (ofCoords (logvarAt (V c main_v34) (V c main_v24_1) (V c main_v11) (V c main_v35))) hemb).symm

/-- What point `t` writes back to output 2 is block `t` of the decoder's output of the arrays the region finds. -/
theorem flushed11_eq (c : Dev nD) (t : Fin cfg2.N) :
    (dat2 V c).flushed 11 t
      = ((cfg2.win 11).blk t).view.read (Elt Ideal) (ofCoords (decodedAt (V c main_v34) (V c main_v24_1) (V c main_v11) (V c main_v35) (V c main_arg10) (V c main_arg6) (V c main_v36) (V c main_arg8) (V c main_v37))) := by
  show (cfg2.win 11).cut (grid2.coords t) ((dat2 V c).after 11 t) = _
  rw [after2_11]
  unfold out2_11
  rw [View.canon_unit_zero origin]
  simp only [View.ld_unit_zero (S := S2000x1) origin, View.ld_unit_zero (S := S2000x32) origin,
    View.ld_unit_zero (S := S1x32) origin, View.ld_unit_zero (S := S2000x16) origin, View.ld_unit_zero (S := S16x64) origin,
    View.ld_unit_zero (S := S1x64) origin, View.ld_unit_zero (S := S64x256) origin, View.ld_unit_zero (S := S1x256) origin]
  obtain ⟨-, -, ⟨e0, e1⟩⟩ := index_out t
  funext j
  obtain ⟨p, q, rfl⟩ : ∃ (p : Fin 2000) (q : Fin 256), j = ix2 p q := ⟨j 0, j 1, eq_ix2 j⟩
  have ht : t.val < 50 := lt_of_lt_of_eq t.isLt N_2
  obtain ⟨n, hn⟩ : ∃ n : Fin 100000, n.val = t.val * 2000 + p.val :=
    ⟨⟨t.val * 2000 + p.val, by have := p.isLt; omega⟩, rfl⟩
  have hemb : ((cfg2.win 11).blk t).view.emb (ix2 p q) = ix2 n q := funext fun a => Fin.ext (by
    match a with
    | ⟨0, _⟩ => show win2_11.index t (0 : Fin 2) * 2000 + 1 * p.val = n.val; rw [e0, hn]; omega
    | ⟨1, _⟩ => show win2_11.index t (1 : Fin 2) * 256 + 1 * q.val = q.val; rw [e1]; omega)
  obtain ⟨h0, h1, h2, h3, h4, h5, h6, h7, h8⟩ := blocks_at V c t p n hn
  refine (decoded_closed (iblk2 V c 2 t) (iblk2 V c 0 t) (iblk2 V c 1 t) (iblk2 V c 3 t) (iblk2 V c 4 t) (iblk2 V c 5 t) (iblk2 V c 6 t)
    (V c main_v34) (V c main_v24_1) (V c main_v11) (V c main_v35) (V c main_arg10) (V c main_arg6) (V c main_v36) p n
    (iblk2 V c 7 t) (iblk2 V c 8 t) (V c main_arg8) (V c main_v37) q h0 h1 h2 h3 h4 h5 h6 h7 h8).trans ?_
  exact (congrArg (ofCoords (decodedAt (V c main_v34) (V c main_v24_1) (V c main_v11) (V c main_v35) (V c main_arg10) (V c main_arg6) (V c main_v36) (V c main_arg8) (V c main_v37))) hemb).symm

/-! ## The blocks tile the rows -/

theorem mem_block9 (t : Fin cfg2.N) (i : S100000x16.Idx) :
    i ∈ ((cfg2.win 9).blk t).view.set ↔ ∀ a : Fin 2, win2_9.index t a * S2000x16.size a ≤ (i a).val
      ∧ (i a).val < win2_9.index t a * S2000x16.size a + S2000x16.size a := by
  show i ∈ ((View.whole main_v38_0).slice (win2_9.rect t)).set ↔ _
  rw [View.set_slice_whole, Rect.mem_set_unit]
  exact Iff.rfl

/-- Row `r` lies in the block of point `r / 2000`. -/
theorem cover9 (i : S100000x16.Idx) :
    ∃ t : Fin cfg2.N, (cfg2.win 9).flush t = true ∧ i ∈ ((cfg2.win 9).blk t).view.set := by
  have hi0 : (i 0).val < 100000 := (i 0).isLt
  have hi1 : (i 1).val < 16 := (i 1).isLt
  have ht : (i 0).val / 2000 < cfg2.N := by show (i 0).val / 2000 < grid2.N; rw [N_2]; omega
  obtain ⟨⟨e0, e1⟩, -, -⟩ := index_out ⟨(i 0).val / 2000, ht⟩
  refine ⟨⟨(i 0).val / 2000, ht⟩, flush2_9 _, ?_⟩
  rw [mem_block9]
  intro a
  match a with
  | ⟨0, _⟩ =>
    show win2_9.index ⟨(i 0).val / 2000, ht⟩ (0 : Fin 2) * 2000 ≤ (i 0).val
      ∧ (i 0).val < win2_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_9.index ⟨(i 0).val / 2000, ht⟩ (1 : Fin 2) * 16 ≤ (i 1).val
      ∧ (i 1).val < win2_9.index ⟨(i 0).val / 2000, ht⟩ (1 : Fin 2) * 16 + 16
    rw [e1]; omega

theorem mem_block10 (t : Fin cfg2.N) (i : S100000x16.Idx) :
    i ∈ ((cfg2.win 10).blk t).view.set ↔ ∀ a : Fin 2, win2_10.index t a * S2000x16.size a ≤ (i a).val
      ∧ (i a).val < win2_10.index t a * S2000x16.size a + S2000x16.size a := by
  show i ∈ ((View.whole main_v38_1).slice (win2_10.rect t)).set ↔ _
  rw [View.set_slice_whole, Rect.mem_set_unit]
  exact Iff.rfl

/-- Row `r` lies in the block of point `r / 2000`. -/
theorem cover10 (i : S100000x16.Idx) :
    ∃ t : Fin cfg2.N, (cfg2.win 10).flush t = true ∧ i ∈ ((cfg2.win 10).blk t).view.set := by
  have hi0 : (i 0).val < 100000 := (i 0).isLt
  have hi1 : (i 1).val < 16 := (i 1).isLt
  have ht : (i 0).val / 2000 < cfg2.N := by show (i 0).val / 2000 < grid2.N; rw [N_2]; omega
  obtain ⟨-, ⟨e0, e1⟩, -⟩ := index_out ⟨(i 0).val / 2000, ht⟩
  refine ⟨⟨(i 0).val / 2000, ht⟩, flush2_10 _, ?_⟩
  rw [mem_block10]
  intro a
  match a with
  | ⟨0, _⟩ =>
    show win2_10.index ⟨(i 0).val / 2000, ht⟩ (0 : Fin 2) * 2000 ≤ (i 0).val
      ∧ (i 0).val < win2_10.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_10.index ⟨(i 0).val / 2000, ht⟩ (1 : Fin 2) * 16 ≤ (i 1).val
      ∧ (i 1).val < win2_10.index ⟨(i 0).val / 2000, ht⟩ (1 : Fin 2) * 16 + 16
    rw [e1]; omega

theorem mem_block11 (t : Fin cfg2.N) (i : S100000x256.Idx) :
    i ∈ ((cfg2.win 11).blk t).view.set ↔ ∀ a : Fin 2, win2_11.index t a * S2000x256.size a ≤ (i a).val
      ∧ (i a).val < win2_11.index t a * S2000x256.size a + S2000x256.size a := by
  show i ∈ ((View.whole main_v38_2).slice (win2_11.rect t)).set ↔ _
  rw [View.set_slice_whole, Rect.mem_set_unit]
  exact Iff.rfl

/-- Row `r` lies in the block of point `r / 2000`. -/
theorem cover11 (i : S100000x256.Idx) :
    ∃ t : Fin cfg2.N, (cfg2.win 11).flush t = true ∧ i ∈ ((cfg2.win 11).blk t).view.set := by
  have hi0 : (i 0).val < 100000 := (i 0).isLt
  have hi1 : (i 1).val < 256 := (i 1).isLt
  have ht : (i 0).val / 2000 < cfg2.N := by show (i 0).val / 2000 < grid2.N; rw [N_2]; omega
  obtain ⟨-, -, ⟨e0, e1⟩⟩ := index_out ⟨(i 0).val / 2000, ht⟩
  refine ⟨⟨(i 0).val / 2000, ht⟩, flush2_11 _, ?_⟩
  rw [mem_block11]
  intro a
  match a with
  | ⟨0, _⟩ =>
    show win2_11.index ⟨(i 0).val / 2000, ht⟩ (0 : Fin 2) * 2000 ≤ (i 0).val
      ∧ (i 0).val < win2_11.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_11.index ⟨(i 0).val / 2000, ht⟩ (1 : Fin 2) * 256 ≤ (i 1).val
      ∧ (i 1).val < win2_11.index ⟨(i 0).val / 2000, ht⟩ (1 : Fin 2) * 256 + 256
    rw [e1]; omega

/-! ## The arrays after the region -/

theorem final9 (c : Dev nD) :
    (dat2 V c).arrAt 9 cfg2.N = ofCoords (muAt (V c main_v34) (V c main_v24_1) (V c main_v11) (V c main_v35)) :=
  (dat2 V c).arrAt_eq_of_cover 9 _ (fun t _ => flushed9_eq V c t) cover9

theorem final10 (c : Dev nD) :
    (dat2 V c).arrAt 10 cfg2.N = ofCoords (logvarAt (V c main_v34) (V c main_v24_1) (V c main_v11) (V c main_v35)) :=
  (dat2 V c).arrAt_eq_of_cover 10 _ (fun t _ => flushed10_eq V c t) cover10

theorem final11 (c : Dev nD) :
    (dat2 V c).arrAt 11 cfg2.N = ofCoords (decodedAt (V c main_v34) (V c main_v24_1) (V c main_v11) (V c main_v35) (V c main_arg10) (V c main_arg6) (V c main_v36) (V c main_arg8) (V c main_v37)) :=
  (dat2 V c).arrAt_eq_of_cover 11 _ (fun t _ => flushed11_eq V c t) cover11

end Cert.KernelIdeal.Region2

end
-- ==== Proof.Between.lean ====
/-
  The arrays the idealized kernel holds between its regions, as functions of the argument arrays.

  `dcol` is the column of `dinv`; region 0 leaves the projected features scaled once (`pre1`) and twice (`self1`) by
  it; the host sums `pre1`'s rows over the edges landing on each node (`agg1`); region 1 rectifies
  `dinv · agg1 + self1 + b1`, projects by `W2` and again scales once (`pre2`) and twice (`self2`); the host sums
  `pre2`'s rows over the edges (`agg2`); region 2 forms the means, the log-variances and the decoded output.
-/
import proofs.«145747_j12695923327676_2_alg».proof.Proof.Region0
import proofs.«145747_j12695923327676_2_alg».proof.Proof.Region1
import proofs.«145747_j12695923327676_2_alg».proof.Proof.Region2

noncomputable section

namespace Cert.KernelIdeal.Between

open Cert.KernelIdeal Cert.Vgae
open Idealize.ShloMosaic Idealize.ShloMosaic.ValueIdx
open scoped BigOperators

/-- A vector kept as a one-row matrix. -/
def row {C : Nat} (b : (⟨1, ![C]⟩ : Shape).Idx → EReal) : (⟨2, ![1, C]⟩ : Shape).Idx → EReal :=
  ofCoords fun (_ : Fin 1) k => b (ix1 k)

section
variable (ei : EdgeWords) (x : S100000x256.Idx → EReal) (w1 : S256x64.Idx → EReal) (b1 : S64.Idx → EReal)
  (w2 : S64x32.Idx → EReal) (b2 : S32.Idx → EReal) (wd1 : S16x64.Idx → EReal) (bd1 : S64.Idx → EReal)
  (wd2 : S64x256.Idx → EReal) (bd2 : S256.Idx → EReal) (eps : S100000x16.Idx → EReal)

/-- The column of `dinv`. -/
def dcol : S100000x1.Idx → EReal := ofCoords fun n (_ : Fin 1) => dinv ei n

def pre1 : S100000x64.Idx → EReal := Region0.scaledOnce x w1 (dcol ei)
def self1 : S100000x64.Idx → EReal := Region0.scaledTwice x w1 (dcol ei)

/-- The rows of a table summed over the edges landing on each node, each edge taking its source's row. -/
def edgeSum {C : Nat} (t : (⟨2, ![100000, C]⟩ : Shape).Idx → EReal) : (⟨2, ![100000, C]⟩ : Shape).Idx → EReal :=
  ofCoords fun n k => 0 + ∑ e : Fin 3200000, if lands ei e n then t (ix2 (srcRow ei e) k) else 0

def agg1 : S100000x64.Idx → EReal := edgeSum ei (pre1 ei x w1)

def pre2 : S100000x32.Idx → EReal := Region1.scaledOnce (agg1 ei x w1) (self1 ei x w1) (dcol ei) (row b1) w2
def self2 : S100000x32.Idx → EReal := Region1.scaledTwice (agg1 ei x w1) (self1 ei x w1) (dcol ei) (row b1) w2

def agg2 : S100000x32.Idx → EReal := edgeSum ei (pre2 ei x w1 b1 w2)

def muOut : S100000x16.Idx → EReal :=
  ofCoords (Region2.muAt (agg2 ei x w1 b1 w2) (self2 ei x w1 b1 w2) (dcol ei) (row b2))
def logvarOut : S100000x16.Idx → EReal :=
  ofCoords (Region2.logvarAt (agg2 ei x w1 b1 w2) (self2 ei x w1 b1 w2) (dcol ei) (row b2))
def decodedOut : S100000x256.Idx → EReal :=
  ofCoords (Region2.decodedAt (agg2 ei x w1 b1 w2) (self2 ei x w1 b1 w2) (dcol ei) (row b2) eps wd1 (row bd1) wd2 (row bd2))

end

end Cert.KernelIdeal.Between

end
-- ==== Proof.KernelChain.lean ====
/-
  The idealized kernel's buffers at each boundary of its run, as functions of the argument arrays.

  Walking the fold through the program — a host stretch, a region, a host stretch, a region, a host stretch, a
  region — every buffer a later step reads is identified: the column of `dinv`, the edge words, the scaled rows each
  region leaves, the edge sums the host forms from them, the bias rows.  At the last boundary the three result
  arrays are the composed forms `muOut`, `logvarOut`, `decodedOut` of the arguments.
-/
import proofs.«145747_j12695923327676_2_alg».proof.Proof.KernelRun
import proofs.«145747_j12695923327676_2_alg».proof.Proof.Stretches
import proofs.«145747_j12695923327676_2_alg».proof.Proof.Between

set_option maxRecDepth 16384

noncomputable section

namespace Cert.KernelIdeal.Chain

open Cert.KernelIdeal Cert.KernelIdeal.Gen Cert.Vgae Cert.KernelIdeal.Between Cert.KernelIdeal.Stretch
open Idealize.ShloMosaic Idealize.ShloMosaic.TcCoe Idealize.ShloMosaic.ValueIdx Idealize.SL.Sem
open scoped BigOperators

-- Nothing below depends on how `dinv` is computed: it is an opaque function of the node here.
attribute [local irreducible] Cert.Vgae.dinv

/-- Two rank-2 arrays equal at every entry are equal. -/
theorem ext2 {α : Type} {a b : Nat} {f g : (⟨2, ![a, b]⟩ : Shape).Idx → α} (h : ∀ p q, f (ix2 p q) = g (ix2 p q)) : f = g :=
  funext fun i => by rw [eq_ix2 i]; exact h _ _

/-- The edge sum at an entry, with the source row and the landing condition written out. -/
theorem edgeSum_apply {C : Nat} (ei : EdgeWords) (t : (⟨2, ![100000, C]⟩ : Shape).Idx → EReal) (n : Fin 100000) (k : Fin C) :
    edgeSum ei t (ix2 n k) = 0 + ∑ e : Fin 3200000, if (ei (ix2 (1 : Fin 2) e)).toInt = (n.val : Int)
      then t (ix2 (rowOf (wrapWord (ei (ix2 (0 : Fin 2) e)))) k) else 0 := rfl

/-- The column of `dinv` at an entry. -/
theorem dcol_apply (ei : EdgeWords) (n : Fin 100000) (u : Fin 1) : dcol ei (ix2 n u) = dinv ei n := by
  unfold dcol
  exact ofCoords_ix2 (fun n (_ : Fin 1) => dinv ei n) n u

/-- A vector kept as a one-row matrix, at an entry. -/
theorem row_apply {C : Nat} (b : (⟨1, ![C]⟩ : Shape).Idx → EReal) (u : Fin 1) (k : Fin C) : row b (ix2 u k) = b (ix1 k) := by
  unfold row
  exact ofCoords_ix2 (fun (_ : Fin 1) k => b (ix1 k)) u k

variable (m : (ℓ : Loc nD τ sig) → Buf (Elt Ideal) ℓ) (ρ : Dev nD → PrngReg) (c : Dev nD)

/-! ## The argument arrays -/

abbrev aE : EdgeWords := m ((c.tc : Thread nD τ).loc main_arg1)
abbrev aX : S100000x256.Idx → EReal := m ((c.tc : Thread nD τ).loc main_arg0)
abbrev aW1 : S256x64.Idx → EReal := m ((c.tc : Thread nD τ).loc main_arg2)
abbrev aB1 : S64.Idx → EReal := m ((c.tc : Thread nD τ).loc main_arg3)
abbrev aW2 : S64x32.Idx → EReal := m ((c.tc : Thread nD τ).loc main_arg4)
abbrev aB2 : S32.Idx → EReal := m ((c.tc : Thread nD τ).loc main_arg5)
abbrev aWd1 : S16x64.Idx → EReal := m ((c.tc : Thread nD τ).loc main_arg6)
abbrev aBd1 : S64.Idx → EReal := m ((c.tc : Thread nD τ).loc main_arg7)
abbrev aWd2 : S64x256.Idx → EReal := m ((c.tc : Thread nD τ).loc main_arg8)
abbrev aBd2 : S256.Idx → EReal := m ((c.tc : Thread nD τ).loc main_arg9)
abbrev aEps : S100000x16.Idx → EReal := m ((c.tc : Thread nD τ).loc main_arg10)

/-! ## After the first host stretch -/

theorem at1_src (e : Fin 3200000) : (V1 m ρ c main_v1 : S3200000.Idx → BitVec 32) (ix1 e) = aE m c (ix2 (0 : Fin 2) e) :=
  s0_src (W0 m ρ c) (aE m c) rfl e
theorem at1_dst (e : Fin 3200000) : (V1 m ρ c main_v3 : S3200000.Idx → BitVec 32) (ix1 e) = aE m c (ix2 (1 : Fin 2) e) :=
  s0_dst (W0 m ρ c) (aE m c) rfl e
theorem at1_dcol : (V1 m ρ c main_v11 : S100000x1.Idx → EReal) = dcol (aE m c) :=
  ext2 fun n u => (s0_dinv (W0 m ρ c) (aE m c) rfl n u).trans (dcol_apply (aE m c) n u).symm
theorem at1_aX : V1 m ρ c main_arg0 = aX m c := s0_keep_arg0 (W0 m ρ c)
theorem at1_aW1 : V1 m ρ c main_arg2 = aW1 m c := s0_keep_arg2 (W0 m ρ c)
theorem at1_aB1 : V1 m ρ c main_arg3 = aB1 m c := s0_keep_arg3 (W0 m ρ c)
theorem at1_aW2 : V1 m ρ c main_arg4 = aW2 m c := s0_keep_arg4 (W0 m ρ c)
theorem at1_aB2 : V1 m ρ c main_arg5 = aB2 m c := s0_keep_arg5 (W0 m ρ c)
theorem at1_aWd1 : V1 m ρ c main_arg6 = aWd1 m c := s0_keep_arg6 (W0 m ρ c)
theorem at1_aBd1 : V1 m ρ c main_arg7 = aBd1 m c := s0_keep_arg7 (W0 m ρ c)
theorem at1_aWd2 : V1 m ρ c main_arg8 = aWd2 m c := s0_keep_arg8 (W0 m ρ c)
theorem at1_aBd2 : V1 m ρ c main_arg9 = aBd2 m c := s0_keep_arg9 (W0 m ρ c)
theorem at1_aEps : V1 m ρ c main_arg10 = aEps m c := s0_keep_arg10 (W0 m ρ c)

/-! ## After the first region -/

theorem at2_pre : (W2 m ρ c (Proc.devRef .tc main_v12_0) : S100000x64.Idx → EReal) = pre1 (aE m c) (aX m c) (aW1 m c) := by
  refine (W2_arr m ρ c 3).trans ((Region0.final3 (V1 m ρ) c).trans ?_)
  rw [at1_aX m ρ c, at1_aW1 m ρ c, at1_dcol m ρ c]
  rfl
theorem at2_self : (W2 m ρ c (Proc.devRef .tc main_v12_1) : S100000x64.Idx → EReal) = self1 (aE m c) (aX m c) (aW1 m c) := by
  refine (W2_arr m ρ c 4).trans ((Region0.final4 (V1 m ρ) c).trans ?_)
  rw [at1_aX m ρ c, at1_aW1 m ρ c, at1_dcol m ρ c]
  rfl
theorem at2_dcol : (W2 m ρ c (Proc.devRef .tc main_v11) : S100000x1.Idx → EReal) = dcol (aE m c) :=
  ((W2_arr m ρ c 2).trans (((dat0 (V1 m ρ) c).arrAt_in 2 rfl _).trans (A_eq0 (V1 m ρ) c 2))).trans (at1_dcol m ρ c)
theorem at2_src (e : Fin 3200000) : (W2 m ρ c (Proc.devRef .tc main_v1) : S3200000.Idx → BitVec 32) (ix1 e) = aE m c (ix2 (0 : Fin 2) e) := by
  rw [W2_of_ne m ρ c main_v1 (by decide)]; exact at1_src m ρ c e
theorem at2_dst (e : Fin 3200000) : (W2 m ρ c (Proc.devRef .tc main_v3) : S3200000.Idx → BitVec 32) (ix1 e) = aE m c (ix2 (1 : Fin 2) e) := by
  rw [W2_of_ne m ρ c main_v3 (by decide)]; exact at1_dst m ρ c e
theorem at2_aB1 : W2 m ρ c (Proc.devRef .tc main_arg3) = aB1 m c :=
  (W2_of_ne m ρ c main_arg3 (by decide)).trans (at1_aB1 m ρ c)
theorem at2_aW2 : W2 m ρ c (Proc.devRef .tc main_arg4) = aW2 m c :=
  (W2_of_ne m ρ c main_arg4 (by decide)).trans (at1_aW2 m ρ c)
theorem at2_aB2 : W2 m ρ c (Proc.devRef .tc main_arg5) = aB2 m c :=
  (W2_of_ne m ρ c main_arg5 (by decide)).trans (at1_aB2 m ρ c)
theorem at2_aWd1 : W2 m ρ c (Proc.devRef .tc main_arg6) = aWd1 m c :=
  (W2_of_ne m ρ c main_arg6 (by decide)).trans (at1_aWd1 m ρ c)
theorem at2_aBd1 : W2 m ρ c (Proc.devRef .tc main_arg7) = aBd1 m c :=
  (W2_of_ne m ρ c main_arg7 (by decide)).trans (at1_aBd1 m ρ c)
theorem at2_aWd2 : W2 m ρ c (Proc.devRef .tc main_arg8) = aWd2 m c :=
  (W2_of_ne m ρ c main_arg8 (by decide)).trans (at1_aWd2 m ρ c)
theorem at2_aBd2 : W2 m ρ c (Proc.devRef .tc main_arg9) = aBd2 m c :=
  (W2_of_ne m ρ c main_arg9 (by decide)).trans (at1_aBd2 m ρ c)
theorem at2_aEps : W2 m ρ c (Proc.devRef .tc main_arg10) = aEps m c :=
  (W2_of_ne m ρ c main_arg10 (by decide)).trans (at1_aEps m ρ c)

/-! ## After the second host stretch -/

theorem at3_agg : (V3 m ρ c main_v22 : S100000x64.Idx → EReal) = agg1 (aE m c) (aX m c) (aW1 m c) :=
  ext2 fun n k => (s1_agg (W2 m ρ c) _ (fun e => aE m c (ix2 (0 : Fin 2) e)) (fun e => aE m c (ix2 (1 : Fin 2) e))
    (at2_pre m ρ c) (at2_src m ρ c) (at2_dst m ρ c) n k).trans (edgeSum_apply (aE m c) _ n k).symm
theorem at3_bias : (V3 m ρ c main_v23 : S1x64.Idx → EReal) = row (aB1 m c) :=
  ext2 fun u k => (s1_bias (W2 m ρ c) (aB1 m c) (at2_aB1 m ρ c) u k).trans (row_apply _ u k).symm
theorem at3_self : (V3 m ρ c main_v12_1 : S100000x64.Idx → EReal) = self1 (aE m c) (aX m c) (aW1 m c) :=
  (s1_keep_v12_1 (W2 m ρ c)).trans (at2_self m ρ c)
theorem at3_dcol : (V3 m ρ c main_v11 : S100000x1.Idx → EReal) = dcol (aE m c) :=
  (s1_keep_v11 (W2 m ρ c)).trans (at2_dcol m ρ c)
theorem at3_src (e : Fin 3200000) : (V3 m ρ c main_v1 : S3200000.Idx → BitVec 32) (ix1 e) = aE m c (ix2 (0 : Fin 2) e) := by
  show (StableHlo.after (hostOps1 (F := Ideal)) (W2 m ρ c) (Proc.devRef .tc main_v1) : S3200000.Idx → BitVec 32) (ix1 e) = _
  rw [s1_keep_v1 (W2 m ρ c)]; exact at2_src m ρ c e
theorem at3_dst (e : Fin 3200000) : (V3 m ρ c main_v3 : S3200000.Idx → BitVec 32) (ix1 e) = aE m c (ix2 (1 : Fin 2) e) := by
  show (StableHlo.after (hostOps1 (F := Ideal)) (W2 m ρ c) (Proc.devRef .tc main_v3) : S3200000.Idx → BitVec 32) (ix1 e) = _
  rw [s1_keep_v3 (W2 m ρ c)]; exact at2_dst m ρ c e
theorem at3_aW2 : V3 m ρ c main_arg4 = aW2 m c :=
  (s1_keep_arg4 (W2 m ρ c)).trans (at2_aW2 m ρ c)
theorem at3_aB2 : V3 m ρ c main_arg5 = aB2 m c :=
  (s1_keep_arg5 (W2 m ρ c)).trans (at2_aB2 m ρ c)
theorem at3_aWd1 : V3 m ρ c main_arg6 = aWd1 m c :=
  (s1_keep_arg6 (W2 m ρ c)).trans (at2_aWd1 m ρ c)
theorem at3_aBd1 : V3 m ρ c main_arg7 = aBd1 m c :=
  (s1_keep_arg7 (W2 m ρ c)).trans (at2_aBd1 m ρ c)
theorem at3_aWd2 : V3 m ρ c main_arg8 = aWd2 m c :=
  (s1_keep_arg8 (W2 m ρ c)).trans (at2_aWd2 m ρ c)
theorem at3_aBd2 : V3 m ρ c main_arg9 = aBd2 m c :=
  (s1_keep_arg9 (W2 m ρ c)).trans (at2_aBd2 m ρ c)
theorem at3_aEps : V3 m ρ c main_arg10 = aEps m c :=
  (s1_keep_arg10 (W2 m ρ c)).trans (at2_aEps m ρ c)

/-! ## After the second region -/

theorem at4_pre : (W4 m ρ c (Proc.devRef .tc main_v24_0) : S100000x32.Idx → EReal) = pre2 (aE m c) (aX m c) (aW1 m c) (aB1 m c) (aW2 m c) := by
  refine (W4_arr m ρ c 5).trans ((Region1.final5 (V3 m ρ) c).trans ?_)
  rw [at3_agg m ρ c, at3_self m ρ c, at3_dcol m ρ c, at3_bias m ρ c, at3_aW2 m ρ c]
  rfl
theorem at4_self : (W4 m ρ c (Proc.devRef .tc main_v24_1) : S100000x32.Idx → EReal) = self2 (aE m c) (aX m c) (aW1 m c) (aB1 m c) (aW2 m c) := by
  refine (W4_arr m ρ c 6).trans ((Region1.final6 (V3 m ρ) c).trans ?_)
  rw [at3_agg m ρ c, at3_self m ρ c, at3_dcol m ρ c, at3_bias m ρ c, at3_aW2 m ρ c]
  rfl
theorem at4_dcol : (W4 m ρ c (Proc.devRef .tc main_v11) : S100000x1.Idx → EReal) = dcol (aE m c) :=
  ((W4_arr m ρ c 2).trans (((dat1 (V3 m ρ) c).arrAt_in 2 rfl _).trans (A_eq1 (V3 m ρ) c 2))).trans (at3_dcol m ρ c)
theorem at4_src (e : Fin 3200000) : (W4 m ρ c (Proc.devRef .tc main_v1) : S3200000.Idx → BitVec 32) (ix1 e) = aE m c (ix2 (0 : Fin 2) e) := by
  rw [W4_of_ne m ρ c main_v1 (by decide)]; exact at3_src m ρ c e
theorem at4_dst (e : Fin 3200000) : (W4 m ρ c (Proc.devRef .tc main_v3) : S3200000.Idx → BitVec 32) (ix1 e) = aE m c (ix2 (1 : Fin 2) e) := by
  rw [W4_of_ne m ρ c main_v3 (by decide)]; exact at3_dst m ρ c e
theorem at4_aB2 : W4 m ρ c (Proc.devRef .tc main_arg5) = aB2 m c :=
  (W4_of_ne m ρ c main_arg5 (by decide)).trans (at3_aB2 m ρ c)
theorem at4_aWd1 : W4 m ρ c (Proc.devRef .tc main_arg6) = aWd1 m c :=
  (W4_of_ne m ρ c main_arg6 (by decide)).trans (at3_aWd1 m ρ c)
theorem at4_aBd1 : W4 m ρ c (Proc.devRef .tc main_arg7) = aBd1 m c :=
  (W4_of_ne m ρ c main_arg7 (by decide)).trans (at3_aBd1 m ρ c)
theorem at4_aWd2 : W4 m ρ c (Proc.devRef .tc main_arg8) = aWd2 m c :=
  (W4_of_ne m ρ c main_arg8 (by decide)).trans (at3_aWd2 m ρ c)
theorem at4_aBd2 : W4 m ρ c (Proc.devRef .tc main_arg9) = aBd2 m c :=
  (W4_of_ne m ρ c main_arg9 (by decide)).trans (at3_aBd2 m ρ c)
theorem at4_aEps : W4 m ρ c (Proc.devRef .tc main_arg10) = aEps m c :=
  (W4_of_ne m ρ c main_arg10 (by decide)).trans (at3_aEps m ρ c)

/-! ## After the third host stretch -/

theorem at5_agg : (V5 m ρ c main_v34 : S100000x32.Idx → EReal) = agg2 (aE m c) (aX m c) (aW1 m c) (aB1 m c) (aW2 m c) :=
  ext2 fun n k => (s2_agg (W4 m ρ c) _ (fun e => aE m c (ix2 (0 : Fin 2) e)) (fun e => aE m c (ix2 (1 : Fin 2) e))
    (at4_pre m ρ c) (at4_src m ρ c) (at4_dst m ρ c) n k).trans (edgeSum_apply (aE m c) _ n k).symm
theorem at5_bias32 : (V5 m ρ c main_v35 : S1x32.Idx → EReal) = row (aB2 m c) :=
  ext2 fun u k => (s2_bias32 (W4 m ρ c) (aB2 m c) (at4_aB2 m ρ c) u k).trans (row_apply _ u k).symm
theorem at5_bias64 : (V5 m ρ c main_v36 : S1x64.Idx → EReal) = row (aBd1 m c) :=
  ext2 fun u k => (s2_bias64 (W4 m ρ c) (aBd1 m c) (at4_aBd1 m ρ c) u k).trans (row_apply _ u k).symm
theorem at5_bias256 : (V5 m ρ c main_v37 : S1x256.Idx → EReal) = row (aBd2 m c) :=
  ext2 fun u k => (s2_bias256 (W4 m ρ c) (aBd2 m c) (at4_aBd2 m ρ c) u k).trans (row_apply _ u k).symm
theorem at5_self : (V5 m ρ c main_v24_1 : S100000x32.Idx → EReal) = self2 (aE m c) (aX m c) (aW1 m c) (aB1 m c) (aW2 m c) :=
  (s2_keep_v24_1 (W4 m ρ c)).trans (at4_self m ρ c)
theorem at5_dcol : (V5 m ρ c main_v11 : S100000x1.Idx → EReal) = dcol (aE m c) :=
  (s2_keep_v11 (W4 m ρ c)).trans (at4_dcol m ρ c)
theorem at5_aEps : V5 m ρ c main_arg10 = aEps m c :=
  (s2_keep_arg10 (W4 m ρ c)).trans (at4_aEps m ρ c)
theorem at5_aWd1 : V5 m ρ c main_arg6 = aWd1 m c :=
  (s2_keep_arg6 (W4 m ρ c)).trans (at4_aWd1 m ρ c)
theorem at5_aWd2 : V5 m ρ c main_arg8 = aWd2 m c :=
  (s2_keep_arg8 (W4 m ρ c)).trans (at4_aWd2 m ρ c)

/-! ## After the third region: the results -/

theorem at6_mu : (W6 m ρ c (Proc.devRef .tc main_v38_0) : S100000x16.Idx → EReal) = muOut (aE m c) (aX m c) (aW1 m c) (aB1 m c) (aW2 m c) (aB2 m c) := by
  refine (W6_arr m ρ c 9).trans ((Region2.final9 (V5 m ρ) c).trans ?_)
  rw [at5_agg m ρ c, at5_self m ρ c, at5_dcol m ρ c, at5_bias32 m ρ c]
  rfl
theorem at6_logvar : (W6 m ρ c (Proc.devRef .tc main_v38_1) : S100000x16.Idx → EReal) = logvarOut (aE m c) (aX m c) (aW1 m c) (aB1 m c) (aW2 m c) (aB2 m c) := by
  refine (W6_arr m ρ c 10).trans ((Region2.final10 (V5 m ρ) c).trans ?_)
  rw [at5_agg m ρ c, at5_self m ρ c, at5_dcol m ρ c, at5_bias32 m ρ c]
  rfl
theorem at6_decoded : (W6 m ρ c (Proc.devRef .tc main_v38_2) : S100000x256.Idx → EReal) = decodedOut (aE m c) (aX m c) (aW1 m c) (aB1 m c) (aW2 m c) (aB2 m c) (aWd1 m c) (aBd1 m c) (aWd2 m c) (aBd2 m c) (aEps m c) := by
  refine (W6_arr m ρ c 11).trans ((Region2.final11 (V5 m ρ) c).trans ?_)
  rw [at5_agg m ρ c, at5_self m ρ c, at5_dcol m ρ c, at5_bias32 m ρ c, at5_aEps m ρ c, at5_aWd1 m ρ c,
    at5_bias64 m ρ c, at5_aWd2 m ρ c, at5_bias256 m ρ c]
  rfl

end Cert.KernelIdeal.Chain

end
-- ==== Proof.ClosedForm.lean ====
/-
  The arrays the kernel holds between its regions, unfolded layer by layer, are the network of the specification
  with every graph-convolution layer in the arrangement that scales the rows before the edge sum and the sum after it.

  Each intermediate array is read at an entry; then, as equalities of functions so that a later layer rewrites with an
  earlier one: the first layer after its rectifier is the specification's hidden layer, the second layer's combination
  is its encoding, its two column halves are the means and the log-variances, and the sampled latent, the decoder's
  hidden layer and the decoder's output follow.

  Every step is a rewriting by an equation, never a comparison of two different terms by computation: the normalizing
  factor is a reciprocal square root of a sum over all edges, and nothing here may evaluate it.
-/
import proofs.«145747_j12695923327676_2_alg».proof.Proof.Between
import proofs.«145747_j12695923327676_2_alg».proof.Proof.Spec

noncomputable section

namespace Cert.KernelIdeal.Between

open Cert.Vgae Cert.KernelIdeal Idealize.ShloMosaic Idealize.ShloMosaic.ValueIdx
open scoped BigOperators

attribute [local irreducible] Cert.Vgae.dinv Cert.Vgae.relu

section
variable (ei : EdgeWords) (x : S100000x256.Idx → EReal) (w1 : S256x64.Idx → EReal) (b1 : S64.Idx → EReal)
  (w2 : S64x32.Idx → EReal) (b2 : S32.Idx → EReal) (wd1 : S16x64.Idx → EReal) (bd1 : S64.Idx → EReal)
  (wd2 : S64x256.Idx → EReal) (bd2 : S256.Idx → EReal) (eps : S100000x16.Idx → EReal)

/-! ## The intermediate arrays at an entry -/

/-- The column of the normalizing factors at row n. -/
theorem dcol_at (n : Fin 100000) : dcol ei (ix2 n (0 : Fin 1)) = dinv ei n := by
  rw [dcol, ofCoords_ix2]

/-- A vector kept as a one-row matrix, at a column. -/
theorem row_at {C : Nat} (b : (⟨1, ![C]⟩ : Shape).Idx → EReal) (k : Fin C) : row b (ix2 (0 : Fin 1) k) = b (ix1 k) := by
  rw [row, ofCoords_ix2]

/-- The edge sum of a table at an entry. -/
theorem edgeSum_at {C : Nat} (t : (⟨2, ![100000, C]⟩ : Shape).Idx → EReal) (n : Fin 100000) (k : Fin C) :
    edgeSum ei t (ix2 n k) = 0 + ∑ e : Fin 3200000, if lands ei e n then t (ix2 (srcRow ei e) k) else 0 := by
  rw [edgeSum, ofCoords_ix2]

/-- The projected features scaled once. -/
theorem pre1_at (m : Fin 100000) (k : Fin 64) :
    pre1 ei x w1 (ix2 m k) = lin (fun n k => x (ix2 n k)) w1 m k * dinv ei m := by
  rw [pre1, Region0.scaledOnce, ofCoords_ix2, dcol_at]

/-- The projected features scaled twice. -/
theorem self1_at (m : Fin 100000) (k : Fin 64) :
    self1 ei x w1 (ix2 m k) = lin (fun n k => x (ix2 n k)) w1 m k * dinv ei m * dinv ei m := by
  rw [self1, Region0.scaledTwice, ofCoords_ix2, dcol_at]

/-! ## The first layer -/

/-- The first layer after its rectifier is the specification's hidden layer, rows scaled before the edge sum. -/
theorem act_eq :
    Region1.actAt (agg1 ei x w1) (self1 ei x w1) (dcol ei) (row b1) = hidden (convPost ei) x w1 b1 := by
  funext n k
  rw [Region1.actAt, Cert.Vgae.hidden, Cert.Vgae.convPost, dcol_at, row_at, self1_at, agg1, edgeSum_at]
  simp only [pre1_at]

/-- The rectified first layer projected and scaled once. -/
theorem pre2_at (m : Fin 100000) (c : Fin 32) :
    pre2 ei x w1 b1 w2 (ix2 m c) = lin (hidden (convPost ei) x w1 b1) w2 m c * dinv ei m := by
  rw [pre2, Region1.scaledOnce, ofCoords_ix2, act_eq, dcol_at]

/-- The rectified first layer projected and scaled twice. -/
theorem self2_at (m : Fin 100000) (c : Fin 32) :
    self2 ei x w1 b1 w2 (ix2 m c) = lin (hidden (convPost ei) x w1 b1) w2 m c * dinv ei m * dinv ei m := by
  rw [self2, Region1.scaledTwice, ofCoords_ix2, act_eq, dcol_at]

/-! ## The second layer and its two halves -/

/-- The second layer's combination is the specification's encoding. -/
theorem enc_eq :
    Region2.encAt (agg2 ei x w1 b1 w2) (self2 ei x w1 b1 w2) (dcol ei) (row b2) = enc (convPost ei) x w1 b1 w2 b2 := by
  funext n c
  rw [Region2.encAt, Cert.Vgae.enc, Cert.Vgae.convPost, dcol_at, row_at, self2_at, agg2, edgeSum_at]
  simp only [pre2_at]

/-- Its first sixteen columns are the means. -/
theorem mu_eq :
    Region2.muAt (agg2 ei x w1 b1 w2) (self2 ei x w1 b1 w2) (dcol ei) (row b2) = mu (convPost ei) x w1 b1 w2 b2 := by
  funext n c
  rw [Region2.muAt, Cert.Vgae.mu, enc_eq]

/-- Its last sixteen columns are the log-variances. -/
theorem logvar_eq :
    Region2.logvarAt (agg2 ei x w1 b1 w2) (self2 ei x w1 b1 w2) (dcol ei) (row b2)
      = logvar (convPost ei) x w1 b1 w2 b2 := by
  funext n c
  rw [Region2.logvarAt, Cert.Vgae.logvar, enc_eq]

/-! ## The latent and the decoder -/

theorem latent_eq :
    Region2.latentAt (agg2 ei x w1 b1 w2) (self2 ei x w1 b1 w2) (dcol ei) (row b2) eps
      = latent (convPost ei) x w1 b1 w2 b2 eps := by
  funext n c
  rw [Region2.latentAt, Cert.Vgae.latent, mu_eq, logvar_eq]

theorem decHidden_eq :
    Region2.decHiddenAt (agg2 ei x w1 b1 w2) (self2 ei x w1 b1 w2) (dcol ei) (row b2) eps wd1 (row bd1)
      = decHidden (convPost ei) x w1 b1 w2 b2 wd1 bd1 eps := by
  funext n k
  rw [Region2.decHiddenAt, Cert.Vgae.decHidden, latent_eq, row_at]

theorem decoded_eq :
    Region2.decodedAt (agg2 ei x w1 b1 w2) (self2 ei x w1 b1 w2) (dcol ei) (row b2) eps wd1 (row bd1) wd2 (row bd2)
      = decoded (convPost ei) x w1 b1 w2 b2 wd1 bd1 wd2 bd2 eps := by
  funext n c
  rw [Region2.decodedAt, Cert.Vgae.decoded, decHidden_eq, row_at]

/-! ## The three outputs -/

theorem muOut_eq : muOut ei x w1 b1 w2 b2 = ofCoords (mu (convPost ei) x w1 b1 w2 b2) := by
  rw [muOut, mu_eq]

theorem logvarOut_eq : logvarOut ei x w1 b1 w2 b2 = ofCoords (logvar (convPost ei) x w1 b1 w2 b2) := by
  rw [logvarOut, logvar_eq]

theorem decodedOut_eq :
    decodedOut ei x w1 b1 w2 b2 wd1 bd1 wd2 bd2 eps
      = ofCoords (decoded (convPost ei) x w1 b1 w2 b2 wd1 bd1 wd2 bd2 eps) := by
  rw [decodedOut, decoded_eq]

end

end Cert.KernelIdeal.Between

end
-- ==== Proof.KernelValue.lean ====
/-
  The idealized kernel's results as functions of its arguments.

  Every weakly fair execution ends with the three result arrays at the network of Spec.lean in the kernel's
  arrangement of the graph-convolution layer — rows scaled by `dinv` before the edge sum, the sum scaled by `dinv`
  after it — and with the argument arrays unchanged: the run read at its last boundary, the boundary's contents
  walked back through the regions and host stretches, and the composed forms unfolded.
-/
import proofs.«145747_j12695923327676_2_alg».proof.Proof.KernelChain
import proofs.«145747_j12695923327676_2_alg».proof.Proof.ClosedForm

set_option maxRecDepth 16384

noncomputable section

namespace Cert.KernelIdeal.KValue

open Cert.KernelIdeal Cert.KernelIdeal.Gen Cert.Vgae
open Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38_2)
          = ofCoords (decoded (convPost (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v38_0) = ofCoords (mu (convPost (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v38_1) = ofCoords (logvar (convPost (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c =>
    ⟨(h c _ (mem_uc main_v38_2 (by decide))).trans ((Chain.at6_decoded m ρ c).trans (Between.decodedOut_eq _ _ _ _ _ _ _ _ _ _ _)),
     (h c _ (mem_uc main_v38_0 (by decide))).trans ((Chain.at6_mu m ρ c).trans (Between.muOut_eq _ _ _ _ _ _)),
     (h c _ (mem_uc main_v38_1 (by decide))).trans ((Chain.at6_logvar m ρ c).trans (Between.logvarOut_eq _ _ _ _ _ _)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (AtBoundary.run m ρ)

end Cert.KernelIdeal.KValue

end
-- ==== Proof.SpecConsts.lean ====
/-
  The float word of 1.0 denotes the real number one.
-/
import proofs.«145747_j12695923327676_2_alg».proof.Proof.Spec

namespace Cert.Vgae

open Idealize.ShloMosaic

/-- The single-precision word 0x3F800000 (sign 0, exponent field 127, fraction 0) is `2^0 · 1 = 1`. -/
theorem one_eq_one : one = 1 := by
  show Ideal.ofBits .f32 0x3F800000#32 = 1
  simp [Ideal.ofBits, Ideal.ieee, -EReal.coe_mul]; norm_num

end Cert.Vgae
-- ==== Proof.LibScaledSum.lean ====
/-
  A multiplier that is a nonnegative real goes through a finite sum of extended reals, and the law built on it for a
  graph-convolution layer: scaling each selected term before the sum and the sum after it is the sum of the selected
  terms times both scales.  (On the extended reals multiplication does not distribute over a sum in general: an
  infinite or a negative multiplier meets `⊤ + ⊥`.)  Also: a sum over 128 columns is the sum over the first 64 plus
  the sum over the last 64.
-/
import Mathlib.Data.EReal.Inv
import Mathlib.Algebra.BigOperators.Fin

open scoped BigOperators

namespace Cert.Law

/-- A nonnegative real multiplier goes through a finite sum of extended reals. -/
theorem mul_sum_of_nonneg_of_ne_top {E : Type*} (S : Finset E) (f : E → EReal) {r : EReal} (hr : 0 ≤ r) (hr' : r ≠ ⊤) :
    r * ∑ e ∈ S, f e = ∑ e ∈ S, r * f e := by
  classical
  induction S using Finset.induction_on with
  | empty => simp
  | insert a S ha ih =>
    rw [Finset.sum_insert ha, Finset.sum_insert ha, EReal.left_distrib_of_nonneg_of_ne_top hr hr', ih]

/-- The layer law: scaling each selected term by `s e` before the sum and the sum by `r` after it is the sum of the
    selected terms times `s e · t e`, when `t e = r` on the selected edges and `r` is a nonnegative real. -/
theorem scaled_sum {E : Type*} [Fintype E] (P : E → Prop) [DecidablePred P] (a s t : E → EReal) {r : EReal}
    (hr : 0 ≤ r) (hr' : r ≠ ⊤) (ht : ∀ e, P e → t e = r) :
    r * (0 + ∑ e, if P e then a e * s e else 0) = 0 + ∑ e, if P e then a e * (s e * t e) else 0 := by
  rw [zero_add, zero_add, mul_sum_of_nonneg_of_ne_top _ _ hr hr']
  refine Finset.sum_congr rfl fun e _ => ?_
  by_cases h : P e
  · rw [if_pos h, if_pos h, ht e h, mul_comm r, mul_assoc]
  · rw [if_neg h, if_neg h, mul_zero]

/-- A sum over 128 columns split into its two halves. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

end Cert.Law
-- ==== Proof.LayerLaw.lean ====
/-
  The two arrangements of a graph-convolution layer agree.

  The degree of a node is one plus a count of edges, so it is a real number that is at least one; its
  reciprocal square root is therefore a nonnegative real.  A nonnegative real multiplier goes through a finite
  sum of extended reals, and on an edge that lands on node n the factor of the edge's destination is the factor
  of n (a destination word whose signed reading is a row number is read as that row).  Hence scaling the rows
  before the edge sum and the sum after it gives the same layer as taking both factors on every edge, and the
  network built on either arrangement is the same.
-/
import proofs.«145747_j12695923327676_2_alg».proof.Proof.Spec
import proofs.«145747_j12695923327676_2_alg».proof.Proof.SpecConsts
import proofs.«145747_j12695923327676_2_alg».proof.Proof.LibScaledSum

noncomputable section

open Idealize.ShloMosaic Idealize.ShloMosaic.ValueIdx
open scoped BigOperators

namespace Cert.Vgae

/-! ### The degree is a real number, at least one -/

/-- A finite sum of zeros and ones is a nonnegative real. -/
theorem sum_ite_one_real {E : Type*} (S : Finset E) (P : E → Prop) [DecidablePred P] :
    ∃ r : ℝ, 0 ≤ r ∧ (∑ e ∈ S, if P e then (1 : EReal) else 0) = (r : EReal) := by
  classical
  induction S using Finset.induction_on with
  | empty => exact ⟨0, le_refl _, by simp⟩
  | insert a S ha ih =>
    obtain ⟨r, hr, hs⟩ := ih
    rw [Finset.sum_insert ha, hs]
    by_cases h : P a
    · rw [if_pos h]
      exact ⟨1 + r, by linarith, by rw [EReal.coe_add, EReal.coe_one]⟩
    · rw [if_neg h]
      exact ⟨r, hr, by rw [zero_add]⟩

/-- One plus a count of edges is a real number, at least one. -/
theorem degree_real (ei : EdgeWords) (n : Fin 100000) : ∃ r : ℝ, 1 ≤ r ∧ degree ei n = (r : EReal) := by
  obtain ⟨r, hr, hs⟩ := sum_ite_one_real (Finset.univ : Finset (Fin 3200000)) (fun e => lands ei e n)
  refine ⟨r + 1, by linarith, ?_⟩
  unfold degree
  rw [one_eq_one, zero_add, hs, EReal.coe_add, EReal.coe_one]

/-! ### The normalizing factor is a nonnegative real -/

/-- The reciprocal square root of a real that is at least one is the real 1/√r, which is nonnegative. -/
theorem dinv_real (ei : EdgeWords) (n : Fin 100000) : ∃ q : ℝ, 0 ≤ q ∧ dinv ei n = (q : EReal) := by
  obtain ⟨r, hr, hd⟩ := degree_real ei n
  have hr0 : (0 : ℝ) < r := lt_of_lt_of_le one_pos hr
  refine ⟨(Real.sqrt r)⁻¹, inv_nonneg.mpr (Real.sqrt_nonneg r), ?_⟩
  unfold dinv
  rw [hd, Ideal.rsqrt_coe, if_neg (not_lt.mpr hr0.le), if_neg hr0.ne']

theorem dinv_nonneg (ei : EdgeWords) (n : Fin 100000) : 0 ≤ dinv ei n := by
  obtain ⟨q, hq, h⟩ := dinv_real ei n
  rw [h]
  exact EReal.coe_nonneg.mpr hq

theorem dinv_ne_top (ei : EdgeWords) (n : Fin 100000) : dinv ei n ≠ ⊤ := by
  obtain ⟨q, _, h⟩ := dinv_real ei n
  rw [h]
  exact EReal.coe_ne_top q

/-! ### A destination word that names a row is read as that row -/

/-- A word whose signed reading is a row number is not negative, so it is not moved. -/
theorem wrapWord_of_toInt_nonneg (w : BitVec 32) (h : 0 ≤ w.toInt) : wrapWord w = w := by
  have hs : w.slt 0#32 = false := by
    rw [BitVec.slt]
    have h0 : (0#32 : BitVec 32).toInt = 0 := by decide
    rw [h0]
    exact decide_eq_false (not_lt.mpr h)
  unfold wrapWord Scalar.select IntOp.cmpi
  simp only [hs]
  rfl

/-- A word whose signed reading is the row number n is read as row n: it is not moved, and clamping leaves it. -/
theorem rowOf_wrapWord_of_toInt (w : BitVec 32) (n : Fin 100000) (h : w.toInt = (n.val : Int)) :
    rowOf (wrapWord w) = n := by
  rw [wrapWord_of_toInt_nonneg w (by rw [h]; exact Int.natCast_nonneg _)]
  apply Fin.ext
  show min w.toInt.toNat (100000 - 1) = n.val
  rw [h, Int.toNat_natCast]
  have := n.isLt
  omega

/-- An edge that lands on node n has destination row n. -/
theorem dstRow_of_lands (ei : EdgeWords) (e : Fin 3200000) (n : Fin 100000) (h : lands ei e n) :
    dstRow ei e = n :=
  rowOf_wrapWord_of_toInt _ n h

/-! ### The two arrangements of a layer agree -/

/-- Scaling the rows before the edge sum and the sum after it is taking both factors on every edge: the outer
    factor is a nonnegative real, so it goes through the sum, and on an edge landing on n it is the factor of
    that edge's destination. -/
theorem convPost_eq_convEdge (ei : EdgeWords) : convPost ei = convEdge ei := by
  funext C h b n c
  unfold convPost convEdge
  rw [Cert.Law.scaled_sum (fun e => lands ei e n) (fun e => h (srcRow ei e) c) (fun e => dinv ei (srcRow ei e))
      (fun e => dinv ei (dstRow ei e)) (dinv_nonneg ei n) (dinv_ne_top ei n)
      (fun e he => by rw [dstRow_of_lands ei e n he]),
    mul_assoc (h n c) (dinv ei n) (dinv ei n)]

/-! ### The network under either arrangement -/

section Net
variable (ei : EdgeWords)
variable (x : Mat 100000 256) (W1 : Mat 256 64) (b1 : Vect 64) (W2 : Mat 64 32) (b2 : Vect 32)
  (Wd1 : Mat 16 64) (bd1 : Vect 64) (Wd2 : Mat 64 256) (bd2 : Vect 256) (eps : Mat 100000 16)

theorem mu_post_eq_edge : mu (convPost ei) x W1 b1 W2 b2 = mu (convEdge ei) x W1 b1 W2 b2 := by
  rw [convPost_eq_convEdge]

theorem logvar_post_eq_edge : logvar (convPost ei) x W1 b1 W2 b2 = logvar (convEdge ei) x W1 b1 W2 b2 := by
  rw [convPost_eq_convEdge]

theorem decoded_post_eq_edge :
    decoded (convPost ei) x W1 b1 W2 b2 Wd1 bd1 Wd2 bd2 eps
      = decoded (convEdge ei) x W1 b1 W2 b2 Wd1 bd1 Wd2 bd2 eps := by
  rw [convPost_eq_convEdge]

end Net

end Cert.Vgae

end
-- ==== Proof.RefEdges.lean ====
/-
  The edge list as the reference reads it: the source and destination word of an edge (rows 0 and 1 of the
  edge array), the same words after a negative one is moved up by the node count, and the one-column index
  arrays built from them.  The program recomputes these arrays for each layer; the recomputations are the
  same terms.
-/
import proofs.«145747_j12695923327676_2_alg».proof.Proof.Gen.ReferenceIdeal.Read
import proofs.«145747_j12695923327676_2_alg».proof.Proof.Spec

noncomputable section

open Cert.ReferenceIdeal Cert.ReferenceIdeal.Read
open Cert.Vgae (ofCoords wrapWord rowOf srcRow dstRow lands degree dinv convEdge lin hidden enc mu logvar latent decHidden decoded one half)
open Idealize.ShloMosaic Idealize.ShloMosaic.ValueIdx
open scoped BigOperators

namespace Cert.ReferenceIdeal.RefValue

variable (x1 : (⟨S2x3200000, .i32⟩ : BufTy).Contents (Elt Ideal))

/-- Two indices of a rank-2 array agree when their coordinates do. -/
theorem idx2_ext {a b : Nat} (f g : (⟨2, ![a, b]⟩ : Shape).Idx) (h0 : (f 0).val = (g 0).val) (h1 : (f 1).val = (g 1).val) :
    f = g := by
  funext d; refine Fin.ext ?_
  match d with
  | ⟨0, _⟩ => exact h0
  | ⟨1, _⟩ => exact h1

/-- Two indices of a vector agree when their coordinate does. -/
theorem idx1_ext {a : Nat} (f g : (⟨1, ![a]⟩ : Shape).Idx) (h0 : (f 0).val = (g 0).val) : f = g := by
  funext d; refine Fin.ext ?_
  match d with
  | ⟨0, _⟩ => exact h0

/-- Row 0 of the edge array: the source word of edge `e`. -/
theorem srcWord_apply (e : Fin 3200000) :
    val_main_v1 (F := Ideal) x1 (ix1 e) = x1 (ix2 (0 : Fin 2) e) := by
  rw [val_main_v1_apply, val_main_v0_apply]
  congr 1
  exact idx2_ext _ _ rfl (Nat.mod_eq_of_lt e.isLt)

/-- Row 1 of the edge array: the destination word of edge `e`. -/
theorem dstWord_apply (e : Fin 3200000) :
    val_main_v3 (F := Ideal) x1 (ix1 e) = x1 (ix2 (1 : Fin 2) e) := by
  rw [val_main_v3_apply, val_main_v2_apply]
  congr 1
  exact idx2_ext _ _ rfl (Nat.mod_eq_of_lt e.isLt)

/-- The source word with a negative value moved up by the node count. -/
theorem srcWrapped_apply (e : Fin 3200000) :
    val_main_v16 (F := Ideal) x1 (ix1 e) = wrapWord (x1 (ix2 (0 : Fin 2) e)) := by
  rw [val_main_v16_apply, val_main_v13_apply, val_main_v15_apply, val_main_v12_apply, val_main_v14_apply, srcWord_apply]
  rfl

/-- The destination word with a negative value moved up by the node count. -/
theorem dstWrapped_apply (e : Fin 3200000) :
    val_main_v23 (F := Ideal) x1 (ix1 e) = wrapWord (x1 (ix2 (1 : Fin 2) e)) := by
  rw [val_main_v23_apply, val_main_v20_apply, val_main_v22_apply, val_main_v19_apply, val_main_v21_apply, dstWord_apply]
  rfl

/-- The column of destination words, which the scatters take as positions. -/
theorem dstColumn_apply (e : Fin 3200000) :
    val_main_v7 (F := Ideal) x1 (ix2 e (0 : Fin 1)) = x1 (ix2 (1 : Fin 2) e) := by
  rw [val_main_v7_apply, show idx_main_v7 (ix2 e (0 : Fin 1)) = ix1 e from idx1_ext _ _ rfl, dstWord_apply]

/-- The column of moved-up source words, which the gathers take as positions. -/
theorem srcColumn_apply (e : Fin 3200000) :
    val_main_v17 (F := Ideal) x1 (ix2 e (0 : Fin 1)) = wrapWord (x1 (ix2 (0 : Fin 2) e)) := by
  rw [val_main_v17_apply, show idx_main_v17 (ix2 e (0 : Fin 1)) = ix1 e from idx1_ext _ _ rfl, srcWrapped_apply]

/-- The column of moved-up destination words. -/
theorem dstWrappedColumn_apply (e : Fin 3200000) :
    val_main_v24 (F := Ideal) x1 (ix2 e (0 : Fin 1)) = wrapWord (x1 (ix2 (1 : Fin 2) e)) := by
  rw [val_main_v24_apply, show idx_main_v24 (ix2 e (0 : Fin 1)) = ix1 e from idx1_ext _ _ rfl, dstWrapped_apply]

/-! The later copies of the same arrays. -/

theorem v32_eq : val_main_v32 (F := Ideal) x1 = val_main_v17 (F := Ideal) x1 := rfl
theorem v38_eq : val_main_v38 (F := Ideal) x1 = val_main_v7 (F := Ideal) x1 := rfl
theorem v52_eq : val_main_v52 (F := Ideal) x1 = val_main_v7 (F := Ideal) x1 := rfl
theorem v62_eq : val_main_v62 (F := Ideal) x1 = val_main_v17 (F := Ideal) x1 := rfl
theorem v69_eq : val_main_v69 (F := Ideal) x1 = val_main_v24 (F := Ideal) x1 := rfl
theorem v77_eq : val_main_v77 (F := Ideal) x1 = val_main_v17 (F := Ideal) x1 := rfl
theorem v83_eq : val_main_v83 (F := Ideal) x1 = val_main_v7 (F := Ideal) x1 := rfl

end Cert.ReferenceIdeal.RefValue

end
-- ==== Proof.LibGatherVec.lean ====
/-
  A gather of single entries of a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- The dimension numbers of a gather of single entries of a vector: operand `[N]`, start indices `[E, 1]` (one
    position per result entry), result `[E]`; the operand's one axis collapsed, so the result has no offset axis. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e` is the vector at the position that is the start index of result entry `e`, read signed
    and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  unfold Host.gather
  congr 1
  funext a
  -- the operand has one axis, so there is one coordinate to compare
  obtain rfl : a = 0 := Subsingleton.elim _ _
  refine Fin.ext ?_
  show (vecGather N E wf).start (ix1 e) idx 0 + (vecGather N E wf).batchCoord (ix1 e) 0
    + (vecGather N E wf).offCoord (ix1 e) 0 = _
  -- no batching axis, and the one axis is collapsed: only the clamped start remains
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  -- the start index of result entry `e` is read at row `e`, column `0` of the index column
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVec

end
-- ==== Proof.RefDegree.lean ====
/-
  The degree vector and its inverse square root as the reference computes them: a scatter-add of ones at the
  destination words into a zero vector, plus one, then the reciprocal square root; and the product of the two
  gathered factors on an edge.
-/
import proofs.«145747_j12695923327676_2_alg».proof.Proof.RefEdges
import proofs.«145747_j12695923327676_2_alg».proof.Proof.LibScatterVec
import proofs.«145747_j12695923327676_2_alg».proof.Proof.LibGatherVec

noncomputable section

open Cert.ReferenceIdeal Cert.ReferenceIdeal.Read
open Cert.Vgae (ofCoords wrapWord rowOf srcRow dstRow lands degree dinv convEdge lin hidden enc mu logvar latent decHidden decoded one half)
open Idealize.ShloMosaic Idealize.ShloMosaic.ValueIdx
open scoped BigOperators

namespace Cert.ReferenceIdeal.RefValue

variable (x1 : (⟨S2x3200000, .i32⟩ : BufTy).Contents (Elt Ideal))

/-- The scatter-add of ones: the number of edges whose destination word, read signed, is `n`. -/
theorem count_apply (n : Fin 100000) :
    val_main_v8 (F := Ideal) x1 (ix1 n) = 0 + ∑ e : Fin 3200000, if lands x1 e n then one else 0 := by
  have h8 : val_main_v8 (F := Ideal) x1 (ix1 n)
      = val_main_v6 (F := Ideal) (ix1 n) + ∑ e : Fin 3200000,
          if (val_main_v7 (F := Ideal) x1 (ix2 e (0 : Fin 1))).toInt = (n.val : Int) then val_main_v5 (F := Ideal) (ix1 e) else 0 :=
    Cert.LibVec.scatterAdd_vec_apply (φ := .f32) _ (val_main_v6 (F := Ideal)) (val_main_v7 (F := Ideal) x1) (val_main_v5 (F := Ideal)) n
  rw [h8, val_main_v6_apply, val_main_cst_0_apply]
  simp only [dstColumn_apply, val_main_v5_apply, val_main_cst_apply, Ideal.ofBits_def, Ideal.ofBits_zero_f32]

/-- One plus that count. -/
theorem degree_apply (n : Fin 100000) :
    val_main_v10 (F := Ideal) x1 (ix1 n) = degree x1 n := by
  rw [val_main_v10_apply, val_main_v9_apply, val_main_cst_1_apply, count_apply]
  rfl

/-- Its reciprocal square root. -/
theorem dinv_apply (n : Fin 100000) :
    val_main_v11 (F := Ideal) x1 (ix1 n) = dinv x1 n := by
  rw [val_main_v11_apply, degree_apply, Ideal.hostUnary_rsqrt_def]
  rfl

/-- The factor gathered at an edge's source. -/
theorem srcDinv_apply (e : Fin 3200000) :
    val_main_v18 (F := Ideal) x1 (ix1 e) = dinv x1 (srcRow x1 e) := by
  have h : val_main_v18 (F := Ideal) x1 (ix1 e)
      = val_main_v11 (F := Ideal) x1 (ix1 (rowOf (val_main_v17 (F := Ideal) x1 (ix2 e (0 : Fin 1))))) :=
    Cert.LibVec.gather_vec_apply (by decide) _ (val_main_v11 (F := Ideal) x1) (val_main_v17 (F := Ideal) x1) e
  rw [h, dinv_apply, srcColumn_apply]
  rfl

/-- The factor gathered at an edge's destination. -/
theorem dstDinv_apply (e : Fin 3200000) :
    val_main_v25 (F := Ideal) x1 (ix1 e) = dinv x1 (dstRow x1 e) := by
  have h : val_main_v25 (F := Ideal) x1 (ix1 e)
      = val_main_v11 (F := Ideal) x1 (ix1 (rowOf (val_main_v24 (F := Ideal) x1 (ix2 e (0 : Fin 1))))) :=
    Cert.LibVec.gather_vec_apply (by decide) _ (val_main_v11 (F := Ideal) x1) (val_main_v24 (F := Ideal) x1) e
  rw [h, dinv_apply, dstWrappedColumn_apply]
  rfl

/-- The product of the two factors on an edge. -/
theorem edgeNorm_apply (e : Fin 3200000) :
    val_main_v26 (F := Ideal) x1 (ix1 e) = dinv x1 (srcRow x1 e) * dinv x1 (dstRow x1 e) := by
  rw [val_main_v26_apply, srcDinv_apply, dstDinv_apply]
  rfl

/-- The same product spread along a one-entry column. -/
theorem edgeNormColumn_apply (e : Fin 3200000) :
    val_main_v34 (F := Ideal) x1 (ix2 e (0 : Fin 1)) = dinv x1 (srcRow x1 e) * dinv x1 (dstRow x1 e) := by
  rw [val_main_v34_apply, show idx_main_v34 (ix2 e (0 : Fin 1)) = ix1 e from idx1_ext _ _ rfl, edgeNorm_apply]

/-- The squared factor of a node, spread along a one-entry column. -/
theorem selfNormColumn_apply (n : Fin 100000) :
    val_main_v41 (F := Ideal) x1 (ix2 n (0 : Fin 1)) = dinv x1 n * dinv x1 n := by
  rw [val_main_v41_apply, show idx_main_v41 (ix2 n (0 : Fin 1)) = ix1 n from idx1_ext _ _ rfl, val_main_v40_apply, dinv_apply]
  rfl

/-! The second layer recomputes the same arrays. -/

theorem v79_eq : val_main_v79 (F := Ideal) x1 = val_main_v34 (F := Ideal) x1 := rfl
theorem v86_eq : val_main_v86 (F := Ideal) x1 = val_main_v41 (F := Ideal) x1 := rfl

end Cert.ReferenceIdeal.RefValue

end
-- ==== Proof.RefLayer1.lean ====
/-
  The first graph-convolution layer of the reference, entry by entry: the product of the features with the
  first weight matrix, its rows gathered at the edges' sources, scaled by the edges' factors and summed into
  the destinations, plus the node's own row scaled by its squared factor, plus the bias; then the rectifier.
-/
import proofs.«145747_j12695923327676_2_alg».proof.Proof.RefDegree
import proofs.«145747_j12695923327676_2_alg».proof.Proof.LibGatherRows
import proofs.«145747_j12695923327676_2_alg».proof.Proof.LibScatterRows

noncomputable section

open Cert.ReferenceIdeal Cert.ReferenceIdeal.Read
open Cert.Vgae (ofCoords wrapWord rowOf srcRow dstRow lands degree dinv convEdge lin hidden enc mu logvar latent decHidden decoded one half)
open Idealize.ShloMosaic Idealize.ShloMosaic.ValueIdx
open scoped BigOperators

namespace Cert.ReferenceIdeal.RefValue

variable (x0 : (⟨S100000x256, .f32⟩ : BufTy).Contents (Elt Ideal))
  (x1 : (⟨S2x3200000, .i32⟩ : BufTy).Contents (Elt Ideal))
  (x2 : (⟨S256x64, .f32⟩ : BufTy).Contents (Elt Ideal))
  (x3 : (⟨S64, .f32⟩ : BufTy).Contents (Elt Ideal))

/-- The features times the first weight matrix. -/
theorem lin1_eq : val_main_v4 (F := Ideal) x0 x2 = ofCoords (lin (fun n k => x0 (ix2 n k)) x2) := by
  funext i
  obtain ⟨n, c, rfl⟩ : ∃ (n : Fin 100000) (c : Fin 64), i = ix2 n c := ⟨i 0, i 1, eq_ix2 i⟩
  rw [val_main_v4_apply]
  have hl : ∀ k : Fin 256, lidx_main_v4 (ix2 n c) k = ix2 n k := fun k => idx2_ext _ _ rfl rfl
  have hr : ∀ k : Fin 256, ridx_main_v4 (ix2 n c) k = ix2 k c := fun k => idx2_ext _ _ rfl rfl
  simp only [hl, hr]
  rfl

/-- The table's rows gathered at the edges' sources. -/
theorem gathered1_apply (e : Fin 3200000) (c : Fin 64) :
    val_main_v33 (F := Ideal) x0 x1 x2 (ix2 e c) = val_main_v4 (F := Ideal) x0 x2 (ix2 (srcRow x1 e) c) := by
  have h : val_main_v33 (F := Ideal) x0 x1 x2 (ix2 e c)
      = val_main_v4 (F := Ideal) x0 x2 (ix2 (rowOf (val_main_v32 (F := Ideal) x1 (ix2 e (0 : Fin 1)))) c) :=
    Cert.LibRows.gather_rows_apply (by decide) _ (val_main_v4 (F := Ideal) x0 x2) (val_main_v32 (F := Ideal) x1) e c
  rw [h, v32_eq, srcColumn_apply]
  rfl

/-- Each gathered row times its edge's factor. -/
theorem message1_apply (e : Fin 3200000) (c : Fin 64) :
    val_main_v36 (F := Ideal) x0 x1 x2 (ix2 e c)
      = val_main_v4 (F := Ideal) x0 x2 (ix2 (srcRow x1 e) c) * (dinv x1 (srcRow x1 e) * dinv x1 (dstRow x1 e)) := by
  rw [val_main_v36_apply, gathered1_apply, val_main_v35_apply,
    show idx_main_v35 (ix2 e c) = ix2 e (0 : Fin 1) from idx2_ext _ _ rfl rfl, edgeNormColumn_apply]
  rfl

/-- The edge sum: the scatter-add of the messages at the destination words into a zero table. -/
theorem edgeSum1_apply (n : Fin 100000) (c : Fin 64) :
    val_main_v39 (F := Ideal) x0 x1 x2 (ix2 n c)
      = 0 + ∑ e : Fin 3200000, if lands x1 e n
          then val_main_v4 (F := Ideal) x0 x2 (ix2 (srcRow x1 e) c) * (dinv x1 (srcRow x1 e) * dinv x1 (dstRow x1 e)) else 0 := by
  have h : val_main_v39 (F := Ideal) x0 x1 x2 (ix2 n c)
      = val_main_v37 (F := Ideal) (ix2 n c) + ∑ e : Fin 3200000,
          if (val_main_v38 (F := Ideal) x1 (ix2 e (0 : Fin 1))).toInt = (n.val : Int) then val_main_v36 (F := Ideal) x0 x1 x2 (ix2 e c) else 0 :=
    Cert.LibRows.scatterAdd_rows_apply (φ := .f32) _ (val_main_v37 (F := Ideal)) (val_main_v38 (F := Ideal) x1) (val_main_v36 (F := Ideal) x0 x1 x2) n c
  rw [h, val_main_v37_apply, val_main_cst_7_apply, v38_eq]
  simp only [dstColumn_apply, message1_apply, Ideal.ofBits_def, Ideal.ofBits_zero_f32]

/-- The squared factor of a node, spread along its row. -/
theorem selfNorm1_apply (n : Fin 100000) (c : Fin 64) :
    val_main_v42 (F := Ideal) x1 (ix2 n c) = dinv x1 n * dinv x1 n := by
  rw [val_main_v42_apply, show idx_main_v42 (ix2 n c) = ix2 n (0 : Fin 1) from idx2_ext _ _ rfl rfl, selfNormColumn_apply]

/-- The bias, spread along the rows. -/
theorem bias1_apply (n : Fin 100000) (c : Fin 64) :
    val_main_v46 (F := Ideal) x3 (ix2 n c) = x3 (ix1 c) := by
  rw [val_main_v46_apply, val_main_v45_apply]
  congr 1
  exact idx1_ext _ _ rfl

/-- The layer in the reference's arrangement, over the table it is applied to. -/
theorem conv1_apply (n : Fin 100000) (c : Fin 64) :
    val_main_v47 (F := Ideal) x0 x1 x2 x3 (ix2 n c)
      = convEdge x1 64 (fun n c => val_main_v4 (F := Ideal) x0 x2 (ix2 n c)) x3 n c := by
  rw [val_main_v47_apply, val_main_v44_apply, val_main_v43_apply, edgeSum1_apply, selfNorm1_apply, bias1_apply]
  rfl

/-- The first layer is the specification's layer, in the reference's arrangement, over the first product. -/
theorem conv1_eq :
    val_main_v47 (F := Ideal) x0 x1 x2 x3 = ofCoords (convEdge x1 64 (lin (fun n k => x0 (ix2 n k)) x2) x3) := by
  funext i
  obtain ⟨n, c, rfl⟩ : ∃ (n : Fin 100000) (c : Fin 64), i = ix2 n c := ⟨i 0, i 1, eq_ix2 i⟩
  rw [conv1_apply, lin1_eq]
  rfl

/-- After the rectifier: the hidden features. -/
theorem hidden_eq : val_main_v48 (F := Ideal) x0 x1 x2 x3 = ofCoords (hidden (convEdge x1) x0 x2 x3) := by
  funext i
  obtain ⟨n, c, rfl⟩ : ∃ (n : Fin 100000) (c : Fin 64), i = ix2 n c := ⟨i 0, i 1, eq_ix2 i⟩
  rw [val_main_v48_apply, val_main_call0_v0_apply, val_main_call0_cst_apply, conv1_eq]
  simp only [Ideal.maximumf_def, Ideal.ofBits_def, Ideal.ofBits_zero_f32]
  rfl

end Cert.ReferenceIdeal.RefValue

end
-- ==== Proof.RefLayer2.lean ====
/-
  The second graph-convolution layer of the reference, entry by entry, over the hidden features times the second
  weight matrix; its two column halves are the means and the log-variances.
-/
import proofs.«145747_j12695923327676_2_alg».proof.Proof.RefLayer1

noncomputable section

open Cert.ReferenceIdeal Cert.ReferenceIdeal.Read
open Cert.Vgae (ofCoords wrapWord rowOf srcRow dstRow lands degree dinv convEdge lin hidden enc mu logvar latent decHidden decoded one half)
open Idealize.ShloMosaic Idealize.ShloMosaic.ValueIdx
open scoped BigOperators

namespace Cert.ReferenceIdeal.RefValue

variable (x0 : (⟨S100000x256, .f32⟩ : BufTy).Contents (Elt Ideal))
  (x1 : (⟨S2x3200000, .i32⟩ : BufTy).Contents (Elt Ideal))
  (x2 : (⟨S256x64, .f32⟩ : BufTy).Contents (Elt Ideal))
  (x3 : (⟨S64, .f32⟩ : BufTy).Contents (Elt Ideal))
  (x4 : (⟨S64x32, .f32⟩ : BufTy).Contents (Elt Ideal))
  (x5 : (⟨S32, .f32⟩ : BufTy).Contents (Elt Ideal))

/-- The hidden features times the second weight matrix. -/
theorem lin2_eq :
    val_main_v49 (F := Ideal) x0 x1 x2 x3 x4 = ofCoords (lin (hidden (convEdge x1) x0 x2 x3) x4) := by
  funext i
  obtain ⟨n, c, rfl⟩ : ∃ (n : Fin 100000) (c : Fin 32), i = ix2 n c := ⟨i 0, i 1, eq_ix2 i⟩
  rw [val_main_v49_apply, hidden_eq]
  have hl : ∀ k : Fin 64, lidx_main_v49 (ix2 n c) k = ix2 n k := fun k => idx2_ext _ _ rfl rfl
  have hr : ∀ k : Fin 64, ridx_main_v49 (ix2 n c) k = ix2 k c := fun k => idx2_ext _ _ rfl rfl
  simp only [hl, hr]
  rfl

/-- The table's rows gathered at the edges' sources. -/
theorem gathered2_apply (e : Fin 3200000) (c : Fin 32) :
    val_main_v78 (F := Ideal) x0 x1 x2 x3 x4 (ix2 e c) = val_main_v49 (F := Ideal) x0 x1 x2 x3 x4 (ix2 (srcRow x1 e) c) := by
  have h : val_main_v78 (F := Ideal) x0 x1 x2 x3 x4 (ix2 e c)
      = val_main_v49 (F := Ideal) x0 x1 x2 x3 x4 (ix2 (rowOf (val_main_v77 (F := Ideal) x1 (ix2 e (0 : Fin 1)))) c) :=
    Cert.LibRows.gather_rows_apply (by decide) _ (val_main_v49 (F := Ideal) x0 x1 x2 x3 x4) (val_main_v77 (F := Ideal) x1) e c
  rw [h, v77_eq, srcColumn_apply]
  rfl

/-- Each gathered row times its edge's factor. -/
theorem message2_apply (e : Fin 3200000) (c : Fin 32) :
    val_main_v81 (F := Ideal) x0 x1 x2 x3 x4 (ix2 e c)
      = val_main_v49 (F := Ideal) x0 x1 x2 x3 x4 (ix2 (srcRow x1 e) c) * (dinv x1 (srcRow x1 e) * dinv x1 (dstRow x1 e)) := by
  rw [val_main_v81_apply, gathered2_apply, val_main_v80_apply,
    show idx_main_v80 (ix2 e c) = ix2 e (0 : Fin 1) from idx2_ext _ _ rfl rfl, v79_eq, edgeNormColumn_apply]
  rfl

/-- The edge sum: the scatter-add of the messages at the destination words into a zero table. -/
theorem edgeSum2_apply (n : Fin 100000) (c : Fin 32) :
    val_main_v84 (F := Ideal) x0 x1 x2 x3 x4 (ix2 n c)
      = 0 + ∑ e : Fin 3200000, if lands x1 e n
          then val_main_v49 (F := Ideal) x0 x1 x2 x3 x4 (ix2 (srcRow x1 e) c) * (dinv x1 (srcRow x1 e) * dinv x1 (dstRow x1 e)) else 0 := by
  have h : val_main_v84 (F := Ideal) x0 x1 x2 x3 x4 (ix2 n c)
      = val_main_v82 (F := Ideal) (ix2 n c) + ∑ e : Fin 3200000,
          if (val_main_v83 (F := Ideal) x1 (ix2 e (0 : Fin 1))).toInt = (n.val : Int) then val_main_v81 (F := Ideal) x0 x1 x2 x3 x4 (ix2 e c) else 0 :=
    Cert.LibRows.scatterAdd_rows_apply (φ := .f32) _ (val_main_v82 (F := Ideal)) (val_main_v83 (F := Ideal) x1) (val_main_v81 (F := Ideal) x0 x1 x2 x3 x4) n c
  rw [h, val_main_v82_apply, val_main_cst_17_apply, v83_eq]
  simp only [dstColumn_apply, message2_apply, Ideal.ofBits_def, Ideal.ofBits_zero_f32]

/-- The squared factor of a node, spread along its row. -/
theorem selfNorm2_apply (n : Fin 100000) (c : Fin 32) :
    val_main_v87 (F := Ideal) x1 (ix2 n c) = dinv x1 n * dinv x1 n := by
  rw [val_main_v87_apply, show idx_main_v87 (ix2 n c) = ix2 n (0 : Fin 1) from idx2_ext _ _ rfl rfl, v86_eq, selfNormColumn_apply]

/-- The bias, spread along the rows. -/
theorem bias2_apply (n : Fin 100000) (c : Fin 32) :
    val_main_v91 (F := Ideal) x5 (ix2 n c) = x5 (ix1 c) := by
  rw [val_main_v91_apply, val_main_v90_apply]
  congr 1
  exact idx1_ext _ _ rfl

/-- The layer in the reference's arrangement, over the table it is applied to. -/
theorem conv2_apply (n : Fin 100000) (c : Fin 32) :
    val_main_v92 (F := Ideal) x0 x1 x2 x3 x4 x5 (ix2 n c)
      = convEdge x1 32 (fun n c => val_main_v49 (F := Ideal) x0 x1 x2 x3 x4 (ix2 n c)) x5 n c := by
  rw [val_main_v92_apply, val_main_v89_apply, val_main_v88_apply, edgeSum2_apply, selfNorm2_apply, bias2_apply]
  rfl

/-- The second layer is the specification's encoder output. -/
theorem enc_eq :
    val_main_v92 (F := Ideal) x0 x1 x2 x3 x4 x5 = ofCoords (enc (convEdge x1) x0 x2 x3 x4 x5) := by
  funext i
  obtain ⟨n, c, rfl⟩ : ∃ (n : Fin 100000) (c : Fin 32), i = ix2 n c := ⟨i 0, i 1, eq_ix2 i⟩
  rw [conv2_apply, lin2_eq]
  rfl

/-- Columns 0–15: the means. -/
theorem mu_eq :
    val_main_v93 (F := Ideal) x0 x1 x2 x3 x4 x5 = ofCoords (mu (convEdge x1) x0 x2 x3 x4 x5) := by
  funext i
  obtain ⟨n, c, rfl⟩ : ∃ (n : Fin 100000) (c : Fin 16), i = ix2 n c := ⟨i 0, i 1, eq_ix2 i⟩
  rw [val_main_v93_apply, enc_eq,
    show idx_main_v93 (ix2 n c) = ix2 n (⟨0 + c.val, by omega⟩ : Fin 32) from idx2_ext _ _ rfl (Nat.zero_add _).symm]
  rfl

/-- Columns 16–31: the log-variances. -/
theorem logvar_eq :
    val_main_v94 (F := Ideal) x0 x1 x2 x3 x4 x5 = ofCoords (logvar (convEdge x1) x0 x2 x3 x4 x5) := by
  funext i
  obtain ⟨n, c, rfl⟩ : ∃ (n : Fin 100000) (c : Fin 16), i = ix2 n c := ⟨i 0, i 1, eq_ix2 i⟩
  rw [val_main_v94_apply, enc_eq,
    show idx_main_v94 (ix2 n c) = ix2 n (⟨16 + c.val, by omega⟩ : Fin 32) from idx2_ext _ _ rfl rfl]
  rfl

end Cert.ReferenceIdeal.RefValue

end
-- ==== Proof.RefDecoder.lean ====
/-
  The reparametrized latent and the two-layer decoder of the reference, entry by entry: the mean plus the noise
  times the exponential of half the log-variance; a product with a weight matrix, a bias and the rectifier; a
  second product and bias under the logistic function, which the reference writes as  1 / (1 + exp (−v)).
-/
import proofs.«145747_j12695923327676_2_alg».proof.Proof.RefLayer2
import proofs.«145747_j12695923327676_2_alg».proof.Proof.SpecConsts

noncomputable section

open Cert.ReferenceIdeal Cert.ReferenceIdeal.Read
open Cert.Vgae (ofCoords wrapWord rowOf srcRow dstRow lands degree dinv convEdge lin hidden enc mu logvar latent decHidden decoded one half)
open Idealize.ShloMosaic Idealize.ShloMosaic.ValueIdx
open scoped BigOperators

namespace Cert.ReferenceIdeal.RefValue

variable (x0 : (⟨S100000x256, .f32⟩ : BufTy).Contents (Elt Ideal))
  (x1 : (⟨S2x3200000, .i32⟩ : BufTy).Contents (Elt Ideal))
  (x2 : (⟨S256x64, .f32⟩ : BufTy).Contents (Elt Ideal))
  (x3 : (⟨S64, .f32⟩ : BufTy).Contents (Elt Ideal))
  (x4 : (⟨S64x32, .f32⟩ : BufTy).Contents (Elt Ideal))
  (x5 : (⟨S32, .f32⟩ : BufTy).Contents (Elt Ideal))
  (x6 : (⟨S16x64, .f32⟩ : BufTy).Contents (Elt Ideal))
  (x7 : (⟨S64, .f32⟩ : BufTy).Contents (Elt Ideal))
  (x8 : (⟨S64x256, .f32⟩ : BufTy).Contents (Elt Ideal))
  (x9 : (⟨S256, .f32⟩ : BufTy).Contents (Elt Ideal))
  (x10 : (⟨S100000x16, .f32⟩ : BufTy).Contents (Elt Ideal))

/-- The sampled latent. -/
theorem latent_eq :
    val_main_v99 (F := Ideal) x0 x1 x2 x3 x4 x5 x10 = ofCoords (latent (convEdge x1) x0 x2 x3 x4 x5 x10) := by
  funext i
  obtain ⟨n, c, rfl⟩ : ∃ (n : Fin 100000) (c : Fin 16), i = ix2 n c := ⟨i 0, i 1, eq_ix2 i⟩
  rw [val_main_v99_apply, val_main_v98_apply, val_main_v97_apply, val_main_v96_apply, val_main_v95_apply,
    val_main_cst_18_apply, mu_eq, logvar_eq]
  simp only [Ideal.addf_def, Ideal.mulf_def, Ideal.hostUnary_exp_def, Ideal.ofBits_def]
  rfl

/-- The latent times the decoder's first weight matrix. -/
theorem decLin1_eq :
    val_main_v100 (F := Ideal) x0 x1 x2 x3 x4 x5 x6 x10
      = ofCoords (lin (latent (convEdge x1) x0 x2 x3 x4 x5 x10) x6) := by
  funext i
  obtain ⟨n, c, rfl⟩ : ∃ (n : Fin 100000) (c : Fin 64), i = ix2 n c := ⟨i 0, i 1, eq_ix2 i⟩
  rw [val_main_v100_apply, latent_eq]
  have hl : ∀ k : Fin 16, lidx_main_v100 (ix2 n c) k = ix2 n k := fun k => idx2_ext _ _ rfl rfl
  have hr : ∀ k : Fin 16, ridx_main_v100 (ix2 n c) k = ix2 k c := fun k => idx2_ext _ _ rfl rfl
  simp only [hl, hr]
  rfl

/-- The decoder's hidden features. -/
theorem decHidden_eq :
    val_main_v104 (F := Ideal) x0 x1 x2 x3 x4 x5 x6 x7 x10
      = ofCoords (decHidden (convEdge x1) x0 x2 x3 x4 x5 x6 x7 x10) := by
  funext i
  obtain ⟨n, c, rfl⟩ : ∃ (n : Fin 100000) (c : Fin 64), i = ix2 n c := ⟨i 0, i 1, eq_ix2 i⟩
  rw [val_main_v104_apply, val_main_call1_v0_apply, val_main_call1_cst_apply, val_main_v103_apply, decLin1_eq,
    val_main_v102_apply, val_main_v101_apply,
    show idx_main_v101 (idx_main_v102 (ix2 n c)) = ix1 c from idx1_ext _ _ rfl]
  simp only [Ideal.maximumf_def, Ideal.ofBits_def, Ideal.ofBits_zero_f32]
  rfl

/-- The hidden features times the decoder's second weight matrix. -/
theorem decLin2_eq :
    val_main_v105 (F := Ideal) x0 x1 x2 x3 x4 x5 x6 x7 x8 x10
      = ofCoords (lin (decHidden (convEdge x1) x0 x2 x3 x4 x5 x6 x7 x10) x8) := by
  funext i
  obtain ⟨n, c, rfl⟩ : ∃ (n : Fin 100000) (c : Fin 256), i = ix2 n c := ⟨i 0, i 1, eq_ix2 i⟩
  rw [val_main_v105_apply, decHidden_eq]
  have hl : ∀ k : Fin 64, lidx_main_v105 (ix2 n c) k = ix2 n k := fun k => idx2_ext _ _ rfl rfl
  have hr : ∀ k : Fin 64, ridx_main_v105 (ix2 n c) k = ix2 k c := fun k => idx2_ext _ _ rfl rfl
  simp only [hl, hr]
  rfl

/-- The decoded features: the first result of the reference. -/
theorem decoded_eq :
    val_main_v114 (F := Ideal) x0 x1 x2 x3 x4 x5 x6 x7 x8 x9 x10
      = ofCoords (decoded (convEdge x1) x0 x2 x3 x4 x5 x6 x7 x8 x9 x10) := by
  funext i
  obtain ⟨n, c, rfl⟩ : ∃ (n : Fin 100000) (c : Fin 256), i = ix2 n c := ⟨i 0, i 1, eq_ix2 i⟩
  rw [val_main_v114_apply, val_main_v113_apply, val_main_cst_20_apply, val_main_v112_apply, val_main_v111_apply,
    val_main_cst_19_apply, val_main_v110_apply, val_main_v109_apply, val_main_v108_apply, decLin2_eq,
    val_main_v107_apply, val_main_v106_apply,
    show idx_main_v106 (idx_main_v107 (ix2 n c)) = ix1 c from idx1_ext _ _ rfl]
  simp only [Ideal.hostDivf_def, Ideal.addf_def, Ideal.hostUnary_exp_def, Ideal.hostNegf_def, Ideal.negf_def,
    Ideal.ofBits_def]
  -- the float word of 1.0 is the number one, so the quotient is the logistic function
  have h1 : Ideal.ofBits .f32 0x3F800000#32 = 1 := Cert.Vgae.one_eq_one
  rw [h1]
  rfl

end Cert.ReferenceIdeal.RefValue

end
-- ==== Proof.lean ====
/-
  A variational graph autoencoder's forward pass: two graph-convolution layers, a reparametrized latent and a
  two-layer decoder; the results are the decoded features, the means and the log-variances.

  A graph-convolution layer sends node features h to
      out(n, c) = Σ over edges e landing on n of  h(src e, c) · dinv(src e) · dinv(dst e)
                  + h(n, c) · dinv(n)² + b(c),        dinv(n) = 1 / √(1 + number of edges landing on n).
  The kernel scales the rows of h by dinv before the edge sum and scales the sum by dinv(n) after it; the
  reference takes both factors on every edge.  On the extended reals the two arrangements are equal because
  the scale dinv(n) is a nonnegative real number, and a nonnegative real multiplier goes through a finite sum
  of extended reals (Proof/LayerLaw.lean).

  Both programs are read, entry by entry, as one network over the arrangement of its layers (Proof/Spec.lean):
  the kernel in the first arrangement (Proof/KernelValue.lean), the reference in the second
  (Proof/RefDecoder.lean), from memories that agree on the eleven arguments.  Each program leaves its arguments
  unchanged.
-/
import proofs.«145747_j12695923327676_2_alg».proof.Defs
import proofs.«145747_j12695923327676_2_alg».proof.Proof.Gen.Kernel
import proofs.«145747_j12695923327676_2_alg».proof.Proof.Gen.Kernel.Skeleton
import proofs.«145747_j12695923327676_2_alg».proof.Proof.Gen.Kernel.Launch
import proofs.«145747_j12695923327676_2_alg».proof.Proof.Gen.Kernel.Points
import proofs.«145747_j12695923327676_2_alg».proof.Proof.Gen.Kernel.Frame
import proofs.«145747_j12695923327676_2_alg».proof.Proof.Gen.KernelIdeal
import proofs.«145747_j12695923327676_2_alg».proof.Proof.Gen.KernelIdeal.Skeleton
import proofs.«145747_j12695923327676_2_alg».proof.Proof.Gen.KernelIdeal.Launch
import proofs.«145747_j12695923327676_2_alg».proof.Proof.Gen.KernelIdeal.Points
import proofs.«145747_j12695923327676_2_alg».proof.Proof.Gen.KernelIdeal.Frame
import proofs.«145747_j12695923327676_2_alg».proof.Proof.Gen.ReferenceIdeal
import proofs.«145747_j12695923327676_2_alg».proof.Proof.Gen.Pre_finite_inputs
import Idealize.ShloMosaic.Adequacy
import Idealize.ShloMosaic.Init
import proofs.«145747_j12695923327676_2_alg».proof.Proof.KernelValue
import proofs.«145747_j12695923327676_2_alg».proof.Proof.LayerLaw
import proofs.«145747_j12695923327676_2_alg».proof.Proof.RefDecoder

noncomputable section

namespace Cert.Proof

open Idealize.ShloMosaic Idealize.ShloMosaic.TcCoe Idealize.SL.Sem

/-- The kernel runs and leaves its arguments unchanged. -/
theorem kernel_frame : Cert.frame_Kernel := fun m ρ _ => Cert.Kernel.Gen.frame m ρ

/-- So does the kernel read on the extended reals. -/
theorem kernelIdeal_frame : Cert.frame_KernelIdeal := fun m ρ _ => Cert.KernelIdeal.Gen.frame m ρ

/-- The reference runs and leaves its arguments unchanged: its run, with the three results dropped. -/
theorem referenceIdeal_frame : Cert.frame_ReferenceIdeal := fun m ρ _ =>
  (θ_run Cert.ReferenceIdeal.defs _ _).mono (fun _ h c => (h c).2.2.2) (Cert.ReferenceIdeal.Value.run (F := Ideal) m ρ)

/-- On the extended reals the kernel ends with the network in the arrangement that scales rows before the edge
    sum and the sum after it, the reference with the network in the arrangement that scales every edge, of
    arguments that agree; the layer law makes the two one function. -/
theorem algebraic : Cert.algebraic_KernelIdeal_ReferenceIdeal := by
  intro m ρ m' ρ' _ hagree
  refine ⟨_, _, _, Cert.KernelIdeal.KValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v114_eq, Cert.ReferenceIdeal.RefValue.decoded_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2,
      Cert.Vgae.decoded_post_eq_edge]
  · rw [Cert.ReferenceIdeal.Read.val_main_v93_eq, Cert.ReferenceIdeal.RefValue.mu_eq,
      (hagree c).1, (hagree c).2.1, (hagree c).2.2.1, (hagree c).2.2.2.1, (hagree c).2.2.2.2.1, (hagree c).2.2.2.2.2.1,
      Cert.Vgae.mu_post_eq_edge]
  · rw [Cert.ReferenceIdeal.Read.val_main_v94_eq, Cert.ReferenceIdeal.RefValue.logvar_eq,
      (hagree c).1, (hagree c).2.1, (hagree c).2.2.1, (hagree c).2.2.2.1, (hagree c).2.2.2.2.1, (hagree c).2.2.2.2.2.1,
      Cert.Vgae.logvar_post_eq_edge]

theorem claim : Cert.Claim :=
  ⟨Cert.Kernel.Gen.facts, Cert.KernelIdeal.Gen.facts, Cert.ReferenceIdeal.Gen.facts, Cert.Pre_finite_inputs.Gen.facts,
    kernel_frame, kernelIdeal_frame, referenceIdeal_frame, trivial, algebraic⟩

end Cert.Proof

end
